-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S129x128 : Shape := ⟨2, ![129, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1024 : S_.BroadcastsInDim S1024 (![] : Fin 0 → Fin S1024.rank)
  reducesTo_S1024_S_d0 : S1024.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S129x128 : S_.BroadcastsInDim S129x128 (![] : Fin 0 → Fin S129x128.rank)
  reducesTo_S129x128_S_d0_1 : S129x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S64x32 .f32) (main_arg17 : FVec F S32 .f32) (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x1 .f32 := Host.absf main_arg18
  let main_cst_30 : FVec F S_ .f32 := constant S_ .f32 0x7F800000#32
  let main_v80 : FVec F S32x1 .f32 := broadcastInDim S32x1 ![] bcast_S_S32x1 main_cst_30
  let main_v81 : IVec S32x1 1 := cmpf .olt main_v79 main_v80
  let main_c_31 : IVec S_ 1 := constantI S_ 1 1#1
  let main_v82 : IVec S_ 1 := (fun x v => Host.reduce IntOp.andi x v reducesTo_S32x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) (main_v48 : IVec S_ 1) (main_v49 : FVec F S129x128 .f32) (main_v50 : FVec F S129x128 .f32) : IVec S_ 1 :=
  let main_v51 : IVec S129x128 1 := cmpf .olt main_v49 main_v50
  let main_c_19 : IVec S_ 1 := constantI S_ 1 1#1
  let main_v52 : IVec S_ 1 := (fun x v => Host.reduce IntOp.andi x v reducesTo_S129x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256x128 .f32) (main_arg11 : FVec F S128 .f32) (main_arg12 : FVec F S129x128 .f32) (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S129x128 .f32 := Host.absf main_arg12
  let main_cst_18 : FVec F S_ .f32 := constant S_ .f32 0x7F800000#32
  let main_v50 : FVec F S129x128 .f32 := broadcastInDim S129x128 ![] bcast_S_S129x128 main_cst_18
  fn_part3 (F := F) main_arg13 main_arg14 main_arg15 main_arg16 main_arg17 main_arg18 main_arg19 main_v48 main_v49 main_v50

def fn_part1 {F : FTy → Type} [FloatOps F] (main_arg6 : FVec F S128x256 .f32) (main_arg7 : FVec F S256 .f32) (main_arg8 : FVec F S256x256 .f32) (main_arg9 : FVec F S256 .f32) (main_arg10 : FVec F S256x128 .f32) (main_arg11 : FVec F S128 .f32) (main_arg12 : FVec F S129x128 .f32) (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : IVec S50000 32) (main_arg3 : FVec F S1024 .f32) (main_arg4 : FVec F S1024 .f32) (main_arg5 : FVec F S1024 .f32) (main_arg6 : FVec F S128x256 .f32) (main_arg7 : FVec F S256 .f32) (main_arg8 : FVec F S256x256 .f32) (main_arg9 : FVec F S256 .f32) (main_arg10 : FVec F S256x128 .f32) (main_arg11 : FVec F S128 .f32) (main_arg12 : FVec F S129x128 .f32) (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S129x128 : Shape := ⟨2, ![129, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S1024x128 : Shape := ⟨2, ![1024, 128]⟩
abbrev S1024x1 : Shape := ⟨2, ![1024, 1]⟩
abbrev S1024x129 : Shape := ⟨2, ![1024, 129]⟩
abbrev S512x129 : Shape := ⟨2, ![512, 129]⟩
abbrev S512x1 : Shape := ⟨2, ![512, 1]⟩
abbrev S512x128 : Shape := ⟨2, ![512, 128]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S1x1 : Shape := ⟨2, ![1, 1]⟩

abbrev nBuf : Space → Nat
  | .hbm => 128
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S129x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S50000, .i32⟩
  | .hbm, ⟨21, _⟩ => ⟨S1x800000, .i32⟩
  | .hbm, ⟨22, _⟩ => ⟨S800000, .i32⟩
  | .hbm, ⟨23, _⟩ => ⟨S850000, .i32⟩
  | .hbm, ⟨24, _⟩ => ⟨S1x800000, .i32⟩
  | .hbm, ⟨25, _⟩ => ⟨S800000, .i32⟩
  | .hbm, ⟨26, _⟩ => ⟨S850000, .i32⟩
  | .hbm, ⟨27, _⟩ => ⟨S_, .f32⟩
  | .hbm, ⟨28, _⟩ => ⟨S850000, .f32⟩
  | .hbm, ⟨29, _⟩ => ⟨S_, .f32⟩
  | .hbm, ⟨30, _⟩ => ⟨S50000, .f32⟩
  | .hbm, ⟨31, _⟩ => ⟨S850000x1, .i32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x256, .bf16⟩
  | .hbm, ⟨45, _⟩ => ⟨S850000x256, .f32⟩
  | .hbm, ⟨46, _⟩ => ⟨S_, .f32⟩
  | .hbm, ⟨47, _⟩ => ⟨S50000x256, .f32⟩
  | .hbm, ⟨48, _⟩ => ⟨S850000x1, .i32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x256, .bf16⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .bf16⟩
  | .hbm, ⟨66, _⟩ => ⟨S850000x256, .f32⟩
  | .hbm, ⟨67, _⟩ => ⟨S_, .f32⟩
  | .hbm, ⟨68, _⟩ => ⟨S50000x256, .f32⟩
  | .hbm, ⟨69, _⟩ => ⟨S850000x1, .i32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x128, .bf16⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .bf16⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S1024, .f32⟩
  | .hbm, ⟨106, _⟩ => ⟨S50000x1, .i32⟩
  | .hbm, ⟨107, _⟩ => ⟨S1024, .f32⟩
  | .hbm, ⟨108, _⟩ => ⟨S_, .f32⟩
  | .hbm, ⟨109, _⟩ => ⟨S1024x128, .f32⟩
  | .hbm, ⟨110, _⟩ => ⟨S50000x1, .i32⟩
  | .hbm, ⟨111, _⟩ => ⟨S1024x128, .f32⟩
  | .hbm, ⟨112, _⟩ => ⟨S_, .f32⟩
  | .hbm, ⟨113, _⟩ => ⟨S1024, .f32⟩
  | .hbm, ⟨114, _⟩ => ⟨S1024, .f32⟩
  | .hbm, ⟨115, _⟩ => ⟨S1024x1, .f32⟩
  | .hbm, ⟨116, _⟩ => ⟨S1024x128, .f32⟩
  | .hbm, ⟨117, _⟩ => ⟨S1024x128, .f32⟩
  | .hbm, ⟨118, _⟩ => ⟨S_, .f32⟩
  | .hbm, ⟨119, _⟩ => ⟨S1024, .f32⟩
  | .hbm, ⟨120, _⟩ => ⟨S1024, .i1⟩
  | .hbm, ⟨121, _⟩ => ⟨S_, .f32⟩
  | .hbm, ⟨122, _⟩ => ⟨S_, .f32⟩
  | .hbm, ⟨123, _⟩ => ⟨S1024, .f32⟩
  | .hbm, ⟨124, _⟩ => ⟨S1024, .f32⟩
  | .hbm, ⟨125, _⟩ => ⟨S1024x1, .f32⟩
  | .hbm, ⟨126, _⟩ => ⟨S1024x129, .f32⟩
  | .hbm, ⟨127, _⟩ => ⟨S1024x1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S256x256, .f32⟩
  | .local _ .vmem, ⟨10, _⟩ => ⟨S2000x1, .f32⟩
  | .local _ .vmem, ⟨11, _⟩ => ⟨S2000x1, .f32⟩
  | .local _ .vmem, ⟨12, _⟩ => ⟨S2000x256, .bf16⟩
  | .local _ .vmem, ⟨13, _⟩ => ⟨S2000x256, .bf16⟩
  | .local _ .vmem, ⟨14, _⟩ => ⟨S2000x256, .f32⟩
  | .local _ .vmem, ⟨15, _⟩ => ⟨S2000x256, .f32⟩
  | .local _ .vmem, ⟨16, _⟩ => ⟨S256x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S512x129, .f32⟩
  | .local _ .vmem, ⟨22, _⟩ => ⟨S512x129, .f32⟩
  | .local _ .vmem, ⟨23, _⟩ => ⟨S129x128, .f32⟩
  | .local _ .vmem, ⟨24, _⟩ => ⟨S128, .f32⟩
  | .local _ .vmem, ⟨25, _⟩ => ⟨S128x64, .f32⟩
  | .local _ .vmem, ⟨26, _⟩ => ⟨S64, .f32⟩
  | .local _ .vmem, ⟨27, _⟩ => ⟨S64x32, .f32⟩
  | .local _ .vmem, ⟨28, _⟩ => ⟨S32, .f32⟩
  | .local _ .vmem, ⟨29, _⟩ => ⟨S32x1, .f32⟩
  | .local _ .vmem, ⟨30, _⟩ => ⟨S1, .f32⟩
  | .local _ .vmem, ⟨31, _⟩ => ⟨S512x1, .f32⟩
  | .local _ .vmem, ⟨32, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_6 : Ref sig .tc := ⟨.hbm, 78, rfl⟩
abbrev main_v50 : Ref sig .tc := ⟨.hbm, 79, rfl⟩
abbrev main_v51 : Ref sig .tc := ⟨.hbm, 80, rfl⟩
abbrev main_c_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_call0_v0 : Ref sig .tc := ⟨.hbm, 122, rfl⟩
abbrev main_call0_v1 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg9_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem9_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x129 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S129x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024 : S_.BroadcastsInDim S1024 (![] : Fin 0 → Fin S1024.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x1_S1024x129_d1 : Shape.Concatenates [S1024x128, S1024x1] S1024x129 1
  inb_S512x129_S512x129_0_0 : ∀ a, (![0, 0] : Fin 2 → Nat) a + S512x129.size a ≤ S512x129.size a
  h_S512x129 : 0 < S512x129.numel
  shapeCasts_S512x129_S512x129 : S512x129.ShapeCasts S512x129
  inb_S129x128_S129x128_0_0 : ∀ a, (![0, 0] : Fin 2 → Nat) a + S129x128.size a ≤ S129x128.size a
  h_S129x128 : 0 < S129x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S850000x1_S850000_n_0_0_1_wf : ScatterDims.WF S50000 S850000x1 S850000 [] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1024_S50000x1_S50000_n_0_0_1_wf : ScatterDims.WF S1024 S50000x1 S50000 [] [0] [0] 1
  scatter_S1024x128_S50000x1_S50000x128_1_0_0_1_wf : ScatterDims.WF S1024x128 S50000x1 S50000x128 [1] [0] [0] 1
  dot_S512x129_S129x128_S512x128_1_0_0_1_n_n_wf : DotDims.WF S512x129 S129x128 S512x128 [1] [0] [0] [1] [] []
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x129.size a ≤ S1024x129.size a
  hwx3_0 : ∀ i : grid3.Coords, EltTy.bits .f32 = 32 ∨ (Rect.block (s := S1024x129) S512x129.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S129x128.size a ≤ S129x128.size a
  hwx3_1 : ∀ i : grid3.Coords, EltTy.bits .f32 = 32 ∨ (Rect.block (s := S129x128) S129x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32.size a ≤ S32.size a
  hwx3_6 : ∀ i : grid3.Coords, EltTy.bits .f32 = 32 ∨ (Rect.block (s := S32) S32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x1.size a ≤ S32x1.size a
  hwx3_7 : ∀ i : grid3.Coords, EltTy.bits .f32 = 32 ∨ (Rect.block (s := S32x1) S32x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1.size a ≤ S1024x1.size a
  hwx3_9 : ∀ i : grid3.Coords, EltTy.bits .f32 = 32 ∨ (Rect.block (s := S1024x1) S512x1.size (cc3_transform_9 i) (hinb3_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def dot_S512x129_S129x128_S512x128_1_0_0_1_n_n : DotDims S512x129 S129x128 S512x128 where
  lhsContracting := [1]
  rhsContracting := [0]
  lhsNonContracting := [0]
  rhsNonContracting := [1]
  lhsBatch := []
  rhsBatch := []
  wf := dot_S512x129_S129x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v86) S512x129.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S129x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg18) S32x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg19) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v87) S512x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S129x128 : Shape := ⟨2, ![129, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x1 : Shape := ⟨2, ![50000, 1]⟩
abbrev S50000x129 : Shape := ⟨2, ![50000, 129]⟩
abbrev S1024x129 : Shape := ⟨2, ![1024, 129]⟩
abbrev S1024x1 : Shape := ⟨2, ![1024, 1]⟩
abbrev S1024x128 : Shape := ⟨2, ![1024, 128]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S1024, .f32⟩
  | 4 => ⟨S1024, .f32⟩
  | 5 => ⟨S1024, .f32⟩
  | 6 => ⟨S128x256, .f32⟩
  | 7 => ⟨S256, .f32⟩
  | 8 => ⟨S256x256, .f32⟩
  | 9 => ⟨S256, .f32⟩
  | 10 => ⟨S256x128, .f32⟩
  | 11 => ⟨S128, .f32⟩
  | 12 => ⟨S129x128, .f32⟩
  | 13 => ⟨S128, .f32⟩
  | 14 => ⟨S128x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x1, .f32⟩
  | 85 => ⟨S850000x256, .f32⟩
  | 86 => ⟨S850000x256, .f32⟩
  | 87 => ⟨S_, .f32⟩
  | 88 => ⟨S50000x256, .f32⟩
  | 89 => ⟨S850000x1, .i32⟩
  | 90 => ⟨S50000x256, .f32⟩
  | 91 => ⟨S1x256, .f32⟩
  | 92 => ⟨S50000x256, .f32⟩
  | 93 => ⟨S50000x256, .f32⟩
  | 94 => ⟨S50000x256, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S1024, .f32⟩
  | 116 => ⟨S1024, .f32⟩
  | 117 => ⟨S_, .f32⟩
  | 118 => ⟨S1024, .f32⟩
  | 119 => ⟨S1024, .f32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S50000x128, .f32⟩

abbrev hbmTy0_1 (i : Nat) : BufTy := match i % 128 with
  | 0 => ⟨S50000, .f32⟩
  | 1 => ⟨S50000x1, .f32⟩
  | 2 => ⟨S50000x129, .f32⟩
  | 3 => ⟨S_, .f32⟩
  | 4 => ⟨S50000, .f32⟩
  | 5 => ⟨S_, .f32⟩
  | 6 => ⟨S1024, .f32⟩
  | 7 => ⟨S50000x1, .i32⟩
  | 8 => ⟨S1024, .f32⟩
  | 9 => ⟨S_, .f32⟩
  | 10 => ⟨S1024x129, .f32⟩
  | 11 => ⟨S50000x1, .i32⟩
  | 12 => ⟨S1024x129, .f32⟩
  | 13 => ⟨S_, .f32⟩
  | 14 => ⟨S1024, .f32⟩
  | 15 => ⟨S1024, .f32⟩
  | 16 => ⟨S1024x1, .f32⟩
  | 17 => ⟨S1024x129, .f32⟩
  | 18 => ⟨S1024x129, .f32⟩
  | 19 => ⟨S1024x128, .f32⟩
  | 20 => ⟨S1x128, .f32⟩
  | 21 => ⟨S1024x128, .f32⟩
  | 22 => ⟨S1024x128, .f32⟩
  | 23 => ⟨S_, .f32⟩
  | 24 => ⟨S1024x128, .f32⟩
  | 25 => ⟨S1024x128, .f32⟩
  | 26 => ⟨S1024x64, .f32⟩
  | 27 => ⟨S1x64, .f32⟩
  | 28 => ⟨S1024x64, .f32⟩
  | 29 => ⟨S1024x64, .f32⟩
  | 30 => ⟨S_, .f32⟩
  | 31 => ⟨S1024x64, .f32⟩
  | 32 => ⟨S1024x64, .f32⟩
  | 33 => ⟨S1024x32, .f32⟩
  | 34 => ⟨S1x32, .f32⟩
  | 35 => ⟨S1024x32, .f32⟩
  | 36 => ⟨S1024x32, .f32⟩
  | 37 => ⟨S_, .f32⟩
  | 38 => ⟨S1024x32, .f32⟩
  | 39 => ⟨S1024x32, .f32⟩
  | 40 => ⟨S1024x1, .f32⟩
  | 41 => ⟨S1x1, .f32⟩
  | 42 => ⟨S1024x1, .f32⟩
  | 43 => ⟨S1024x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_c_14 : Ref sig .tc := ⟨.hbm, 120, rfl⟩
abbrev main_v84 : Ref sig .tc := ⟨.hbm, 121, rfl⟩
abbrev main_v85 : Ref sig .tc := ⟨.hbm, 122, rfl⟩
abbrev main_c_15 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call0_cst : Ref sig .tc := ⟨.hbm, 151, rfl⟩
abbrev main_call0_v0 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_call1_cst : Ref sig .tc := ⟨.hbm, 158, rfl⟩
abbrev main_call1_v0 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call2_cst : Ref sig .tc := ⟨.hbm, 165, rfl⟩
abbrev main_call2_v0 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024 : S_.BroadcastsInDim S1024 (![] : Fin 0 → Fin S1024.rank)
  bcast_S50000_S50000x1_0 : S50000.BroadcastsInDim S50000x1 (![0] : Fin 1 → Fin S50000x1.rank)
  concatenates_S50000x128_S50000x1_S50000x129_d1 : Shape.Concatenates [S50000x128, S50000x1] S50000x129 1
  bcast_S_S1024x129 : S_.BroadcastsInDim S1024x129 (![] : Fin 0 → Fin S1024x129.rank)
  bcast_S1024_S1024x1_0 : S1024.BroadcastsInDim S1024x1 (![0] : Fin 1 → Fin S1024x1.rank)
  bcast_S1024x1_S1024x129_0_1 : S1024x1.BroadcastsInDim S1024x129 (![0, 1] : Fin 2 → Fin S1024x129.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S1024_S50000x1_S50000_n_0_n_n_0_1_1_wf : GatherDims.WF S1024 S50000x1 S50000 [] [0] [] [0] [] 1 ![1]
  scatter_S1024_S50000x1_S50000_n_0_0_1_wf : ScatterDims.WF S1024 S50000x1 S50000 [] [0] [0] 1
  scatter_S1024x129_S50000x1_S50000x129_1_0_0_1_wf : ScatterDims.WF S1024x129 S50000x1 S50000x129 [1] [0] [0] 1
  dot_S1024x129_S129x128_S1024x128_1_0_0_1_n_n_wf : DotDims.WF S1024x129 S129x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S1024_S50000x1_S50000_n_0_n_n_0_1_1 : GatherDims S1024 S50000x1 S50000 where
  offsetDims := []
  collapsedSliceDims := [0]
  operandBatchingDims := []
  startIndicesBatchingDims := []
  startIndexMap := [0]
  indexVectorDim := 1
  sliceSizes := ![1]
  wf := gather_S1024_S50000x1_S50000_n_0_n_n_0_1_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x129_S50000x1_S50000x129_1_0_0_1 : ScatterDims S1024x129 S50000x1 S50000x129 where
  updateWindowDims := [1]
  insertedWindowDims := [0]
  scatterDimsToOperandDims := [0]
  indexVectorDim := 1
  wf := scatter_S1024x129_S50000x1_S50000x129_1_0_0_1_wf
def dot_S1024x129_S129x128_S1024x128_1_0_0_1_n_n : DotDims S1024x129 S129x128 S1024x128 where
  lhsContracting := [1]
  rhsContracting := [0]
  lhsNonContracting := [0]
  rhsNonContracting := [1]
  lhsBatch := []
  rhsBatch := []
  wf := dot_S1024x129_S129x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KernelRun.lean ====
/-
  The kernel program's run with its result named.

  Every weakly fair execution of the four launches and the host operations between them terminates without a
  fault; the result array ends at the contents the last launch's write-backs leave (the fold of the boundary
  contents through the whole program, read at the result's buffer), and the twenty argument arrays end as
  launched. This is the library's run of a program of several launch regions over the generated segments, with
  the final thread state read at the result's buffer as well as at the arguments'.
-/
import proofs.«147071_j46119358824917_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run of the whole program: the result at the last boundary's contents, the arguments unchanged. -/
theorem run_main : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c)⟩)

end Cert.KernelIdeal.KRun

end
-- ==== Proof.RefChain.lean ====
/-
  The reference program's result as a composition of five array functions.

  Each graph layer is one function of its input activations `h`: the rows of `h · W` gathered at the source
  keys, each scaled by the product of the two endpoint factors, summed into the rows of their destination keys, plus
  the bias (`layerA`, `layerB`, `layerC`: widths 128 → 256, 256 → 256, 256 → 128). `pool` appends the
  per-graph global feature gathered at each node's graph as a 129th column, sums the rows of every graph and
  divides by the larger of the graph's node count and one. `headR` is the four dense layers. The reference's
  result term is their composition (`result_eq`), by unfolding the stages' definitions.
-/
import proofs.«147071_j46119358824917_2_alg».proof.Proof.Gen.ReferenceIdeal.Read

noncomputable section

namespace Cert.ReferenceIdeal.RefChain

open Cert.ReferenceIdeal Cert.ReferenceIdeal.Gen Cert.ReferenceIdeal.Read Idealize.ShloMosaic

variable {F : FTy → Type} [FloatOps F]

/-- The first graph layer (128 → 256) as a function of its input activations. -/
def layerA (x0 : (⟨S50000x128, .f32⟩ : BufTy).Contents (Elt F)) (x1 : (⟨S2x800000, .i32⟩ : BufTy).Contents (Elt F)) (x6 : (⟨S128x256, .f32⟩ : BufTy).Contents (Elt F)) (x7 : (⟨S256, .f32⟩ : BufTy).Contents (Elt F)) : (⟨S50000x256, .f32⟩ : BufTy).Contents (Elt F) :=
  addf (Host.scatterAdd scatter_S50000x256_S850000x1_S850000x256_1_0_0_1 (val_main_v38 (F := F)) (val_main_v39 (F := F) x1) (mulf (Host.gather gather_S50000x256_S850000x1_S850000x256_1_0_n_n_0_1_1256 (Host.dotGeneral dot_S50000x128_S128x256_S50000x256_1_0_0_1_n_n none (x0) (x6)) (val_main_v33 (F := F) x1)) (val_main_v36 (F := F) x1))) (val_main_v42 (F := F) x7)

/-- The second graph layer (256 → 256) as a function of its input activations. -/
def layerB (h : (⟨S50000x256, .f32⟩ : BufTy).Contents (Elt F)) (x1 : (⟨S2x800000, .i32⟩ : BufTy).Contents (Elt F)) (x8 : (⟨S256x256, .f32⟩ : BufTy).Contents (Elt F)) (x9 : (⟨S256, .f32⟩ : BufTy).Contents (Elt F)) : (⟨S50000x256, .f32⟩ : BufTy).Contents (Elt F) :=
  addf (Host.scatterAdd scatter_S50000x256_S850000x1_S850000x256_1_0_0_1 (val_main_v56 (F := F)) (val_main_v57 (F := F) x1) (mulf (Host.gather gather_S50000x256_S850000x1_S850000x256_1_0_n_n_0_1_1256 (Host.dotGeneral dot_S50000x256_S256x256_S50000x256_1_0_0_1_n_n none h (x8)) (val_main_v51 (F := F) x1)) (val_main_v54 (F := F) x1))) (val_main_v60 (F := F) x9)

/-- The third graph layer (256 → 128) as a function of its input activations. -/
def layerC (h : (⟨S50000x256, .f32⟩ : BufTy).Contents (Elt F)) (x1 : (⟨S2x800000, .i32⟩ : BufTy).Contents (Elt F)) (x10 : (⟨S256x128, .f32⟩ : BufTy).Contents (Elt F)) (x11 : (⟨S128, .f32⟩ : BufTy).Contents (Elt F)) : (⟨S50000x128, .f32⟩ : BufTy).Contents (Elt F) :=
  addf (Host.scatterAdd scatter_S50000x128_S850000x1_S850000x128_1_0_0_1 (val_main_v74 (F := F)) (val_main_v75 (F := F) x1) (mulf (Host.gather gather_S50000x128_S850000x1_S850000x128_1_0_n_n_0_1_1128 (Host.dotGeneral dot_S50000x256_S256x128_S50000x128_1_0_0_1_n_n none h (x10)) (val_main_v69 (F := F) x1)) (val_main_v72 (F := F) x1))) (val_main_v78 (F := F) x11)

/-- Mean pooling over the graphs of the node features with the gathered global feature as a 129th column. -/
def pool (h : (⟨S50000x128, .f32⟩ : BufTy).Contents (Elt F)) (x2 : (⟨S50000, .i32⟩ : BufTy).Contents (Elt F)) (x3 x4 x5 : (⟨S1024, .f32⟩ : BufTy).Contents (Elt F)) : (⟨S1024x129, .f32⟩ : BufTy).Contents (Elt F) :=
  Host.divf (Host.scatterAdd scatter_S1024x129_S50000x1_S50000x129_1_0_0_1 (val_main_v97 (F := F)) (val_main_v98 (F := F) x2) (concatenate S50000x129 1 [⟨S50000x128, h⟩, ⟨S50000x1, (val_main_v91 (F := F) x2 x3 x4 x5)⟩] concatenates_S50000x128_S50000x1_S50000x129_d1)) (val_main_v103 (F := F) x2)

/-- The four dense layers of the head on the pooled table. -/
def headR (p : (⟨S1024x129, .f32⟩ : BufTy).Contents (Elt F)) (x12 : (⟨S129x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) (x16 : (⟨S64x32, .f32⟩ : BufTy).Contents (Elt F)) (x17 : (⟨S32, .f32⟩ : BufTy).Contents (Elt F)) (x18 : (⟨S32x1, .f32⟩ : BufTy).Contents (Elt F)) (x19 : (⟨S1, .f32⟩ : BufTy).Contents (Elt F)) : (⟨S1024x1, .f32⟩ : BufTy).Contents (Elt F) :=
  addf (Host.dotGeneral dot_S1024x32_S32x1_S1024x1_1_0_0_1_n_n none (maximumf (addf (Host.dotGeneral dot_S1024x64_S64x32_S1024x32_1_0_0_1_n_n none (maximumf (addf (Host.dotGeneral dot_S1024x128_S128x64_S1024x64_1_0_0_1_n_n none (maximumf (addf (Host.dotGeneral dot_S1024x129_S129x128_S1024x128_1_0_0_1_n_n none p (x12)) (val_main_v107 (F := F) x13)) (val_main_call0_v0 (F := F))) (x14)) (val_main_v112 (F := F) x15)) (val_main_call1_v0 (F := F))) (x16)) (val_main_v117 (F := F) x17)) (val_main_call2_v0 (F := F))) (x18)) (val_main_v122 (F := F) x19)

variable (x0 : (⟨S50000x128, .f32⟩ : BufTy).Contents (Elt F)) (x1 : (⟨S2x800000, .i32⟩ : BufTy).Contents (Elt F)) (x2 : (⟨S50000, .i32⟩ : BufTy).Contents (Elt F)) (x3 x4 x5 : (⟨S1024, .f32⟩ : BufTy).Contents (Elt F))
  (x6 : (⟨S128x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x128, .f32⟩ : BufTy).Contents (Elt F)) (x11 : (⟨S128, .f32⟩ : BufTy).Contents (Elt F))
  (x12 : (⟨S129x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) (x16 : (⟨S64x32, .f32⟩ : BufTy).Contents (Elt F)) (x17 : (⟨S32, .f32⟩ : BufTy).Contents (Elt F)) (x18 : (⟨S32x1, .f32⟩ : BufTy).Contents (Elt F)) (x19 : (⟨S1, .f32⟩ : BufTy).Contents (Elt F))

/-- The node features after the three layers. -/
def nodes : (⟨S50000x128, .f32⟩ : BufTy).Contents (Elt F) :=
  layerC (Host.tanh (layerB (Host.tanh (layerA x0 x1 x6 x7)) x1 x8 x9)) x1 x10 x11

set_option maxRecDepth 16384 in
theorem nodes_eq : val_main_v79 (F := F) x0 x1 x6 x7 x8 x9 x10 x11 = nodes (F := F) x0 x1 x6 x7 x8 x9 x10 x11 := rfl

set_option maxRecDepth 16384 in
/-- The reference's result is the head of the pooled node features. -/
theorem result_eq :
    val_main_v123 (F := F) x0 x1 x2 x3 x4 x5 x6 x7 x8 x9 x10 x11 x12 x13 x14 x15 x16 x17 x18 x19
      = headR (pool (nodes x0 x1 x6 x7 x8 x9 x10 x11) x2 x3 x4 x5) x12 x13 x14 x15 x16 x17 x18 x19 := rfl

end Cert.ReferenceIdeal.RefChain

end
-- ==== Proof.Spec.lean ====
/-
  The two array functions the kernel's four launches compute, index by index, over the extended reals.

  `lin h W s`: entry `(r, c)` is row `r` of `h` against column `c` of `W` — the sum over `k` of
  `h[r, k] · W[k, c]` — scaled by the row's own factor `s[r, 0]`.
  `dense x W b`: entry `(r, c)` is the same product of a row with a column, plus the bias `b[c]`.
  `relu x`: the larger of `x` and the float zero, entrywise.
  `head`: three dense layers each followed by `relu`, then a fourth dense layer.
-/
import Idealize.ShloMosaic.PureOps.Ideal
import Idealize.ShloMosaic.Lib.ValueIdx
import Mathlib.Algebra.BigOperators.Group.Finset.Basic

noncomputable section

open Idealize.ShloMosaic Idealize.ShloMosaic.ValueIdx

namespace Cert.Spec

/-- Row `r` of `h` against column `c` of `W`, the result scaled by the row's factor `s[r, 0]`. -/
def lin {N K D : ℕ} (h : (⟨2, ![N, K]⟩ : Shape).Idx → EReal) (W : (⟨2, ![K, D]⟩ : Shape).Idx → EReal)
    (s : (⟨2, ![N, 1]⟩ : Shape).Idx → EReal) : (⟨2, ![N, D]⟩ : Shape).Idx → EReal :=
  fun i => (∑ k : Fin K, h (ix2 (i 0) k) * W (ix2 k (i 1))) * s (ix2 (i 0) (0 : Fin 1))

/-- Row `r` of `x` against column `c` of `W`, plus the bias `b[c]`. -/
def dense {N K D : ℕ} (x : (⟨2, ![N, K]⟩ : Shape).Idx → EReal) (W : (⟨2, ![K, D]⟩ : Shape).Idx → EReal)
    (b : (⟨1, ![D]⟩ : Shape).Idx → EReal) : (⟨2, ![N, D]⟩ : Shape).Idx → EReal :=
  fun i => (∑ k : Fin K, x (ix2 (i 0) k) * W (ix2 k (i 1))) + b (ix1 (i 1))

/-- The larger of an entry and the float zero. -/
def relu {s : Shape} (x : s.Idx → EReal) : s.Idx → EReal :=
  fun i => max (x i) (Ideal.ofBits .f32 0x00000000#32)

/-- Three dense layers each followed by `relu`, then a fourth dense layer: 129 → 128 → 64 → 32 → 1 features. -/
def head {N : ℕ} (p : (⟨2, ![N, 129]⟩ : Shape).Idx → EReal)
    (W1 : (⟨2, ![129, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 1]⟩ : Shape).Idx → EReal) (b4 : (⟨1, ![1]⟩ : Shape).Idx → EReal) :
    (⟨2, ![N, 1]⟩ : Shape).Idx → EReal :=
  dense (relu (dense (relu (dense (relu (dense p W1 b1)) W2 b2)) W3 b3)) W4 b4

end Cert.Spec

end
-- ==== Proof.KChain.lean ====
/-
  The kernel program's result as a composition of array functions.

  `dcol` is the column of the nodes' normalisation factors: the inverse square root of each node's in-degree
  (self-loop included). A graph layer of the kernel (`klayerA`, `klayerB`, `klayerC`) takes the table `L` the launch
  before it wrote — the rows of `h · W`, each already scaled by its node's factor — gathers its rows at the source
  keys, sums them into the rows of their destination keys, scales each row by its node's factor and adds the bias.
  `kpool` averages the node features over each graph (dividing by the larger of the node count and one) and appends,
  as a 129th column, the graph's global feature where the graph has a node and zero where it has none. `kout` is the
  whole: three layers with `tanh` between them, the pooling, the four dense layers of the head.
-/
import proofs.«147071_j46119358824917_2_alg».proof.Proof.Gen.KernelIdeal
import proofs.«147071_j46119358824917_2_alg».proof.Proof.RefChain
import proofs.«147071_j46119358824917_2_alg».proof.Proof.Spec

noncomputable section

namespace Cert.KChain

open Cert.ReferenceIdeal Cert.ReferenceIdeal.Gen Cert.ReferenceIdeal.Read Idealize.ShloMosaic

section generic

variable {F : FTy → Type} [FloatOps F]

/-- The column of normalisation factors, one per node. -/
def dcol (x1 : (⟨S2x800000, .i32⟩ : BufTy).Contents (Elt F)) : (⟨S50000x1, .f32⟩ : BufTy).Contents (Elt F) :=
  broadcastInDim S50000x1 ![0] bcast_S50000_S50000x1_0 (val_main_v11 (F := F) x1)

/-- klayerA: the rows of the scaled table `L` gathered at the source keys, summed into the rows of their destination keys,
    each row then scaled by its own factor, plus the bias. -/
def klayerA (L : (⟨S50000x256, .bf16⟩ : BufTy).Contents (Elt F)) (x1 : (⟨S2x800000, .i32⟩ : BufTy).Contents (Elt F)) (x7 : (⟨S256, .f32⟩ : BufTy).Contents (Elt F)) : (⟨S50000x256, .f32⟩ : BufTy).Contents (Elt F) :=
  addf (mulf (Host.scatterAdd scatter_S50000x256_S850000x1_S850000x256_1_0_0_1 (val_main_v38 (F := F)) (val_main_v39 (F := F) x1) (extf .f32 (Host.gather gather_S50000x256_S850000x1_S850000x256_1_0_n_n_0_1_1256 L (val_main_v33 (F := F) x1)) Cert.KernelIdeal.Gen.bitsLt_bf16_f32)) (broadcastInDim S50000x256 ![0, 1] Cert.KernelIdeal.Gen.bcast_S50000x1_S50000x256_0_1 (dcol x1))) (val_main_v42 (F := F) x7)

/-- klayerB: the rows of the scaled table `L` gathered at the source keys, summed into the rows of their destination keys,
    each row then scaled by its own factor, plus the bias. -/
def klayerB (L : (⟨S50000x256, .bf16⟩ : BufTy).Contents (Elt F)) (x1 : (⟨S2x800000, .i32⟩ : BufTy).Contents (Elt F)) (x9 : (⟨S256, .f32⟩ : BufTy).Contents (Elt F)) : (⟨S50000x256, .f32⟩ : BufTy).Contents (Elt F) :=
  addf (mulf (Host.scatterAdd scatter_S50000x256_S850000x1_S850000x256_1_0_0_1 (val_main_v56 (F := F)) (val_main_v57 (F := F) x1) (extf .f32 (Host.gather gather_S50000x256_S850000x1_S850000x256_1_0_n_n_0_1_1256 L (val_main_v51 (F := F) x1)) Cert.KernelIdeal.Gen.bitsLt_bf16_f32)) (broadcastInDim S50000x256 ![0, 1] Cert.KernelIdeal.Gen.bcast_S50000x1_S50000x256_0_1 (dcol x1))) (val_main_v60 (F := F) x9)

/-- klayerC: the rows of the scaled table `L` gathered at the source keys, summed into the rows of their destination keys,
    each row then scaled by its own factor, plus the bias. -/
def klayerC (L : (⟨S50000x128, .bf16⟩ : BufTy).Contents (Elt F)) (x1 : (⟨S2x800000, .i32⟩ : BufTy).Contents (Elt F)) (x11 : (⟨S128, .f32⟩ : BufTy).Contents (Elt F)) : (⟨S50000x128, .f32⟩ : BufTy).Contents (Elt F) :=
  addf (mulf (Host.scatterAdd scatter_S50000x128_S850000x1_S850000x128_1_0_0_1 (val_main_v74 (F := F)) (val_main_v75 (F := F) x1) (extf .f32 (Host.gather gather_S50000x128_S850000x1_S850000x128_1_0_n_n_0_1_1128 L (val_main_v69 (F := F) x1)) Cert.KernelIdeal.Gen.bitsLt_bf16_f32)) (broadcastInDim S50000x128 ![0, 1] Cert.KernelIdeal.Gen.bcast_S50000x1_S50000x128_0_1 (dcol x1))) (val_main_v78 (F := F) x11)

/-- The pooled table: per graph, the mean of its nodes' features (the sum divided by the larger of the node count
    and one) and, as a 129th column, the graph's global feature if the graph has a node, zero otherwise. -/
def kpool (h : (⟨S50000x128, .f32⟩ : BufTy).Contents (Elt F)) (x2 : (⟨S50000, .i32⟩ : BufTy).Contents (Elt F)) (x3 x4 x5 : (⟨S1024, .f32⟩ : BufTy).Contents (Elt F)) : (⟨S1024x129, .f32⟩ : BufTy).Contents (Elt F) :=
  concatenate S1024x129 1
    [⟨S1024x128, Host.divf
        (Host.scatterAdd Cert.KernelIdeal.scatter_S1024x128_S50000x1_S50000x128_1_0_0_1
          (broadcastInDim S1024x128 ![] bcast_S_S1024x128 (constant (F := F) S_ .f32 0x00000000#32)) (val_main_v98 (F := F) x2) h)
        (broadcastInDim S1024x128 ![0, 1] Cert.KernelIdeal.Gen.bcast_S1024x1_S1024x128_0_1 (val_main_v102 (F := F) x2))⟩,
     ⟨S1024x1, broadcastInDim S1024x1 ![0] bcast_S1024_S1024x1_0
        (select (cmpf .ogt (val_main_v96 (F := F) x2) (broadcastInDim S1024 ![] bcast_S_S1024 (constant (F := F) S_ .f32 0x00000000#32)))
          (val_main_v83 (F := F) x3 x4 x5)
          (broadcastInDim S1024 ![] bcast_S_S1024 (constant (F := F) S_ .f32 0x00000000#32)))⟩]
    Cert.KernelIdeal.Gen.concatenates_S1024x128_S1024x1_S1024x129_d1

end generic

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 x5 : (⟨S1024, .f32⟩ : BufTy).Contents (Elt Ideal))
  (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
  (x12 : (⟨S129x128, .f32⟩ : BufTy).Contents (Elt Ideal)) (x13 : (⟨S128, .f32⟩ : BufTy).Contents (Elt Ideal)) (x14 : (⟨S128x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal))

/-- The node features after the kernel's three layers. -/
def knodes : (⟨S50000x128, .f32⟩ : BufTy).Contents (Elt Ideal) :=
  klayerC (F := Ideal) (Spec.lin (Host.tanh (F := Ideal) (φ := .f32) (klayerB (F := Ideal) (Spec.lin (Host.tanh (F := Ideal) (φ := .f32) (klayerA (F := Ideal) (Spec.lin x0 x6 (dcol (F := Ideal) x1)) x1 x7)) x8 (dcol (F := Ideal) x1)) x1 x9)) x10 (dcol (F := Ideal) x1)) x1 x11

/-- The kernel program's result. -/
def kout : (⟨S1024x1, .f32⟩ : BufTy).Contents (Elt Ideal) :=
  Spec.head (kpool (F := Ideal) (knodes x0 x1 x6 x7 x8 x9 x10 x11) x2 x3 x4 x5) x12 x13 x14 x15 x16 x17 x18 x19

end Cert.KChain

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.LinBlocks0.lean ====
/-
  The first scaled linear layer: the output array after its launch as one function of the arrays the launch
  finds, index by index.

  The launch walks 25 blocks of 2000 rows. At each block the body multiplies the block's 2000 × 128 rows of
  activations with the whole 128 × 256 weight and scales row `p` of the product by the block's factor
  `s[p, 0]`. Every block covers whole rows and the 25 blocks tile the 50000 rows exactly, so the array ends
  holding, at `(r, q)`, the sum over `k` of `h[r, k] · W[k, q]`, times `s[r, 0]`: `Cert.Spec.lin`.
-/
import proofs.«147071_j46119358824917_2_alg».proof.Proof.Gen.KernelIdeal.Frame
import proofs.«147071_j46119358824917_2_alg».proof.Proof.Spec
import proofs.«147071_j46119358824917_2_alg».proof.Proof.LibPlainDot
import proofs.«147071_j46119358824917_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinBlocks0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen
open scoped BigOperators

/-! ## The product's dimension numbers are plain -/

theorem dot_l0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dot_l1 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
theorem dot_r0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem dot_r1 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-! ## The body's arithmetic at an entry of the block -/

/-- Entry `(p, q)` of what the body stores: row `p` of the activations' block against column `q` of the weight,
    times the block's factor for row `p`. Changes of float format are the identity on the extended reals. -/
theorem pay_apply (x0 : Vec Ideal S2000x128 .f32) (x1 : Vec Ideal S128x256 .f32) (x2 : Vec Ideal S2000x1 .f32)
    (p : Fin 2000) (q : Fin 256) :
    k0_pay1 (F := Ideal) x0 x1 x2 (ix2 p q)
      = (∑ k : Fin 128, x0 (ix2 p k) * x1 (ix2 k q)) * x2 (ix2 p (0 : Fin 1)) := by
  unfold k0_pay1
  refine (truncf_apply (φ := .f32) (ψ := .bf16) _ bitsLt_bf16_f32 (ix2 p q)).trans ?_
  refine (mulf_apply _ _ _).trans ?_
  refine congrArg₂ (fun a b : EReal => a * b) ?_ ?_
  · refine (Cert.Lib.PlainDot.matmul_zero_apply (M := 2000) (K := 128) (N := 256) dot_S2000x128_S128x256_S2000x256_1_0_0_1_n_n rfl rfl dot_l0 dot_l1 dot_r0 dot_r1 none _ _ (ix2 p q)).trans ?_
    rfl
  · rw [shapeCast_self]
    exact Keepdims.broadcastTo_a1_ab_apply x2 _ p q

/-! ## The index maps over the grid -/

theorem hz : (![0, 0] : Fin 2 → Nat) = fun _ => 0 := funext fun a => by fin_cases a <;> rfl

/-- The printed index maps, decided over the 25 points: the activations', the factors' and the output's block index
    is `(t, 0)` at point `t`; the weight's is `(0, 0)` at every point. -/
theorem idx_facts : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## What a point writes back -/

/-- Point `t` writes back block `t` of `Cert.Spec.lin` of the arrays as the launch finds them: row `p` of the block
    is row `t · 2000 + p` of the activations and of the factors, the weight's block is the whole weight. -/
theorem flushed_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal) (Cert.Spec.lin (V c main_arg0) (V c main_arg6) (V c main_v12)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S2000x1) hz]
  obtain ⟨ht, a0, a1, w0, w1, s0, s1, o0, o1⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = Cert.Spec.lin (V c main_arg0) (V c main_arg6) (V c main_v12) (((cfg0.win 3).blk t).view.emb (ix2 p q))
  refine (pay_apply (iblk0 V c 0 t) (iblk0 V c 1 t) (iblk0 V c 2 t) p q).trans ?_
  have hp : p.val < 2000 := p.isLt
  have hq : q.val < 256 := q.isLt
  have eo : ((cfg0.win 3).blk t).view.emb (ix2 p q)
      = (ix2 (⟨t.val * 2000 + p.val, by omega⟩ : Fin 50000) q : S50000x256.Idx) := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  rw [eo]
  unfold Cert.Spec.lin
  refine congrArg₂ (fun a b : EReal => a * b) (Finset.sum_congr rfl fun k _ => congrArg₂ (fun a b : EReal => a * b) ?_ ?_) ?_
  · have hk : k.val < 128 := k.isLt
    show V c main_arg0 (((cfg0.win 0).blk t).view.emb (ix2 p k)) = V c main_arg0 (ix2 (⟨t.val * 2000 + p.val, by omega⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · have hk : k.val < 128 := k.isLt
    show V c main_arg6 (((cfg0.win 1).blk t).view.emb (ix2 k q)) = V c main_arg6 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · show V c main_v12 (((cfg0.win 2).blk t).view.emb (ix2 p (0 : Fin 1))) = V c main_v12 (ix2 (⟨t.val * 2000 + p.val, by omega⟩ : Fin 50000) (0 : Fin 1))
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega

/-! ## The blocks tile the array -/

/-- An index of the array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v13).slice (win0_3.rect t)).set ↔ _
  rw [View.set_slice_whole, Rect.mem_set_unit]
  exact Iff.rfl

/-- Row `r` is in the block of point `r / 2000`, which is written back. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by show _ < grid0.N; rw [N_0]; omega⟩, rfl⟩
  obtain ⟨_, _, _, _, _, _, _, o0, o1⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-! ## The array after the launch -/

/-- The output array after the launch is `Cert.Spec.lin` of the activations, the weight and the factors as the launch
    finds them. -/
theorem final (V : (c : Dev nD) → (b : Ref sig .tc) → Buf (Elt Ideal) ((c : Thread nD τ).loc b)) (c : Dev nD) :
    (Gen.dat0 (F := Ideal) V c).arrAt 3 cfg0.N = Cert.Spec.lin (V c main_arg0) (V c main_arg6) (V c main_v12) :=
  (dat0 (F := Ideal) V c).arrAt_eq_of_cover 3 (Cert.Spec.lin (V c main_arg0) (V c main_arg6) (V c main_v12))
    (fun t _ => flushed_eq V c t) cover

end Cert.KernelIdeal.LinBlocks0

end
-- ==== Proof.LinBlocks1.lean ====
/-
  The second scaled linear layer: the output array after its launch as one function of the arrays the launch
  finds, index by index.

  The launch walks 25 blocks of 2000 rows. At each block the body multiplies the block's 2000 × 256 rows of
  activations with the whole 256 × 256 weight and scales row `p` of the product by the block's factor
  `s[p, 0]`. Every block covers whole rows and the 25 blocks tile the 50000 rows exactly, so the array ends
  holding, at `(r, q)`, the sum over `k` of `h[r, k] · W[k, q]`, times `s[r, 0]`: `Cert.Spec.lin`.
-/
import proofs.«147071_j46119358824917_2_alg».proof.Proof.Gen.KernelIdeal.Frame
import proofs.«147071_j46119358824917_2_alg».proof.Proof.Spec
import proofs.«147071_j46119358824917_2_alg».proof.Proof.LibPlainDot
import proofs.«147071_j46119358824917_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinBlocks1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen
open scoped BigOperators

/-! ## The product's dimension numbers are plain -/

theorem dot_l0 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dot_l1 (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
theorem dot_r0 (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
theorem dot_r1 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The body's arithmetic at an entry of the block -/

/-- Entry `(p, q)` of what the body stores: row `p` of the activations' block against column `q` of the weight,
    times the block's factor for row `p`. Changes of float format are the identity on the extended reals, and so is
    the cast of the activations' block to its own shape. -/
theorem pay_apply (x0 : Vec Ideal S2000x256 .f32) (x1 : Vec Ideal S256x256 .f32) (x2 : Vec Ideal S2000x1 .f32)
    (p : Fin 2000) (q : Fin 256) :
    k1_pay1 (F := Ideal) x0 x1 x2 (ix2 p q)
      = (∑ k : Fin 256, x0 (ix2 p k) * x1 (ix2 k q)) * x2 (ix2 p (0 : Fin 1)) := by
  unfold k1_pay1
  refine (truncf_apply (φ := .f32) (ψ := .bf16) _ bitsLt_bf16_f32 (ix2 p q)).trans ?_
  refine (mulf_apply _ _ _).trans ?_
  refine congrArg₂ (fun a b : EReal => a * b) ?_ ?_
  · refine (Cert.Lib.PlainDot.matmul_zero_apply (M := 2000) (K := 256) (N := 256) dot_S2000x256_S256x256_S2000x256_1_0_0_1_n_n rfl rfl dot_l0 dot_l1 dot_r0 dot_r1 none _ _ (ix2 p q)).trans ?_
    refine Finset.sum_congr rfl fun k _ => congrArg₂ (fun a b : EReal => a * b) ?_ rfl
    exact congrFun (shapeCast_self x0 _) (ix2 p k)
  · rw [shapeCast_self]
    exact Keepdims.broadcastTo_a1_ab_apply x2 _ p q

/-! ## The index maps over the grid -/

theorem hz : (![0, 0] : Fin 2 → Nat) = fun _ => 0 := funext fun a => by fin_cases a <;> rfl

/-- The printed index maps, decided over the 25 points: the activations', the factors' and the output's block index
    is `(t, 0)` at point `t`; the weight's is `(0, 0)` at every point. -/
theorem idx_facts : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! ## What a point writes back -/

/-- Point `t` writes back block `t` of `Cert.Spec.lin` of the arrays as the launch finds them: row `p` of the block
    is row `t · 2000 + p` of the activations and of the factors, the weight's block is the whole weight. -/
theorem flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (Cert.Spec.lin (V c main_v30) (V c main_arg8) (V c main_v12)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S2000x1) hz]
  obtain ⟨ht, a0, a1, w0, w1, s0, s1, o0, o1⟩ := idx_facts t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (ix2 p q)
    = Cert.Spec.lin (V c main_v30) (V c main_arg8) (V c main_v12) (((cfg1.win 3).blk t).view.emb (ix2 p q))
  refine (pay_apply (iblk1 V c 0 t) (iblk1 V c 1 t) (iblk1 V c 2 t) p q).trans ?_
  have hp : p.val < 2000 := p.isLt
  have hq : q.val < 256 := q.isLt
  have eo : ((cfg1.win 3).blk t).view.emb (ix2 p q)
      = (ix2 (⟨t.val * 2000 + p.val, by omega⟩ : Fin 50000) q : S50000x256.Idx) := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  rw [eo]
  unfold Cert.Spec.lin
  refine congrArg₂ (fun a b : EReal => a * b) (Finset.sum_congr rfl fun k _ => congrArg₂ (fun a b : EReal => a * b) ?_ ?_) ?_
  · have hk : k.val < 256 := k.isLt
    show V c main_v30 (((cfg1.win 0).blk t).view.emb (ix2 p k)) = V c main_v30 (ix2 (⟨t.val * 2000 + p.val, by omega⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  · have hk : k.val < 256 := k.isLt
    show V c main_arg8 (((cfg1.win 1).blk t).view.emb (ix2 k q)) = V c main_arg8 (ix2 k q)
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega
  · show V c main_v12 (((cfg1.win 2).blk t).view.emb (ix2 p (0 : Fin 1))) = V c main_v12 (ix2 (⟨t.val * 2000 + p.val, by omega⟩ : Fin 50000) (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega

/-! ## The blocks tile the array -/

/-- An index of the array is in point `t`'s block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v31).slice (win1_3.rect t)).set ↔ _
  rw [View.set_slice_whole, Rect.mem_set_unit]
  exact Iff.rfl

/-- Row `r` is in the block of point `r / 2000`, which is written back. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show _ < grid1.N; rw [N_1]; omega⟩, rfl⟩
  obtain ⟨_, _, _, _, _, _, _, o0, o1⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-! ## The array after the launch -/

/-- The output array after the launch is `Cert.Spec.lin` of the activations, the weight and the factors as the launch
    finds them. -/
theorem final (V : (c : Dev nD) → (b : Ref sig .tc) → Buf (Elt Ideal) ((c : Thread nD τ).loc b)) (c : Dev nD) :
    (Gen.dat1 (F := Ideal) V c).arrAt 3 cfg1.N = Cert.Spec.lin (V c main_v30) (V c main_arg8) (V c main_v12) :=
  (dat1 (F := Ideal) V c).arrAt_eq_of_cover 3 (Cert.Spec.lin (V c main_v30) (V c main_arg8) (V c main_v12))
    (fun t _ => flushed_eq V c t) cover

end Cert.KernelIdeal.LinBlocks1

end
-- ==== Proof.LinBlocks2.lean ====
/-
  The third scaled linear layer: the output array after its launch as one function of the arrays the launch
  finds, index by index.

  The launch walks 25 blocks of 2000 rows. At each block the body multiplies the block's 2000 × 256 rows of
  activations with the whole 256 × 128 weight and scales row `p` of the product by the block's factor
  `s[p, 0]`. Every block covers whole rows and the 25 blocks tile the 50000 rows exactly, so the array ends
  holding, at `(r, q)`, the sum over `k` of `h[r, k] · W[k, q]`, times `s[r, 0]`: `Cert.Spec.lin`.
-/
import proofs.«147071_j46119358824917_2_alg».proof.Proof.Gen.KernelIdeal.Frame
import proofs.«147071_j46119358824917_2_alg».proof.Proof.Spec
import proofs.«147071_j46119358824917_2_alg».proof.Proof.LibPlainDot
import proofs.«147071_j46119358824917_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinBlocks2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen
open scoped BigOperators

/-! ## The product's dimension numbers are plain -/

theorem dot_l0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot_l1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem dot_r0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem dot_r1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The body's arithmetic at an entry of the block -/

/-- Entry `(p, q)` of what the body stores: row `p` of the activations' block against column `q` of the weight,
    times the block's factor for row `p`. Changes of float format are the identity on the extended reals, and so is
    the cast of the activations' block to its own shape. -/
theorem pay_apply (x0 : Vec Ideal S2000x256 .f32) (x1 : Vec Ideal S256x128 .f32) (x2 : Vec Ideal S2000x1 .f32)
    (p : Fin 2000) (q : Fin 128) :
    k2_pay1 (F := Ideal) x0 x1 x2 (ix2 p q)
      = (∑ k : Fin 256, x0 (ix2 p k) * x1 (ix2 k q)) * x2 (ix2 p (0 : Fin 1)) := by
  unfold k2_pay1
  refine (truncf_apply (φ := .f32) (ψ := .bf16) _ bitsLt_bf16_f32 (ix2 p q)).trans ?_
  refine (mulf_apply _ _ _).trans ?_
  refine congrArg₂ (fun a b : EReal => a * b) ?_ ?_
  · refine (Cert.Lib.PlainDot.matmul_zero_apply (M := 2000) (K := 256) (N := 128) dot_S2000x256_S256x128_S2000x128_1_0_0_1_n_n rfl rfl dot_l0 dot_l1 dot_r0 dot_r1 none _ _ (ix2 p q)).trans ?_
    refine Finset.sum_congr rfl fun k _ => congrArg₂ (fun a b : EReal => a * b) ?_ rfl
    exact congrFun (shapeCast_self x0 _) (ix2 p k)
  · rw [shapeCast_self]
    exact Keepdims.broadcastTo_a1_ab_apply x2 _ p q

/-! ## The index maps over the grid -/

theorem hz : (![0, 0] : Fin 2 → Nat) = fun _ => 0 := funext fun a => by fin_cases a <;> rfl

/-- The printed index maps, decided over the 25 points: the activations', the factors' and the output's block index
    is `(t, 0)` at point `t`; the weight's is `(0, 0)` at every point. -/
theorem idx_facts : ∀ t : Fin cfg2.N, t.val < 25
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-! ## What a point writes back -/

/-- Point `t` writes back block `t` of `Cert.Spec.lin` of the arrays as the launch finds them: row `p` of the block
    is row `t · 2000 + p` of the activations and of the factors, the weight's block is the whole weight. -/
theorem flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Spec.lin (V c main_v48) (V c main_arg10) (V c main_v12)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x128) hz, View.ld_unit_zero (S := S2000x1) hz]
  obtain ⟨ht, a0, a1, w0, w1, s0, s1, o0, o1⟩ := idx_facts t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
    = Cert.Spec.lin (V c main_v48) (V c main_arg10) (V c main_v12) (((cfg2.win 3).blk t).view.emb (ix2 p q))
  refine (pay_apply (iblk2 V c 0 t) (iblk2 V c 1 t) (iblk2 V c 2 t) p q).trans ?_
  have hp : p.val < 2000 := p.isLt
  have hq : q.val < 128 := q.isLt
  have eo : ((cfg2.win 3).blk t).view.emb (ix2 p q)
      = (ix2 (⟨t.val * 2000 + p.val, by omega⟩ : Fin 50000) q : S50000x128.Idx) := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  rw [eo]
  unfold Cert.Spec.lin
  refine congrArg₂ (fun a b : EReal => a * b) (Finset.sum_congr rfl fun k _ => congrArg₂ (fun a b : EReal => a * b) ?_ ?_) ?_
  · have hk : k.val < 256 := k.isLt
    show V c main_v48 (((cfg2.win 0).blk t).view.emb (ix2 p k)) = V c main_v48 (ix2 (⟨t.val * 2000 + p.val, by omega⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  · have hk : k.val < 256 := k.isLt
    show V c main_arg10 (((cfg2.win 1).blk t).view.emb (ix2 k q)) = V c main_arg10 (ix2 k q)
    refine congrArg _ (funext fun a => Fin.ext ?_)
    match a with
    | ⟨0, _⟩ => show win2_1.index t (0 : Fin 2) * 256 + 1 * k.val = k.val; omega
    | ⟨1, _⟩ => show win2_1.index t (1 : Fin 2) * 128 + 1 * q.val = q.val; omega
  · show V c main_v12 (((cfg2.win 2).blk t).view.emb (ix2 p (0 : Fin 1))) = V c main_v12 (ix2 (⟨t.val * 2000 + p.val, by omega⟩ : Fin 50000) (0 : Fin 1))
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega

/-! ## The blocks tile the array -/

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v49).slice (win2_3.rect t)).set ↔ _
  rw [View.set_slice_whole, Rect.mem_set_unit]
  exact Iff.rfl

/-- Row `r` is in the block of point `r / 2000`, which is written back. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show _ < grid2.N; rw [N_2]; omega⟩, rfl⟩
  obtain ⟨_, _, _, _, _, _, _, o0, o1⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-! ## The array after the launch -/

/-- The output array after the launch is `Cert.Spec.lin` of the activations, the weight and the factors as the launch
    finds them. -/
theorem final (V : (c : Dev nD) → (b : Ref sig .tc) → Buf (Elt Ideal) ((c : Thread nD τ).loc b)) (c : Dev nD) :
    (Gen.dat2 (F := Ideal) V c).arrAt 3 cfg2.N = Cert.Spec.lin (V c main_v48) (V c main_arg10) (V c main_v12) :=
  (dat2 (F := Ideal) V c).arrAt_eq_of_cover 3 (Cert.Spec.lin (V c main_v48) (V c main_arg10) (V c main_v12))
    (fun t _ => flushed_eq V c t) cover

end Cert.KernelIdeal.LinBlocks2

end
-- ==== Proof.HeadPayload.lean ====
/-
  The head's arithmetic on one block of rows, index by index over the extended reals.

  A dense layer of a block — the product of the block with a weight matrix into the zero accumulator, plus the bias
  row spread over the block's rows — is `Spec.dense` of the block; the maximum against the zero word is `Spec.relu`;
  so the four layers the body composes are `Spec.head` of the block and the eight parameter arrays.
-/
import proofs.«147071_j46119358824917_2_alg».proof.Proof.Gen.KernelIdeal.Skeleton
import proofs.«147071_j46119358824917_2_alg».proof.Proof.Spec
import proofs.«147071_j46119358824917_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HeadBlocks

open Idealize.ShloMosaic Idealize.ShloMosaic.ValueIdx Cert.KernelIdeal Cert.KernelIdeal.Gen

/-! ## One dense layer of a block, generic in the sizes -/

/-- A block times a weight matrix into the zero accumulator, plus the bias row spread over the rows, at `(p, q)`:
    row `p` of the block against column `q` of the weights, plus the bias at `q`. -/
theorem dense_block_apply {M K N : ℕ}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (x : FVec Ideal (⟨2, ![M, K]⟩ : Shape) .f32) (W : FVec Ideal (⟨2, ![K, N]⟩ : Shape) .f32)
    (b : FVec Ideal (⟨1, ![N]⟩ : Shape) .f32) (hx : FTy.bits .bf16 < FTy.bits .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul D none (truncf .bf16 x hx) (truncf .bf16 W hx) (constant (F := Ideal) (⟨2, ![M, N]⟩ : Shape) .f32 0x00000000#32))
        (broadcastTo (⟨2, ![M, N]⟩ : Shape) (shapeCast (⟨2, ![1, N]⟩ : Shape) b hc) hb) (ix2 p q)
      = (∑ k : Fin K, x (ix2 p k) * W (ix2 k q)) + b (ix1 q) := by
  refine (addf_apply _ _ (ix2 p q)).trans ?_
  refine congrArg₂ (fun a c : EReal => a + c) ?_ ?_
  · exact Cert.Lib.PlainDot.matmul_zero_apply D hr hs l0 l1 r0 r1 none _ _ (ix2 p q)
  · exact (broadcastTo_1b_ab_apply _ hb p q).trans (shapeCast_a_1a_apply b hc 0 q)

/-- The same as one array: `Spec.dense` of the block. -/
theorem dense_block_eq {M K N : ℕ}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (x : FVec Ideal (⟨2, ![M, K]⟩ : Shape) .f32) (W : FVec Ideal (⟨2, ![K, N]⟩ : Shape) .f32)
    (b : FVec Ideal (⟨1, ![N]⟩ : Shape) .f32) (hx : FTy.bits .bf16 < FTy.bits .f32)
    (hc : (⟨1, ![N]⟩ : Shape).ShapeCasts ⟨2, ![1, N]⟩) (hb : (⟨2, ![1, N]⟩ : Shape).Broadcasts ⟨2, ![M, N]⟩) :
    addf (matmul D none (truncf .bf16 x hx) (truncf .bf16 W hx) (constant (F := Ideal) (⟨2, ![M, N]⟩ : Shape) .f32 0x00000000#32))
        (broadcastTo (⟨2, ![M, N]⟩ : Shape) (shapeCast (⟨2, ![1, N]⟩ : Shape) b hc) hb)
      = Cert.Spec.dense x W b := by
  funext j
  obtain ⟨p, q, rfl⟩ : ∃ (p : Fin M) (q : Fin N), j = ix2 p q := ⟨j 0, j 1, eq_ix2 j⟩
  exact dense_block_apply D hr hs l0 l1 r0 r1 x W b hx hc hb p q

/-- The maximum against the spread zero word is `Spec.relu`. -/
theorem relu_block_eq {s : Shape} (y : FVec Ideal s .f32) :
    maximumf y (broadcast s (Scalar.ofBits (F := Ideal) .f32 0x00000000#32)) = Cert.Spec.relu y := rfl

/-! Product 1: the operand coordinates of its dimension numbers. -/

theorem prod1_l0 (i : S512x128.Idx) (q : dot_S512x129_S129x128_S512x128_1_0_0_1_n_n.contr.Idx) :
    (dot_S512x129_S129x128_S512x128_1_0_0_1_n_n.lhsIdx i q 0).val = (i 0).val := by
  unfold DotDims.lhsIdx
  rw [dif_neg (show ¬(0 : Fin S512x129.rank) ∈ dot_S512x129_S129x128_S512x128_1_0_0_1_n_n.lhsBatch by decide), dif_pos (show (0 : Fin S512x129.rank) ∈ dot_S512x129_S129x128_S512x128_1_0_0_1_n_n.lhsNonContracting by decide)]
  rfl
theorem prod1_l1 (i : S512x128.Idx) (q : dot_S512x129_S129x128_S512x128_1_0_0_1_n_n.contr.Idx) :
    (dot_S512x129_S129x128_S512x128_1_0_0_1_n_n.lhsIdx i q 1).val = (q ⟨0, by decide⟩).val :=
  dot_S512x129_S129x128_S512x128_1_0_0_1_n_n.lhsIdx_val_of_single rfl i q
theorem prod1_r0 (i : S512x128.Idx) (q : dot_S512x129_S129x128_S512x128_1_0_0_1_n_n.contr.Idx) :
    (dot_S512x129_S129x128_S512x128_1_0_0_1_n_n.rhsIdx i q 0).val = (q ⟨0, by decide⟩).val :=
  dot_S512x129_S129x128_S512x128_1_0_0_1_n_n.rhsIdx_val_of_single rfl i q
theorem prod1_r1 (i : S512x128.Idx) (q : dot_S512x129_S129x128_S512x128_1_0_0_1_n_n.contr.Idx) :
    (dot_S512x129_S129x128_S512x128_1_0_0_1_n_n.rhsIdx i q 1).val = (i 1).val := by
  unfold DotDims.rhsIdx
  rw [dif_neg (show ¬(1 : Fin S129x128.rank) ∈ dot_S512x129_S129x128_S512x128_1_0_0_1_n_n.rhsBatch by decide), dif_pos (show (1 : Fin S129x128.rank) ∈ dot_S512x129_S129x128_S512x128_1_0_0_1_n_n.rhsNonContracting by decide)]
  rfl

/-! Product 2: the operand coordinates of its dimension numbers. -/

theorem prod2_l0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem prod2_l1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem prod2_r0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem prod2_r1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-! Product 3: the operand coordinates of its dimension numbers. -/

theorem prod3_l0 (i : S512x32.Idx) (q : dot_S512x64_S64x32_S512x32_1_0_0_1_n_n.contr.Idx) :
    (dot_S512x64_S64x32_S512x32_1_0_0_1_n_n.lhsIdx i q 0).val = (i 0).val := by
  unfold DotDims.lhsIdx
  rw [dif_neg (show ¬(0 : Fin S512x64.rank) ∈ dot_S512x64_S64x32_S512x32_1_0_0_1_n_n.lhsBatch by decide), dif_pos (show (0 : Fin S512x64.rank) ∈ dot_S512x64_S64x32_S512x32_1_0_0_1_n_n.lhsNonContracting by decide)]
  rfl
theorem prod3_l1 (i : S512x32.Idx) (q : dot_S512x64_S64x32_S512x32_1_0_0_1_n_n.contr.Idx) :
    (dot_S512x64_S64x32_S512x32_1_0_0_1_n_n.lhsIdx i q 1).val = (q ⟨0, by decide⟩).val :=
  dot_S512x64_S64x32_S512x32_1_0_0_1_n_n.lhsIdx_val_of_single rfl i q
theorem prod3_r0 (i : S512x32.Idx) (q : dot_S512x64_S64x32_S512x32_1_0_0_1_n_n.contr.Idx) :
    (dot_S512x64_S64x32_S512x32_1_0_0_1_n_n.rhsIdx i q 0).val = (q ⟨0, by decide⟩).val :=
  dot_S512x64_S64x32_S512x32_1_0_0_1_n_n.rhsIdx_val_of_single rfl i q
theorem prod3_r1 (i : S512x32.Idx) (q : dot_S512x64_S64x32_S512x32_1_0_0_1_n_n.contr.Idx) :
    (dot_S512x64_S64x32_S512x32_1_0_0_1_n_n.rhsIdx i q 1).val = (i 1).val := by
  unfold DotDims.rhsIdx
  rw [dif_neg (show ¬(1 : Fin S64x32.rank) ∈ dot_S512x64_S64x32_S512x32_1_0_0_1_n_n.rhsBatch by decide), dif_pos (show (1 : Fin S64x32.rank) ∈ dot_S512x64_S64x32_S512x32_1_0_0_1_n_n.rhsNonContracting by decide)]
  rfl

/-! Product 4: the operand coordinates of its dimension numbers. -/

theorem prod4_l0 (i : S512x1.Idx) (q : dot_S512x32_S32x1_S512x1_1_0_0_1_n_n.contr.Idx) :
    (dot_S512x32_S32x1_S512x1_1_0_0_1_n_n.lhsIdx i q 0).val = (i 0).val := by
  unfold DotDims.lhsIdx
  rw [dif_neg (show ¬(0 : Fin S512x32.rank) ∈ dot_S512x32_S32x1_S512x1_1_0_0_1_n_n.lhsBatch by decide), dif_pos (show (0 : Fin S512x32.rank) ∈ dot_S512x32_S32x1_S512x1_1_0_0_1_n_n.lhsNonContracting by decide)]
  rfl
theorem prod4_l1 (i : S512x1.Idx) (q : dot_S512x32_S32x1_S512x1_1_0_0_1_n_n.contr.Idx) :
    (dot_S512x32_S32x1_S512x1_1_0_0_1_n_n.lhsIdx i q 1).val = (q ⟨0, by decide⟩).val :=
  dot_S512x32_S32x1_S512x1_1_0_0_1_n_n.lhsIdx_val_of_single rfl i q
theorem prod4_r0 (i : S512x1.Idx) (q : dot_S512x32_S32x1_S512x1_1_0_0_1_n_n.contr.Idx) :
    (dot_S512x32_S32x1_S512x1_1_0_0_1_n_n.rhsIdx i q 0).val = (q ⟨0, by decide⟩).val :=
  dot_S512x32_S32x1_S512x1_1_0_0_1_n_n.rhsIdx_val_of_single rfl i q
theorem prod4_r1 (i : S512x1.Idx) (q : dot_S512x32_S32x1_S512x1_1_0_0_1_n_n.contr.Idx) :
    (dot_S512x32_S32x1_S512x1_1_0_0_1_n_n.rhsIdx i q 1).val = (i 1).val := by
  unfold DotDims.rhsIdx
  rw [dif_neg (show ¬(1 : Fin S32x1.rank) ∈ dot_S512x32_S32x1_S512x1_1_0_0_1_n_n.rhsBatch by decide), dif_pos (show (1 : Fin S32x1.rank) ∈ dot_S512x32_S32x1_S512x1_1_0_0_1_n_n.rhsNonContracting by decide)]
  rfl

/-! ## The body's payload is the head of the block -/

/-- What the body stores, from the block of pooled rows and the eight parameter arrays: `Spec.head` of them. -/
theorem payload_eq (x : Vec Ideal S512x129 .f32) (W1 : Vec Ideal S129x128 .f32) (b1 : Vec Ideal S128 .f32)
    (W2 : Vec Ideal S128x64 .f32) (b2 : Vec Ideal S64 .f32) (W3 : Vec Ideal S64x32 .f32) (b3 : Vec Ideal S32 .f32)
    (W4 : Vec Ideal S32x1 .f32) (b4 : Vec Ideal S1 .f32) :
    k3_pay1 (F := Ideal) (k3_pay2 x W1 b1 W2 b2 W3 b3 W4) (k3_pay3 b4) = Cert.Spec.head x W1 b1 W2 b2 W3 b3 W4 b4 := by
  unfold k3_pay1 k3_pay2 k3_pay3 Cert.Spec.head
  dsimp only
  rw [shapeCast_self]
  rw [relu_block_eq, relu_block_eq, relu_block_eq]
  rw [dense_block_eq dot_S512x129_S129x128_S512x128_1_0_0_1_n_n rfl rfl prod1_l0 prod1_l1 prod1_r0 prod1_r1 x W1 b1]
  rw [dense_block_eq dot_S512x128_S128x64_S512x64_1_0_0_1_n_n rfl rfl prod2_l0 prod2_l1 prod2_r0 prod2_r1 _ W2 b2]
  rw [dense_block_eq dot_S512x64_S64x32_S512x32_1_0_0_1_n_n rfl rfl prod3_l0 prod3_l1 prod3_r0 prod3_r1 _ W3 b3]
  exact dense_block_eq dot_S512x32_S32x1_S512x1_1_0_0_1_n_n rfl rfl prod4_l0 prod4_l1 prod4_r0 prod4_r1 _ W4 b4 _ _ _

/-! ## The head is computed row by row -/

/-- A dense layer's entry `(p, q)` reads its input along row `p` only. -/
theorem dense_row {N N' K D : ℕ} (x : (⟨2, ![N, K]⟩ : Shape).Idx → EReal) (x' : (⟨2, ![N', K]⟩ : Shape).Idx → EReal)
    (W : (⟨2, ![K, D]⟩ : Shape).Idx → EReal) (b : (⟨1, ![D]⟩ : Shape).Idx → EReal) (p : Fin N) (p' : Fin N')
    (h : ∀ k : Fin K, x (ix2 p k) = x' (ix2 p' k)) (q : Fin D) :
    Cert.Spec.dense x W b (ix2 p q) = Cert.Spec.dense x' W b (ix2 p' q) := by
  show (∑ k : Fin K, x (ix2 p k) * W (ix2 k q)) + b (ix1 q) = (∑ k : Fin K, x' (ix2 p' k) * W (ix2 k q)) + b (ix1 q)
  exact congrArg (fun s : EReal => s + b (ix1 q)) (Finset.sum_congr rfl fun k _ => congrArg (fun v : EReal => v * W (ix2 k q)) (h k))

/-- `relu` of equal entries. -/
theorem relu_row {s s' : Shape} (x : s.Idx → EReal) (x' : s'.Idx → EReal) (i : s.Idx) (i' : s'.Idx) (h : x i = x' i') :
    Cert.Spec.relu x i = Cert.Spec.relu x' i' :=
  congrArg (fun v : EReal => max v (Ideal.ofBits .f32 0x00000000#32)) h

/-- The head's entry in row `p` reads the pooled array along row `p` only: two arrays that agree on a row have the
    same head there. -/
theorem head_row {N N' : ℕ} (x : (⟨2, ![N, 129]⟩ : Shape).Idx → EReal) (x' : (⟨2, ![N', 129]⟩ : Shape).Idx → EReal)
    (W1 : (⟨2, ![129, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 1]⟩ : Shape).Idx → EReal) (b4 : (⟨1, ![1]⟩ : Shape).Idx → EReal)
    (p : Fin N) (p' : Fin N') (h : ∀ k : Fin 129, x (ix2 p k) = x' (ix2 p' k)) (q : Fin 1) :
    Cert.Spec.head x W1 b1 W2 b2 W3 b3 W4 b4 (ix2 p q) = Cert.Spec.head x' W1 b1 W2 b2 W3 b3 W4 b4 (ix2 p' q) := by
  unfold Cert.Spec.head
  exact dense_row _ _ W4 b4 p p' (fun k3 => relu_row _ _ _ _ (dense_row _ _ W3 b3 p p' (fun k2 => relu_row _ _ _ _
    (dense_row _ _ W2 b2 p p' (fun k1 => relu_row _ _ _ _ (dense_row x x' W1 b1 p p' h k1)) k2)) k3)) q

/-- The same with the parameter arrays replaced by equal ones. -/
theorem head_congr {N N' : ℕ} (x : (⟨2, ![N, 129]⟩ : Shape).Idx → EReal) (x' : (⟨2, ![N', 129]⟩ : Shape).Idx → EReal)
    {W1 W1' : (⟨2, ![129, 128]⟩ : Shape).Idx → EReal} {b1 b1' : (⟨1, ![128]⟩ : Shape).Idx → EReal}
    {W2 W2' : (⟨2, ![128, 64]⟩ : Shape).Idx → EReal} {b2 b2' : (⟨1, ![64]⟩ : Shape).Idx → EReal}
    {W3 W3' : (⟨2, ![64, 32]⟩ : Shape).Idx → EReal} {b3 b3' : (⟨1, ![32]⟩ : Shape).Idx → EReal}
    {W4 W4' : (⟨2, ![32, 1]⟩ : Shape).Idx → EReal} {b4 b4' : (⟨1, ![1]⟩ : Shape).Idx → EReal}
    (p : Fin N) (p' : Fin N') (h : ∀ k : Fin 129, x (ix2 p k) = x' (ix2 p' k))
    (e1 : W1 = W1') (e2 : b1 = b1') (e3 : W2 = W2') (e4 : b2 = b2') (e5 : W3 = W3') (e6 : b3 = b3') (e7 : W4 = W4') (e8 : b4 = b4')
    (q : Fin 1) :
    Cert.Spec.head x W1 b1 W2 b2 W3 b3 W4 b4 (ix2 p q) = Cert.Spec.head x' W1' b1' W2' b2' W3' b3' W4' b4' (ix2 p' q) := by
  subst e1 e2 e3 e4 e5 e6 e7 e8
  exact head_row x x' W1 b1 W2 b2 W3 b3 W4 b4 p p' h q

end Cert.KernelIdeal.HeadBlocks

end
-- ==== Proof.HeadBlocks.lean ====
/-
  From the head's blocks to the output array.

  The head's launch runs over two grid points; point `t` reads rows `512 t … 512 t + 511` of the pooled array and the
  whole of each parameter array, and writes back rows `512 t … 512 t + 511` of the output.  What it writes is the head
  of its blocks, and the head is computed row by row, so it is the block of the head of the whole arrays; the two
  blocks tile the output, so the output array ends holding `Spec.head` of the arrays as the region finds them.
-/
import proofs.«147071_j46119358824917_2_alg».proof.Proof.Gen.KernelIdeal.Frame
import proofs.«147071_j46119358824917_2_alg».proof.Proof.Spec
import proofs.«147071_j46119358824917_2_alg».proof.Proof.HeadPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadBlocks

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the two grid points: the pooled input's and the output's row block is the
    point's number, every parameter array's block is the array. -/
theorem idx_facts : ∀ t : Fin cfg3.N, win3_0.index t (0 : Fin 2) = t.val
    ∧ win3_0.index t (1 : Fin 2) = 0
    ∧ win3_9.index t (0 : Fin 2) = t.val
    ∧ win3_9.index t (1 : Fin 2) = 0
    ∧ win3_1.index t (0 : Fin 2) = 0
    ∧ win3_1.index t (1 : Fin 2) = 0
    ∧ win3_2.index t (0 : Fin 1) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0
    ∧ win3_8.index t (0 : Fin 1) = 0 :=
  (by decide +kernel : ∀ t : Fin grid3.N, _)

/-- Window 1's block at every point is its whole array. -/
theorem whole_1 (c : Dev nD) (t : Fin cfg3.N) : (iblk3 V c 1 t : Vec Ideal S129x128 .f32) = V c main_arg12 := by
  funext y
  unfold iblk3
  rw [View.read_apply]
  show V c main_arg12 _ = V c main_arg12 y
  refine congrArg (V c main_arg12) (funext fun a => Fin.ext ?_)
  match a with
  | ⟨0, _⟩ => show win3_1.index t (0 : Fin 2) * 129 + 1 * (y 0).val = (y 0).val; rw [(idx_facts t).2.2.2.2.1]; omega
  | ⟨1, _⟩ => show win3_1.index t (1 : Fin 2) * 128 + 1 * (y 1).val = (y 1).val; rw [(idx_facts t).2.2.2.2.2.1]; omega

/-- Window 2's block at every point is its whole array. -/
theorem whole_2 (c : Dev nD) (t : Fin cfg3.N) : (iblk3 V c 2 t : Vec Ideal S128 .f32) = V c main_arg13 := by
  funext y
  unfold iblk3
  rw [View.read_apply]
  show V c main_arg13 _ = V c main_arg13 y
  refine congrArg (V c main_arg13) (funext fun a => Fin.ext ?_)
  match a with
  | ⟨0, _⟩ => show win3_2.index t (0 : Fin 1) * 128 + 1 * (y 0).val = (y 0).val; rw [(idx_facts t).2.2.2.2.2.2.1]; omega

/-- Window 3's block at every point is its whole array. -/
theorem whole_3 (c : Dev nD) (t : Fin cfg3.N) : (iblk3 V c 3 t : Vec Ideal S128x64 .f32) = V c main_arg14 := by
  funext y
  unfold iblk3
  rw [View.read_apply]
  show V c main_arg14 _ = V c main_arg14 y
  refine congrArg (V c main_arg14) (funext fun a => Fin.ext ?_)
  match a with
  | ⟨0, _⟩ => show win3_3.index t (0 : Fin 2) * 128 + 1 * (y 0).val = (y 0).val; rw [(idx_facts t).2.2.2.2.2.2.2.1]; omega
  | ⟨1, _⟩ => show win3_3.index t (1 : Fin 2) * 64 + 1 * (y 1).val = (y 1).val; rw [(idx_facts t).2.2.2.2.2.2.2.2.1]; omega

/-- Window 4's block at every point is its whole array. -/
theorem whole_4 (c : Dev nD) (t : Fin cfg3.N) : (iblk3 V c 4 t : Vec Ideal S64 .f32) = V c main_arg15 := by
  funext y
  unfold iblk3
  rw [View.read_apply]
  show V c main_arg15 _ = V c main_arg15 y
  refine congrArg (V c main_arg15) (funext fun a => Fin.ext ?_)
  match a with
  | ⟨0, _⟩ => show win3_4.index t (0 : Fin 1) * 64 + 1 * (y 0).val = (y 0).val; rw [(idx_facts t).2.2.2.2.2.2.2.2.2.1]; omega

/-- Window 5's block at every point is its whole array. -/
theorem whole_5 (c : Dev nD) (t : Fin cfg3.N) : (iblk3 V c 5 t : Vec Ideal S64x32 .f32) = V c main_arg16 := by
  funext y
  unfold iblk3
  rw [View.read_apply]
  show V c main_arg16 _ = V c main_arg16 y
  refine congrArg (V c main_arg16) (funext fun a => Fin.ext ?_)
  match a with
  | ⟨0, _⟩ => show win3_5.index t (0 : Fin 2) * 64 + 1 * (y 0).val = (y 0).val; rw [(idx_facts t).2.2.2.2.2.2.2.2.2.2.1]; omega
  | ⟨1, _⟩ => show win3_5.index t (1 : Fin 2) * 32 + 1 * (y 1).val = (y 1).val; rw [(idx_facts t).2.2.2.2.2.2.2.2.2.2.2.1]; omega

/-- Window 6's block at every point is its whole array. -/
theorem whole_6 (c : Dev nD) (t : Fin cfg3.N) : (iblk3 V c 6 t : Vec Ideal S32 .f32) = V c main_arg17 := by
  funext y
  unfold iblk3
  rw [View.read_apply]
  show V c main_arg17 _ = V c main_arg17 y
  refine congrArg (V c main_arg17) (funext fun a => Fin.ext ?_)
  match a with
  | ⟨0, _⟩ => show win3_6.index t (0 : Fin 1) * 32 + 1 * (y 0).val = (y 0).val; rw [(idx_facts t).2.2.2.2.2.2.2.2.2.2.2.2.1]; omega

/-- Window 7's block at every point is its whole array. -/
theorem whole_7 (c : Dev nD) (t : Fin cfg3.N) : (iblk3 V c 7 t : Vec Ideal S32x1 .f32) = V c main_arg18 := by
  funext y
  unfold iblk3
  rw [View.read_apply]
  show V c main_arg18 _ = V c main_arg18 y
  refine congrArg (V c main_arg18) (funext fun a => Fin.ext ?_)
  match a with
  | ⟨0, _⟩ => show win3_7.index t (0 : Fin 2) * 32 + 1 * (y 0).val = (y 0).val; rw [(idx_facts t).2.2.2.2.2.2.2.2.2.2.2.2.2.1]; omega
  | ⟨1, _⟩ => show win3_7.index t (1 : Fin 2) * 1 + 1 * (y 1).val = (y 1).val; rw [(idx_facts t).2.2.2.2.2.2.2.2.2.2.2.2.2.2.1]; omega

/-- Window 8's block at every point is its whole array. -/
theorem whole_8 (c : Dev nD) (t : Fin cfg3.N) : (iblk3 V c 8 t : Vec Ideal S1 .f32) = V c main_arg19 := by
  funext y
  unfold iblk3
  rw [View.read_apply]
  show V c main_arg19 _ = V c main_arg19 y
  refine congrArg (V c main_arg19) (funext fun a => Fin.ext ?_)
  match a with
  | ⟨0, _⟩ => show win3_8.index t (0 : Fin 1) * 1 + 1 * (y 0).val = (y 0).val; rw [(idx_facts t).2.2.2.2.2.2.2.2.2.2.2.2.2.2.2]; omega

/-- The pooled input's block at point `t` is rows `512 t … 512 t + 511` of the array. -/
theorem pooled_block_apply (c : Dev nD) (t : Fin cfg3.N) (p : Fin 512) (k : Fin 129) (r : Fin 1024) (hr : r.val = t.val * 512 + p.val) :
    (iblk3 V c 0 t : Vec Ideal S512x129 .f32) (ix2 p k) = (V c main_v86 : S1024x129.Idx → EReal) (ix2 r k) := by
  unfold iblk3
  rw [View.read_apply]
  show V c main_v86 _ = V c main_v86 _
  refine congrArg (V c main_v86) (funext fun a => Fin.ext ?_)
  match a with
  | ⟨0, _⟩ => show win3_0.index t (0 : Fin 2) * 512 + 1 * p.val = r.val; rw [(idx_facts t).1, hr]; omega
  | ⟨1, _⟩ => show win3_0.index t (1 : Fin 2) * 129 + 1 * k.val = k.val; rw [(idx_facts t).2.1]; omega

/-- An entry of the head of point `t`'s blocks is the head of the arrays at the entry's place in the output array. -/
theorem block_entry (c : Dev nD) (t : Fin cfg3.N) (y : S512x1.Idx) :
    Cert.Spec.head (iblk3 V c 0 t) (iblk3 V c 1 t) (iblk3 V c 2 t) (iblk3 V c 3 t) (iblk3 V c 4 t) (iblk3 V c 5 t) (iblk3 V c 6 t) (iblk3 V c 7 t) (iblk3 V c 8 t) y
      = Cert.Spec.head (V c main_v86) (V c main_arg12) (V c main_arg13) (V c main_arg14) (V c main_arg15) (V c main_arg16) (V c main_arg17) (V c main_arg18) (V c main_arg19) (((cfg3.win 9).blk t).view.emb y) := by
  obtain ⟨p, q, rfl⟩ : ∃ (p : Fin 512) (q : Fin 1), y = ix2 p q := ⟨y 0, y 1, eq_ix2 y⟩
  have hN : cfg3.N = 2 := N_3
  have ht : t.val < 2 := hN ▸ t.isLt
  have hi : ((cfg3.win 9).blk t).view.emb (ix2 p q) = ix2 (⟨t.val * 512 + p.val, by have := p.isLt; omega⟩ : Fin 1024) q := by
    funext a
    apply Fin.ext
    match a with
    | ⟨0, _⟩ => show win3_9.index t (0 : Fin 2) * 512 + 1 * p.val = t.val * 512 + p.val; rw [(idx_facts t).2.2.1]; omega
    | ⟨1, _⟩ => show win3_9.index t (1 : Fin 2) * 1 + 1 * q.val = q.val; rw [(idx_facts t).2.2.2.1]; omega
  rw [hi]
  exact head_congr _ _ p _ (fun k => pooled_block_apply V c t p k _ rfl)
    (whole_1 V c t) (whole_2 V c t) (whole_3 V c t) (whole_4 V c t) (whole_5 V c t) (whole_6 V c t) (whole_7 V c t) (whole_8 V c t) q

/-- WHAT POINT `t` WRITES BACK is block `t` of the head of the arrays as the region finds them. -/
theorem flushed_eq (c : Dev nD) (t : Fin cfg3.N) :
    (dat3 (F := Ideal) V c).flushed 9 t = ((cfg3.win 9).blk t).view.read (Elt Ideal) (Cert.Spec.head (V c main_v86) (V c main_arg12) (V c main_arg13) (V c main_arg14) (V c main_arg15) (V c main_arg16) (V c main_arg17) (V c main_arg18) (V c main_arg19)) := by
  show (cfg3.win 9).cut (grid3.coords t) ((dat3 V c).after 9 t) = _
  rw [after3_9]
  unfold out3_9
  rw [View.canon_unit_zero zeros2]
  simp only [View.ld_unit_zero (S := S512x129) zeros2, View.ld_unit_zero (S := S129x128) zeros2, View.ld_unit_zero (S := S128x64) zeros2, View.ld_unit_zero (S := S64x32) zeros2, View.ld_unit_zero (S := S32x1) zeros2, View.ld_unit_zero (S := S128) zeros1, View.ld_unit_zero (S := S64) zeros1, View.ld_unit_zero (S := S32) zeros1, View.ld_unit_zero (S := S1) zeros1]
  funext j
  exact (congrFun (payload_eq (iblk3 V c 0 t) (iblk3 V c 1 t) (iblk3 V c 2 t) (iblk3 V c 3 t) (iblk3 V c 4 t) (iblk3 V c 5 t) (iblk3 V c 6 t) (iblk3 V c 7 t) (iblk3 V c 8 t)) j).trans (block_entry V c t j)

/-- An index of the output array is in point `t`'s block iff each coordinate is in the block's range on its axis. -/
theorem mem_blk (t : Fin cfg3.N) (i : S1024x1.Idx) :
    i ∈ ((cfg3.win 9).blk t).view.set ↔ ∀ a : Fin 2, win3_9.index t a * S512x1.size a ≤ (i a).val ∧ (i a).val < win3_9.index t a * S512x1.size a + S512x1.size a := by
  show i ∈ ((View.whole main_v87).slice (win3_9.rect t)).set ↔ _
  rw [View.set_slice_whole, Rect.mem_set_unit]
  exact Iff.rfl

/-- Row `r` of the output array is in the block of point `r / 512`, which is written back. -/
theorem cover (i : S1024x1.Idx) : ∃ t : Fin cfg3.N, (cfg3.win 9).flush t = true ∧ i ∈ ((cfg3.win 9).blk t).view.set := by
  have hi0 : (i 0).val < 1024 := (i 0).isLt
  have hi1 : (i 1).val < 1 := (i 1).isLt
  have hN : cfg3.N = 2 := N_3
  have hlt : (i 0).val / 512 < cfg3.N := by rw [hN]; omega
  refine ⟨⟨(i 0).val / 512, hlt⟩, flush3_9 _, ?_⟩
  rw [mem_blk]
  have f0 : win3_9.index ⟨(i 0).val / 512, hlt⟩ (0 : Fin 2) = (i 0).val / 512 := (idx_facts ⟨(i 0).val / 512, hlt⟩).2.2.1
  have f1 : win3_9.index ⟨(i 0).val / 512, hlt⟩ (1 : Fin 2) = 0 := (idx_facts ⟨(i 0).val / 512, hlt⟩).2.2.2.1
  intro a
  match a with
  | ⟨0, _⟩ => show win3_9.index ⟨(i 0).val / 512, hlt⟩ (0 : Fin 2) * 512 ≤ (i 0).val ∧ (i 0).val < win3_9.index ⟨(i 0).val / 512, hlt⟩ (0 : Fin 2) * 512 + 512; rw [f0]; omega
  | ⟨1, _⟩ => show win3_9.index ⟨(i 0).val / 512, hlt⟩ (1 : Fin 2) * 1 ≤ (i 1).val ∧ (i 1).val < win3_9.index ⟨(i 0).val / 512, hlt⟩ (1 : Fin 2) * 1 + 1; rw [f1]; omega

/-- THE OUTPUT ARRAY after the region: the head of the pooled array and the eight parameter arrays as the region
    finds them. -/
theorem final (c : Dev nD) :
    (dat3 (F := Ideal) V c).arrAt 9 cfg3.N = Cert.Spec.head (V c main_v86) (V c main_arg12) (V c main_arg13) (V c main_arg14) (V c main_arg15) (V c main_arg16) (V c main_arg17) (V c main_arg18) (V c main_arg19) :=
  (dat3 (F := Ideal) V c).arrAt_eq_of_cover 9 (Cert.Spec.head (V c main_v86) (V c main_arg12) (V c main_arg13) (V c main_arg14) (V c main_arg15) (V c main_arg16) (V c main_arg17) (V c main_arg18) (V c main_arg19))
    (fun t _ => flushed_eq V c t) (cover)

end Cert.KernelIdeal.HeadBlocks

end
-- ==== Proof.HostChain.lean ====
/-
  The kernel program's result array as a function of its arguments.

  The contents of the buffers at each boundary between host operations and launches are a fold through the program.
  Read at the buffers that matter: the edge key vectors and the factor column after the first stretch of host
  operations, carried unchanged to every later boundary (no later operation writes them and the launches only read
  them); each launch's output table, the scaled product `Spec.lin` of the activations it was given; after each
  stretch of host operations the next activations, `tanh` of the kernel's layer on that table; before the last
  launch the pooled table; and after it the head's result: `KChain.kout` of the twenty arguments.
-/
import proofs.«147071_j46119358824917_2_alg».proof.Proof.Gen.KernelIdeal.Frame
import proofs.«147071_j46119358824917_2_alg».proof.Proof.KChain
import proofs.«147071_j46119358824917_2_alg».proof.Proof.LinBlocks0
import proofs.«147071_j46119358824917_2_alg».proof.Proof.LinBlocks1
import proofs.«147071_j46119358824917_2_alg».proof.Proof.LinBlocks2
import proofs.«147071_j46119358824917_2_alg».proof.Proof.HeadBlocks
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- No operation of the named stretch writes the buffer: the contents after the stretch are those before it. -/
macro "host_skip " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## After the first stretch: the edge keys, the factor column -/

theorem W1_v3 : W1 m ρ c (Proc.devRef .tc main_v3) = Cert.ReferenceIdeal.Read.val_main_v3 (F := Ideal) (arg m c main_arg1) := by
  show StableHlo.after hostOps0 (W0 m ρ c) (Proc.devRef .tc main_v3) = _
  dsimp only [hostOps0]
  after_results
  rfl
theorem W1_v6 : W1 m ρ c (Proc.devRef .tc main_v6) = Cert.ReferenceIdeal.Read.val_main_v6 (F := Ideal) (arg m c main_arg1) := by
  show StableHlo.after hostOps0 (W0 m ρ c) (Proc.devRef .tc main_v6) = _
  dsimp only [hostOps0]
  after_results
  rfl
theorem W1_v12 : W1 m ρ c (Proc.devRef .tc main_v12) = Cert.KChain.dcol (F := Ideal) (arg m c main_arg1) := by
  show StableHlo.after hostOps0 (W0 m ρ c) (Proc.devRef .tc main_v12) = _
  dsimp only [hostOps0]
  after_results
  rfl

theorem W1_arg0 : W1 m ρ c (Proc.devRef .tc main_arg0) = arg m c main_arg0 :=
  calc W1 m ρ c (Proc.devRef .tc main_arg0)
    _ = W0 m ρ c (Proc.devRef .tc main_arg0) := (by host_skip hostOps0)
    _ = arg m c main_arg0 := rfl
theorem W1_arg6 : W1 m ρ c (Proc.devRef .tc main_arg6) = arg m c main_arg6 :=
  calc W1 m ρ c (Proc.devRef .tc main_arg6)
    _ = W0 m ρ c (Proc.devRef .tc main_arg6) := (by host_skip hostOps0)
    _ = arg m c main_arg6 := rfl

/-! ## The first launch and the stretch after it -/

theorem W2_v13 : W2 m ρ c (Proc.devRef .tc main_v13) = Cert.Spec.lin (arg m c main_arg0) (arg m c main_arg6) (Cert.KChain.dcol (F := Ideal) (arg m c main_arg1)) := by
  refine (W2_arr m ρ c 3).trans ((Cert.KernelIdeal.LinBlocks0.final (V1 m ρ) c).trans ?_)
  show Cert.Spec.lin (W1 m ρ c (Proc.devRef .tc main_arg0)) (W1 m ρ c (Proc.devRef .tc main_arg6)) (W1 m ρ c (Proc.devRef .tc main_v12)) = _
  rw [W1_arg0, W1_arg6, W1_v12]

theorem W2_v3 : W2 m ρ c (Proc.devRef .tc main_v3) = Cert.ReferenceIdeal.Read.val_main_v3 (F := Ideal) (arg m c main_arg1) :=
  calc W2 m ρ c (Proc.devRef .tc main_v3)
    _ = W1 m ρ c (Proc.devRef .tc main_v3) := (W2_of_ne m ρ c main_v3 (by decide))
    _ = Cert.ReferenceIdeal.Read.val_main_v3 (F := Ideal) (arg m c main_arg1) := W1_v3 m ρ c
theorem W2_v6 : W2 m ρ c (Proc.devRef .tc main_v6) = Cert.ReferenceIdeal.Read.val_main_v6 (F := Ideal) (arg m c main_arg1) :=
  calc W2 m ρ c (Proc.devRef .tc main_v6)
    _ = W1 m ρ c (Proc.devRef .tc main_v6) := (W2_of_ne m ρ c main_v6 (by decide))
    _ = Cert.ReferenceIdeal.Read.val_main_v6 (F := Ideal) (arg m c main_arg1) := W1_v6 m ρ c
theorem W2_v12 : W2 m ρ c (Proc.devRef .tc main_v12) = Cert.KChain.dcol (F := Ideal) (arg m c main_arg1) :=
  calc W2 m ρ c (Proc.devRef .tc main_v12)
    _ = W1 m ρ c (Proc.devRef .tc main_v12) := ((W2_arr m ρ c 2).trans (((dat0 (V1 m ρ) c).arrAt_in 2 rfl _).trans (A_eq0 (V1 m ρ) c 2)))
    _ = Cert.KChain.dcol (F := Ideal) (arg m c main_arg1) := W1_v12 m ρ c
theorem W2_arg7 : W2 m ρ c (Proc.devRef .tc main_arg7) = arg m c main_arg7 :=
  calc W2 m ρ c (Proc.devRef .tc main_arg7)
    _ = W1 m ρ c (Proc.devRef .tc main_arg7) := (W2_of_ne m ρ c main_arg7 (by decide))
    _ = W0 m ρ c (Proc.devRef .tc main_arg7) := (by host_skip hostOps0)
    _ = arg m c main_arg7 := rfl

/-- The activations after the first layer. -/
abbrev act1 : (⟨S50000x256, .f32⟩ : BufTy).Contents (Elt Ideal) :=
  Host.tanh (F := Ideal) (φ := .f32) (Cert.KChain.klayerA (F := Ideal) (Cert.Spec.lin (arg m c main_arg0) (arg m c main_arg6) (Cert.KChain.dcol (F := Ideal) (arg m c main_arg1))) (arg m c main_arg1) (arg m c main_arg7))

theorem W3_v30 : W3 m ρ c (Proc.devRef .tc main_v30) = act1 m c := by
  show StableHlo.after hostOps1 (W2 m ρ c) (Proc.devRef .tc main_v30) = _
  generalize hV : W2 m ρ c = V
  dsimp only [hostOps1]
  after_results_simp
  subst hV
  rw [W2_v13, W2_v3, W2_v6, W2_v12, W2_arg7]
  rfl

/-! ## The second launch and the stretch after it -/

theorem W3_v12 : W3 m ρ c (Proc.devRef .tc main_v12) = Cert.KChain.dcol (F := Ideal) (arg m c main_arg1) :=
  calc W3 m ρ c (Proc.devRef .tc main_v12)
    _ = W2 m ρ c (Proc.devRef .tc main_v12) := (by host_skip hostOps1)
    _ = W1 m ρ c (Proc.devRef .tc main_v12) := ((W2_arr m ρ c 2).trans (((dat0 (V1 m ρ) c).arrAt_in 2 rfl _).trans (A_eq0 (V1 m ρ) c 2)))
    _ = Cert.KChain.dcol (F := Ideal) (arg m c main_arg1) := W1_v12 m ρ c
theorem W3_arg8 : W3 m ρ c (Proc.devRef .tc main_arg8) = arg m c main_arg8 :=
  calc W3 m ρ c (Proc.devRef .tc main_arg8)
    _ = W2 m ρ c (Proc.devRef .tc main_arg8) := (by host_skip hostOps1)
    _ = W1 m ρ c (Proc.devRef .tc main_arg8) := (W2_of_ne m ρ c main_arg8 (by decide))
    _ = W0 m ρ c (Proc.devRef .tc main_arg8) := (by host_skip hostOps0)
    _ = arg m c main_arg8 := rfl

theorem W4_v31 : W4 m ρ c (Proc.devRef .tc main_v31) = Cert.Spec.lin (act1 m c) (arg m c main_arg8) (Cert.KChain.dcol (F := Ideal) (arg m c main_arg1)) := by
  refine (W4_arr m ρ c 3).trans ((Cert.KernelIdeal.LinBlocks1.final (V3 m ρ) c).trans ?_)
  show Cert.Spec.lin (W3 m ρ c (Proc.devRef .tc main_v30)) (W3 m ρ c (Proc.devRef .tc main_arg8)) (W3 m ρ c (Proc.devRef .tc main_v12)) = _
  rw [W3_v30, W3_arg8, W3_v12]

theorem W4_v3 : W4 m ρ c (Proc.devRef .tc main_v3) = Cert.ReferenceIdeal.Read.val_main_v3 (F := Ideal) (arg m c main_arg1) :=
  calc W4 m ρ c (Proc.devRef .tc main_v3)
    _ = W3 m ρ c (Proc.devRef .tc main_v3) := (W4_of_ne m ρ c main_v3 (by decide))
    _ = W2 m ρ c (Proc.devRef .tc main_v3) := (by host_skip hostOps1)
    _ = W1 m ρ c (Proc.devRef .tc main_v3) := (W2_of_ne m ρ c main_v3 (by decide))
    _ = Cert.ReferenceIdeal.Read.val_main_v3 (F := Ideal) (arg m c main_arg1) := W1_v3 m ρ c
theorem W4_v6 : W4 m ρ c (Proc.devRef .tc main_v6) = Cert.ReferenceIdeal.Read.val_main_v6 (F := Ideal) (arg m c main_arg1) :=
  calc W4 m ρ c (Proc.devRef .tc main_v6)
    _ = W3 m ρ c (Proc.devRef .tc main_v6) := (W4_of_ne m ρ c main_v6 (by decide))
    _ = W2 m ρ c (Proc.devRef .tc main_v6) := (by host_skip hostOps1)
    _ = W1 m ρ c (Proc.devRef .tc main_v6) := (W2_of_ne m ρ c main_v6 (by decide))
    _ = Cert.ReferenceIdeal.Read.val_main_v6 (F := Ideal) (arg m c main_arg1) := W1_v6 m ρ c
theorem W4_v12 : W4 m ρ c (Proc.devRef .tc main_v12) = Cert.KChain.dcol (F := Ideal) (arg m c main_arg1) :=
  calc W4 m ρ c (Proc.devRef .tc main_v12)
    _ = W3 m ρ c (Proc.devRef .tc main_v12) := ((W4_arr m ρ c 2).trans (((dat1 (V3 m ρ) c).arrAt_in 2 rfl _).trans (A_eq1 (V3 m ρ) c 2)))
    _ = W2 m ρ c (Proc.devRef .tc main_v12) := (by host_skip hostOps1)
    _ = W1 m ρ c (Proc.devRef .tc main_v12) := ((W2_arr m ρ c 2).trans (((dat0 (V1 m ρ) c).arrAt_in 2 rfl _).trans (A_eq0 (V1 m ρ) c 2)))
    _ = Cert.KChain.dcol (F := Ideal) (arg m c main_arg1) := W1_v12 m ρ c
theorem W4_arg9 : W4 m ρ c (Proc.devRef .tc main_arg9) = arg m c main_arg9 :=
  calc W4 m ρ c (Proc.devRef .tc main_arg9)
    _ = W3 m ρ c (Proc.devRef .tc main_arg9) := (W4_of_ne m ρ c main_arg9 (by decide))
    _ = W2 m ρ c (Proc.devRef .tc main_arg9) := (by host_skip hostOps1)
    _ = W1 m ρ c (Proc.devRef .tc main_arg9) := (W2_of_ne m ρ c main_arg9 (by decide))
    _ = W0 m ρ c (Proc.devRef .tc main_arg9) := (by host_skip hostOps0)
    _ = arg m c main_arg9 := rfl

/-- The activations after the second layer. -/
abbrev act2 : (⟨S50000x256, .f32⟩ : BufTy).Contents (Elt Ideal) :=
  Host.tanh (F := Ideal) (φ := .f32) (Cert.KChain.klayerB (F := Ideal) (Cert.Spec.lin (act1 m c) (arg m c main_arg8) (Cert.KChain.dcol (F := Ideal) (arg m c main_arg1))) (arg m c main_arg1) (arg m c main_arg9))

theorem W5_v48 : W5 m ρ c (Proc.devRef .tc main_v48) = act2 m c := by
  show StableHlo.after hostOps2 (W4 m ρ c) (Proc.devRef .tc main_v48) = _
  generalize hV : W4 m ρ c = V
  dsimp only [hostOps2]
  after_results_simp
  subst hV
  rw [W4_v31, W4_v3, W4_v6, W4_v12, W4_arg9]
  rfl

/-! ## The third launch, the pooling -/

theorem W5_v12 : W5 m ρ c (Proc.devRef .tc main_v12) = Cert.KChain.dcol (F := Ideal) (arg m c main_arg1) :=
  calc W5 m ρ c (Proc.devRef .tc main_v12)
    _ = W4 m ρ c (Proc.devRef .tc main_v12) := (by host_skip hostOps2)
    _ = W3 m ρ c (Proc.devRef .tc main_v12) := ((W4_arr m ρ c 2).trans (((dat1 (V3 m ρ) c).arrAt_in 2 rfl _).trans (A_eq1 (V3 m ρ) c 2)))
    _ = W2 m ρ c (Proc.devRef .tc main_v12) := (by host_skip hostOps1)
    _ = W1 m ρ c (Proc.devRef .tc main_v12) := ((W2_arr m ρ c 2).trans (((dat0 (V1 m ρ) c).arrAt_in 2 rfl _).trans (A_eq0 (V1 m ρ) c 2)))
    _ = Cert.KChain.dcol (F := Ideal) (arg m c main_arg1) := W1_v12 m ρ c
theorem W5_arg10 : W5 m ρ c (Proc.devRef .tc main_arg10) = arg m c main_arg10 :=
  calc W5 m ρ c (Proc.devRef .tc main_arg10)
    _ = W4 m ρ c (Proc.devRef .tc main_arg10) := (by host_skip hostOps2)
    _ = W3 m ρ c (Proc.devRef .tc main_arg10) := (W4_of_ne m ρ c main_arg10 (by decide))
    _ = W2 m ρ c (Proc.devRef .tc main_arg10) := (by host_skip hostOps1)
    _ = W1 m ρ c (Proc.devRef .tc main_arg10) := (W2_of_ne m ρ c main_arg10 (by decide))
    _ = W0 m ρ c (Proc.devRef .tc main_arg10) := (by host_skip hostOps0)
    _ = arg m c main_arg10 := rfl

theorem W6_v49 : W6 m ρ c (Proc.devRef .tc main_v49) = Cert.Spec.lin (act2 m c) (arg m c main_arg10) (Cert.KChain.dcol (F := Ideal) (arg m c main_arg1)) := by
  refine (W6_arr m ρ c 3).trans ((Cert.KernelIdeal.LinBlocks2.final (V5 m ρ) c).trans ?_)
  show Cert.Spec.lin (W5 m ρ c (Proc.devRef .tc main_v48)) (W5 m ρ c (Proc.devRef .tc main_arg10)) (W5 m ρ c (Proc.devRef .tc main_v12)) = _
  rw [W5_v48, W5_arg10, W5_v12]

theorem W6_v3 : W6 m ρ c (Proc.devRef .tc main_v3) = Cert.ReferenceIdeal.Read.val_main_v3 (F := Ideal) (arg m c main_arg1) :=
  calc W6 m ρ c (Proc.devRef .tc main_v3)
    _ = W5 m ρ c (Proc.devRef .tc main_v3) := (W6_of_ne m ρ c main_v3 (by decide))
    _ = W4 m ρ c (Proc.devRef .tc main_v3) := (by host_skip hostOps2)
    _ = W3 m ρ c (Proc.devRef .tc main_v3) := (W4_of_ne m ρ c main_v3 (by decide))
    _ = W2 m ρ c (Proc.devRef .tc main_v3) := (by host_skip hostOps1)
    _ = W1 m ρ c (Proc.devRef .tc main_v3) := (W2_of_ne m ρ c main_v3 (by decide))
    _ = Cert.ReferenceIdeal.Read.val_main_v3 (F := Ideal) (arg m c main_arg1) := W1_v3 m ρ c
theorem W6_v6 : W6 m ρ c (Proc.devRef .tc main_v6) = Cert.ReferenceIdeal.Read.val_main_v6 (F := Ideal) (arg m c main_arg1) :=
  calc W6 m ρ c (Proc.devRef .tc main_v6)
    _ = W5 m ρ c (Proc.devRef .tc main_v6) := (W6_of_ne m ρ c main_v6 (by decide))
    _ = W4 m ρ c (Proc.devRef .tc main_v6) := (by host_skip hostOps2)
    _ = W3 m ρ c (Proc.devRef .tc main_v6) := (W4_of_ne m ρ c main_v6 (by decide))
    _ = W2 m ρ c (Proc.devRef .tc main_v6) := (by host_skip hostOps1)
    _ = W1 m ρ c (Proc.devRef .tc main_v6) := (W2_of_ne m ρ c main_v6 (by decide))
    _ = Cert.ReferenceIdeal.Read.val_main_v6 (F := Ideal) (arg m c main_arg1) := W1_v6 m ρ c
theorem W6_v12 : W6 m ρ c (Proc.devRef .tc main_v12) = Cert.KChain.dcol (F := Ideal) (arg m c main_arg1) :=
  calc W6 m ρ c (Proc.devRef .tc main_v12)
    _ = W5 m ρ c (Proc.devRef .tc main_v12) := ((W6_arr m ρ c 2).trans (((dat2 (V5 m ρ) c).arrAt_in 2 rfl _).trans (A_eq2 (V5 m ρ) c 2)))
    _ = W4 m ρ c (Proc.devRef .tc main_v12) := (by host_skip hostOps2)
    _ = W3 m ρ c (Proc.devRef .tc main_v12) := ((W4_arr m ρ c 2).trans (((dat1 (V3 m ρ) c).arrAt_in 2 rfl _).trans (A_eq1 (V3 m ρ) c 2)))
    _ = W2 m ρ c (Proc.devRef .tc main_v12) := (by host_skip hostOps1)
    _ = W1 m ρ c (Proc.devRef .tc main_v12) := ((W2_arr m ρ c 2).trans (((dat0 (V1 m ρ) c).arrAt_in 2 rfl _).trans (A_eq0 (V1 m ρ) c 2)))
    _ = Cert.KChain.dcol (F := Ideal) (arg m c main_arg1) := W1_v12 m ρ c
theorem W6_arg11 : W6 m ρ c (Proc.devRef .tc main_arg11) = arg m c main_arg11 :=
  calc W6 m ρ c (Proc.devRef .tc main_arg11)
    _ = W5 m ρ c (Proc.devRef .tc main_arg11) := (W6_of_ne m ρ c main_arg11 (by decide))
    _ = W4 m ρ c (Proc.devRef .tc main_arg11) := (by host_skip hostOps2)
    _ = W3 m ρ c (Proc.devRef .tc main_arg11) := (W4_of_ne m ρ c main_arg11 (by decide))
    _ = W2 m ρ c (Proc.devRef .tc main_arg11) := (by host_skip hostOps1)
    _ = W1 m ρ c (Proc.devRef .tc main_arg11) := (W2_of_ne m ρ c main_arg11 (by decide))
    _ = W0 m ρ c (Proc.devRef .tc main_arg11) := (by host_skip hostOps0)
    _ = arg m c main_arg11 := rfl
theorem W6_arg2 : W6 m ρ c (Proc.devRef .tc main_arg2) = arg m c main_arg2 :=
  calc W6 m ρ c (Proc.devRef .tc main_arg2)
    _ = W5 m ρ c (Proc.devRef .tc main_arg2) := (W6_of_ne m ρ c main_arg2 (by decide))
    _ = W4 m ρ c (Proc.devRef .tc main_arg2) := (by host_skip hostOps2)
    _ = W3 m ρ c (Proc.devRef .tc main_arg2) := (W4_of_ne m ρ c main_arg2 (by decide))
    _ = W2 m ρ c (Proc.devRef .tc main_arg2) := (by host_skip hostOps1)
    _ = W1 m ρ c (Proc.devRef .tc main_arg2) := (W2_of_ne m ρ c main_arg2 (by decide))
    _ = W0 m ρ c (Proc.devRef .tc main_arg2) := (by host_skip hostOps0)
    _ = arg m c main_arg2 := rfl
theorem W6_arg3 : W6 m ρ c (Proc.devRef .tc main_arg3) = arg m c main_arg3 :=
  calc W6 m ρ c (Proc.devRef .tc main_arg3)
    _ = W5 m ρ c (Proc.devRef .tc main_arg3) := (W6_of_ne m ρ c main_arg3 (by decide))
    _ = W4 m ρ c (Proc.devRef .tc main_arg3) := (by host_skip hostOps2)
    _ = W3 m ρ c (Proc.devRef .tc main_arg3) := (W4_of_ne m ρ c main_arg3 (by decide))
    _ = W2 m ρ c (Proc.devRef .tc main_arg3) := (by host_skip hostOps1)
    _ = W1 m ρ c (Proc.devRef .tc main_arg3) := (W2_of_ne m ρ c main_arg3 (by decide))
    _ = W0 m ρ c (Proc.devRef .tc main_arg3) := (by host_skip hostOps0)
    _ = arg m c main_arg3 := rfl
theorem W6_arg4 : W6 m ρ c (Proc.devRef .tc main_arg4) = arg m c main_arg4 :=
  calc W6 m ρ c (Proc.devRef .tc main_arg4)
    _ = W5 m ρ c (Proc.devRef .tc main_arg4) := (W6_of_ne m ρ c main_arg4 (by decide))
    _ = W4 m ρ c (Proc.devRef .tc main_arg4) := (by host_skip hostOps2)
    _ = W3 m ρ c (Proc.devRef .tc main_arg4) := (W4_of_ne m ρ c main_arg4 (by decide))
    _ = W2 m ρ c (Proc.devRef .tc main_arg4) := (by host_skip hostOps1)
    _ = W1 m ρ c (Proc.devRef .tc main_arg4) := (W2_of_ne m ρ c main_arg4 (by decide))
    _ = W0 m ρ c (Proc.devRef .tc main_arg4) := (by host_skip hostOps0)
    _ = arg m c main_arg4 := rfl
theorem W6_arg5 : W6 m ρ c (Proc.devRef .tc main_arg5) = arg m c main_arg5 :=
  calc W6 m ρ c (Proc.devRef .tc main_arg5)
    _ = W5 m ρ c (Proc.devRef .tc main_arg5) := (W6_of_ne m ρ c main_arg5 (by decide))
    _ = W4 m ρ c (Proc.devRef .tc main_arg5) := (by host_skip hostOps2)
    _ = W3 m ρ c (Proc.devRef .tc main_arg5) := (W4_of_ne m ρ c main_arg5 (by decide))
    _ = W2 m ρ c (Proc.devRef .tc main_arg5) := (by host_skip hostOps1)
    _ = W1 m ρ c (Proc.devRef .tc main_arg5) := (W2_of_ne m ρ c main_arg5 (by decide))
    _ = W0 m ρ c (Proc.devRef .tc main_arg5) := (by host_skip hostOps0)
    _ = arg m c main_arg5 := rfl

/-- The node features after the third layer. -/
abbrev feats : (⟨S50000x128, .f32⟩ : BufTy).Contents (Elt Ideal) :=
  Cert.KChain.klayerC (F := Ideal) (Cert.Spec.lin (act2 m c) (arg m c main_arg10) (Cert.KChain.dcol (F := Ideal) (arg m c main_arg1))) (arg m c main_arg1) (arg m c main_arg11)

theorem feats_eq : feats m c = Cert.KChain.knodes (arg m c main_arg0) (arg m c main_arg1) (arg m c main_arg6) (arg m c main_arg7) (arg m c main_arg8) (arg m c main_arg9) (arg m c main_arg10) (arg m c main_arg11) := rfl

theorem W7_v81 : W7 m ρ c (Proc.devRef .tc main_v81)
    = Host.divf (F := Ideal)
        (Host.scatterAdd scatter_S1024x128_S50000x1_S50000x128_1_0_0_1
          (broadcastInDim S1024x128 ![] Cert.KernelIdeal.Gen.bcast_S_S1024x128 (constant (F := Ideal) S_ .f32 0x00000000#32)) (Cert.ReferenceIdeal.Read.val_main_v98 (F := Ideal) (arg m c main_arg2)) (feats m c))
        (broadcastInDim S1024x128 ![0, 1] Cert.KernelIdeal.Gen.bcast_S1024x1_S1024x128_0_1 (Cert.ReferenceIdeal.Read.val_main_v102 (F := Ideal) (arg m c main_arg2))) := by
  show StableHlo.after hostOps3 (W6 m ρ c) (Proc.devRef .tc main_v81) = _
  generalize hV : W6 m ρ c = V
  dsimp only [hostOps3]
  after_results_simp
  subst hV
  rw [W6_v49, W6_v3, W6_v6, W6_v12, W6_arg11, W6_arg2]
  rfl

theorem W7_v83 : W7 m ρ c (Proc.devRef .tc main_v83)
    = cmpf (F := Ideal) .ogt (Cert.ReferenceIdeal.Read.val_main_v96 (F := Ideal) (arg m c main_arg2)) (broadcastInDim S1024 ![] Cert.KernelIdeal.Gen.bcast_S_S1024 (constant (F := Ideal) S_ .f32 0x00000000#32)) := by
  show StableHlo.after hostOps3 (W6 m ρ c) (Proc.devRef .tc main_v83) = _
  generalize hV : W6 m ρ c = V
  dsimp only [hostOps3]
  after_results_simp
  subst hV
  rw [W6_arg2]
  rfl

theorem W7_v69 : W7 m ρ c (Proc.devRef .tc main_v69) = Cert.ReferenceIdeal.Read.val_main_v83 (F := Ideal) (arg m c main_arg3) (arg m c main_arg4) (arg m c main_arg5) := by
  show StableHlo.after hostOps3 (W6 m ρ c) (Proc.devRef .tc main_v69) = _
  generalize hV : W6 m ρ c = V
  dsimp only [hostOps3]
  after_results_simp
  subst hV
  rw [W6_arg3, W6_arg4, W6_arg5]
  rfl

theorem W7_cst15 : W7 m ρ c (Proc.devRef .tc main_cst_15) = constant (F := Ideal) S_ .f32 0x00000000#32 := by
  show StableHlo.after hostOps3 (W6 m ρ c) (Proc.devRef .tc main_cst_15) = _
  generalize W6 m ρ c = V
  dsimp only [hostOps3]
  after_results_simp

theorem W8_v81 : W8 m ρ c (Proc.devRef .tc main_v81) = W7 m ρ c (Proc.devRef .tc main_v81) := by
  host_skip hostOps3_1

theorem W8_v84 : W8 m ρ c (Proc.devRef .tc main_v84)
    = select (W7 m ρ c (Proc.devRef .tc main_v83)) (W7 m ρ c (Proc.devRef .tc main_v69))
        (broadcastInDim S1024 ![] Cert.KernelIdeal.Gen.bcast_S_S1024 (W7 m ρ c (Proc.devRef .tc main_cst_15))) := by
  show StableHlo.after hostOps3_1 (W7 m ρ c) (Proc.devRef .tc main_v84) = _
  generalize W7 m ρ c = V
  dsimp only [hostOps3_1, StableHlo.TRef.unary, StableHlo.TRef.ternary]
  after_results
  rfl

theorem W9_v86 : W9 m ρ c (Proc.devRef .tc main_v86) = Cert.KChain.kpool (F := Ideal) (feats m c) (arg m c main_arg2) (arg m c main_arg3) (arg m c main_arg4) (arg m c main_arg5) := by
  show StableHlo.after hostOps3_2 (W8 m ρ c) (Proc.devRef .tc main_v86) = _
  generalize hV : W8 m ρ c = V
  dsimp only [hostOps3_2]
  after_results
  subst hV
  rw [W8_v81, W8_v84, W7_v81, W7_v83, W7_v69, W7_cst15]
  rfl

/-! ## The last launch -/

theorem W9_arg12 : W9 m ρ c (Proc.devRef .tc main_arg12) = arg m c main_arg12 :=
  (((W10_arr m ρ c 1).trans (((dat3 (V9 m ρ) c).arrAt_in 1 rfl _).trans (A_eq3 (V9 m ρ) c 1))).symm).trans (W10_main_arg12 m ρ c)
theorem W9_arg13 : W9 m ρ c (Proc.devRef .tc main_arg13) = arg m c main_arg13 :=
  (((W10_arr m ρ c 2).trans (((dat3 (V9 m ρ) c).arrAt_in 2 rfl _).trans (A_eq3 (V9 m ρ) c 2))).symm).trans (W10_main_arg13 m ρ c)
theorem W9_arg14 : W9 m ρ c (Proc.devRef .tc main_arg14) = arg m c main_arg14 :=
  (((W10_arr m ρ c 3).trans (((dat3 (V9 m ρ) c).arrAt_in 3 rfl _).trans (A_eq3 (V9 m ρ) c 3))).symm).trans (W10_main_arg14 m ρ c)
theorem W9_arg15 : W9 m ρ c (Proc.devRef .tc main_arg15) = arg m c main_arg15 :=
  (((W10_arr m ρ c 4).trans (((dat3 (V9 m ρ) c).arrAt_in 4 rfl _).trans (A_eq3 (V9 m ρ) c 4))).symm).trans (W10_main_arg15 m ρ c)
theorem W9_arg16 : W9 m ρ c (Proc.devRef .tc main_arg16) = arg m c main_arg16 :=
  (((W10_arr m ρ c 5).trans (((dat3 (V9 m ρ) c).arrAt_in 5 rfl _).trans (A_eq3 (V9 m ρ) c 5))).symm).trans (W10_main_arg16 m ρ c)
theorem W9_arg17 : W9 m ρ c (Proc.devRef .tc main_arg17) = arg m c main_arg17 :=
  (((W10_arr m ρ c 6).trans (((dat3 (V9 m ρ) c).arrAt_in 6 rfl _).trans (A_eq3 (V9 m ρ) c 6))).symm).trans (W10_main_arg17 m ρ c)
theorem W9_arg18 : W9 m ρ c (Proc.devRef .tc main_arg18) = arg m c main_arg18 :=
  (((W10_arr m ρ c 7).trans (((dat3 (V9 m ρ) c).arrAt_in 7 rfl _).trans (A_eq3 (V9 m ρ) c 7))).symm).trans (W10_main_arg18 m ρ c)
theorem W9_arg19 : W9 m ρ c (Proc.devRef .tc main_arg19) = arg m c main_arg19 :=
  (((W10_arr m ρ c 8).trans (((dat3 (V9 m ρ) c).arrAt_in 8 rfl _).trans (A_eq3 (V9 m ρ) c 8))).symm).trans (W10_main_arg19 m ρ c)

/-- THE RESULT: the array the last launch leaves is the head of the pooled table. -/
theorem result : W10 m ρ c (Proc.devRef .tc main_v87) = Cert.KChain.kout (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) := by
  refine (W10_arr m ρ c 9).trans ((Cert.KernelIdeal.HeadBlocks.final (V9 m ρ) c).trans ?_)
  show Cert.Spec.head (W9 m ρ c (Proc.devRef .tc main_v86)) (W9 m ρ c (Proc.devRef .tc main_arg12)) (W9 m ρ c (Proc.devRef .tc main_arg13)) (W9 m ρ c (Proc.devRef .tc main_arg14)) (W9 m ρ c (Proc.devRef .tc main_arg15)) (W9 m ρ c (Proc.devRef .tc main_arg16)) (W9 m ρ c (Proc.devRef .tc main_arg17)) (W9 m ρ c (Proc.devRef .tc main_arg18)) (W9 m ρ c (Proc.devRef .tc main_arg19)) = _
  rw [W9_v86, W9_arg12, W9_arg13, W9_arg14, W9_arg15, W9_arg16, W9_arg17, W9_arg18, W9_arg19, feats_eq]
  rfl

end Cert.KernelIdeal.HostChain

end
-- ==== Proof.LibScatterRows.lean ====
/-
  Scatters that take one index per update, read at an operand index.

  Two shapes of `stablehlo.scatter` dimension numbers: a length-`N` vector of updates scattered into a length-`K`
  operand (`vecDims`), and `N` rows of width `D` scattered into a `K × D` operand (`rowDims`), in both cases the
  indices an `[N, 1]` array of signed words, one per update (row). Update `n` lands at operand position (row) `t`
  exactly when its index word, read signed, is `t`, and is dropped when that is outside the operand
  (`vec_resultIdx?_eq_some`, `row_resultIdx?_eq_some`). An integer scatter with an adding body is, at each operand
  index, the operand's word plus the sum of the update words landing there (`scatter_addi_apply`: the fold over the
  updates is that sum, word addition being commutative and associative), and at the extended reals the float
  scatter-add is the same with real sums (`scatterAdd_vec_apply`, `scatterAdd_row_apply`).
-/
import Idealize.ShloMosaic.PureOps.Contract
import Idealize.ShloMosaic.PureOps.Ideal
import Idealize.ShloMosaic.Lib.ValueIdx
import Mathlib.Algebra.BigOperators.Group.Finset.Basic
import Mathlib.Algebra.BigOperators.Fin
import Mathlib.Data.BitVec

open Idealize.ShloMosaic Idealize.ShloMosaic.ValueIdx

namespace Cert.Lib.ScatterRows

/-- Scatter of a length-`N` vector of updates into a length-`K` operand, one index per update. -/
abbrev vecDims (K N : ℕ) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

theorem vec_start {K N w : ℕ} (wf) (j : (⟨1, ![N]⟩ : Shape).Idx) (idx : IVec ⟨2, ![N, 1]⟩ w) (a : Fin 1) :
    (vecDims K N wf).start j idx a = (idx (ix2 (j 0) 0)).toInt := by
  obtain rfl : a = 0 := Subsingleton.elim _ _
  unfold ScatterDims.start
  rw [dif_pos (show (0 : Fin 1) ∈ (vecDims K N wf).scatterDimsToOperandDims from List.mem_singleton.mpr rfl)]
  congr 2
  funext b
  refine Fin.ext ?_
  match b with
  | ⟨0, _⟩ => rfl
  | ⟨1, _⟩ => rfl

theorem vec_window {K N : ℕ} (wf) (j : (⟨1, ![N]⟩ : Shape).Idx) (a : Fin 1) :
    (vecDims K N wf).window j a = 0 := by
  obtain rfl : a = 0 := Subsingleton.elim _ _
  unfold ScatterDims.window
  rw [dif_neg]
  simp [ScatterDims.sKept, Shape.kept]

theorem vec_resultIdx?_eq_some {K N w : ℕ} (wf) (j : (⟨1, ![N]⟩ : Shape).Idx) (idx : IVec ⟨2, ![N, 1]⟩ w)
    (i : (⟨1, ![K]⟩ : Shape).Idx) :
    (vecDims K N wf).resultIdx? j idx = some i ↔ (idx (ix2 (j 0) 0)).toInt = ((i 0).val : ℤ) := by
  unfold ScatterDims.resultIdx?
  simp only [vec_start, vec_window]
  have hi : ((i 0).val : ℤ) < K := by
    have := (i 0).isLt
    simp at this
    exact_mod_cast this
  constructor
  · intro h
    split at h
    · rename_i hc
      have h1 := Option.some.inj h
      have h0 := congrArg (fun f => (f 0).val) h1
      simp only at h0
      have := (hc 0).1
      omega
    · cases h
  · intro h
    rw [dif_pos]
    · congr 1
      funext a
      obtain rfl : a = 0 := Subsingleton.elim _ _
      refine Fin.ext ?_
      simp [h]
    · intro a
      obtain rfl : a = 0 := Subsingleton.elim _ _
      simp [h]
      exact_mod_cast hi

/-- Scatter of `N` rows of width `D` into a `K × D` operand, one row index per update row. -/
abbrev rowDims (K D N : ℕ) (wf : ScatterDims.WF ⟨2, ![K, D]⟩ ⟨2, ![N, 1]⟩ ⟨2, ![N, D]⟩ [1] [0] [0] 1) :
    ScatterDims ⟨2, ![K, D]⟩ ⟨2, ![N, 1]⟩ ⟨2, ![N, D]⟩ where
  updateWindowDims := [1]
  insertedWindowDims := [0]
  scatterDimsToOperandDims := [0]
  indexVectorDim := 1
  wf := wf

theorem row_start0 {K D N w : ℕ} (wf) (j : (⟨2, ![N, D]⟩ : Shape).Idx) (idx : IVec ⟨2, ![N, 1]⟩ w) :
    (rowDims K D N wf).start j idx 0 = (idx (ix2 (j 0) 0)).toInt := by
  unfold ScatterDims.start
  rw [dif_pos (show (0 : Fin 2) ∈ (rowDims K D N wf).scatterDimsToOperandDims from List.mem_singleton.mpr rfl)]
  congr 2
  funext b
  refine Fin.ext ?_
  match b with
  | ⟨0, _⟩ => rfl
  | ⟨1, _⟩ => rfl

theorem row_start1 {K D N w : ℕ} (wf) (j : (⟨2, ![N, D]⟩ : Shape).Idx) (idx : IVec ⟨2, ![N, 1]⟩ w) :
    (rowDims K D N wf).start j idx 1 = 0 := by
  unfold ScatterDims.start
  rw [dif_neg]
  simp

theorem row_window0 {K D N : ℕ} (wf) (j : (⟨2, ![N, D]⟩ : Shape).Idx) :
    (rowDims K D N wf).window j 0 = 0 := by
  unfold ScatterDims.window
  rw [dif_neg]
  simp [ScatterDims.sKept, Shape.kept]

theorem row_window1 {K D N : ℕ} (wf) (j : (⟨2, ![N, D]⟩ : Shape).Idx) :
    (rowDims K D N wf).window j 1 = (j 1).val := by
  unfold ScatterDims.window
  rw [dif_pos (by simp [ScatterDims.sKept, Shape.kept])]
  first
  | rfl
  | simp [ScatterDims.sKept, Shape.kept, List.finRange]

theorem row_resultIdx?_eq_some {K D N w : ℕ} (wf) (j : (⟨2, ![N, D]⟩ : Shape).Idx) (idx : IVec ⟨2, ![N, 1]⟩ w)
    (i : (⟨2, ![K, D]⟩ : Shape).Idx) :
    (rowDims K D N wf).resultIdx? j idx = some i ↔
      (idx (ix2 (j 0) 0)).toInt = ((i 0).val : ℤ) ∧ (j 1).val = (i 1).val := by
  unfold ScatterDims.resultIdx?
  have hi0 : ((i 0).val : ℤ) < K := by
    have := (i 0).isLt
    simp at this
    exact_mod_cast this
  have hj1 : (j 1).val < D := by
    have := (j 1).isLt
    simpa using this
  constructor
  · intro h
    split at h
    · rename_i hc
      have h1 := Option.some.inj h
      have h00 := congrArg (fun f => (f 0).val) h1
      have h01 := congrArg (fun f => (f 1).val) h1
      simp only [row_start0, row_start1, row_window0, row_window1] at h00 h01
      have := (hc 0).1
      simp only [row_start0, row_window0] at this
      constructor
      · omega
      · omega
    · cases h
  · rintro ⟨h0, h1⟩
    rw [dif_pos]
    · congr 1
      funext a
      refine Fin.ext ?_
      match a with
      | ⟨0, _⟩ =>
        show ((rowDims K D N wf).start j idx 0 + ((rowDims K D N wf).window j 0 : ℤ)).toNat = (i 0).val
        rw [row_start0, row_window0, h0]
        simp
      | ⟨1, _⟩ =>
        show ((rowDims K D N wf).start j idx 1 + ((rowDims K D N wf).window j 1 : ℤ)).toNat = (i 1).val
        rw [row_start1, row_window1, ← h1]
        simp
    · intro a
      match a with
      | ⟨0, _⟩ =>
        show 0 ≤ (rowDims K D N wf).start j idx 0 + ((rowDims K D N wf).window j 0 : ℤ) ∧
          (rowDims K D N wf).start j idx 0 + ((rowDims K D N wf).window j 0 : ℤ) < ((⟨2, ![K, D]⟩ : Shape).size 0 : ℤ)
        rw [row_start0, row_window0, h0]
        simp
        exact_mod_cast hi0
      | ⟨1, _⟩ =>
        show 0 ≤ (rowDims K D N wf).start j idx 1 + ((rowDims K D N wf).window j 1 : ℤ) ∧
          (rowDims K D N wf).start j idx 1 + ((rowDims K D N wf).window j 1 : ℤ) < ((⟨2, ![K, D]⟩ : Shape).size 1 : ℤ)
        rw [row_start1, row_window1]
        simp
        exact_mod_cast hj1

/-- An integer scatter with an adding body, read at an operand index: the operand's word plus the sum of the
    update words that land there (the fold over the updates in row-major order is that sum, word addition being
    commutative). -/
theorem scatter_addi_apply {s si u : Shape} {w : ℕ} (d : ScatterDims s si u) (x : IVec s 32) (idx : IVec si w)
    (upd : IVec u 32) (i : s.Idx) :
    Host.scatter d IntOp.addi x idx upd i
      = x i + ∑ j : u.Idx, if d.resultIdx? j idx = some i then upd j else 0 := by
  unfold Host.scatter
  have key : ∀ (l : List (Fin u.numel)) (x : IVec s 32),
      l.foldl (fun r n => match d.resultIdx? (u.rowMajor.symm n) idx with
        | some i => fun i' => if i' = i then IntOp.addi (r i) (upd (u.rowMajor.symm n)) else r i'
        | none => r) x i
      = x i + (l.map (fun n => if d.resultIdx? (u.rowMajor.symm n) idx = some i then upd (u.rowMajor.symm n) else 0)).sum := by
    intro l
    induction l with
    | nil => intro x; simp
    | cons n l ih =>
      intro x
      rw [List.foldl_cons, ih, List.map_cons, List.sum_cons, ← add_assoc]
      congr 1
      cases hr : d.resultIdx? (u.rowMajor.symm n) idx with
      | none => simp
      | some i0 =>
        by_cases hii : i = i0
        · subst hii
          simp [IntOp.addi]
        · have hne : ¬ (some i0 = some i) := fun h => hii (Option.some.inj h).symm
          simp [hii, hne]
  refine (key (List.finRange u.numel) x).trans ?_
  rw [← Fin.sum_univ_def]
  congr 1
  exact Equiv.sum_comp u.rowMajor.symm (fun j => if d.resultIdx? j idx = some i then upd j else 0)

/-- The float scatter-add of a vector of updates at the extended reals: the operand's entry plus the sum of the
    updates whose index word, read signed, is this position. -/
theorem scatterAdd_vec_apply {K N w : ℕ} (wf) (x : (⟨1, ![K]⟩ : Shape).Idx → EReal) (idx : IVec ⟨2, ![N, 1]⟩ w)
    (upd : (⟨1, ![N]⟩ : Shape).Idx → EReal) (i : (⟨1, ![K]⟩ : Shape).Idx) :
    Ideal.hostScatterAdd (vecDims K N wf) x idx upd i
      = x i + ∑ j : (⟨1, ![N]⟩ : Shape).Idx, if (idx (ix2 (j 0) 0)).toInt = ((i 0).val : ℤ) then upd j else 0 := by
  unfold Ideal.hostScatterAdd
  rw [Finset.sum_filter]
  simp only [vec_resultIdx?_eq_some]

/-- The float scatter-add of rows at the extended reals: the operand's entry at `(t, f)` plus the sum over the update
    rows whose index word, read signed, is `t`, of their entry in column `f`. -/
theorem scatterAdd_row_apply {K D N w : ℕ} (wf) (x : (⟨2, ![K, D]⟩ : Shape).Idx → EReal) (idx : IVec ⟨2, ![N, 1]⟩ w)
    (upd : (⟨2, ![N, D]⟩ : Shape).Idx → EReal) (i : (⟨2, ![K, D]⟩ : Shape).Idx) :
    Ideal.hostScatterAdd (rowDims K D N wf) x idx upd i
      = x i + ∑ j : (⟨2, ![N, D]⟩ : Shape).Idx,
          if (idx (ix2 (j 0) 0)).toInt = ((i 0).val : ℤ) ∧ (j 1).val = (i 1).val then upd j else 0 := by
  unfold Ideal.hostScatterAdd
  rw [Finset.sum_filter]
  simp only [row_resultIdx?_eq_some]

end Cert.Lib.ScatterRows
-- ==== Proof.LibGatherRows.lean ====
/-
  `stablehlo.gather` of whole rows, one start index per row, read at a result index.

  Two shapes of gather dimension numbers over an `[E, 1]` array of start indices, one signed word per result row:
  a length-`N` vector gathered into a length-`E` vector (`vecG`), and the rows of an `N × D` array gathered into
  an `E × D` array (`rowG`). Result row `e` is the operand's row `rowOf idx e`: the start index word `idx[e, 0]`
  read as a signed integer and clamped into `[0, N − 1]`, as StableHLO's gather clamps every start index
  (`gather_vec_apply`, `gather_row_apply`).
-/
import Idealize.ShloMosaic.PureOps.Ideal
import Idealize.ShloMosaic.Lib.ValueIdx

open Idealize.ShloMosaic Idealize.ShloMosaic.ValueIdx

namespace Cert.Lib.GatherRows

variable {α : Type}

/-- Gather of single entries of a length-`N` vector, one start index per result entry. -/
abbrev vecG (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of whole rows of an `N × D` array, one start index per result row. -/
abbrev rowG (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The operand row read for result row `e`: the start index word read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- The vector gather read at `e`: the operand at the clamped start index of `e`. -/
theorem gather_vec_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecG N E wf) x idx (ix1 e) = x (ix1 (rowOf hN idx e)) := by
  unfold Host.gather
  congr 1
  funext a
  obtain rfl : a = 0 := Subsingleton.elim _ _
  refine Fin.ext ?_
  show (vecG N E wf).start (ix1 e) idx 0 + (vecG N E wf).batchCoord (ix1 e) 0 + (vecG N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecG N E wf).startIndexMap from List.mem_singleton.mpr rfl)]
  have hsi : (vecG N E wf).siIdx (ix1 e) ⟨List.idxOf (0 : Fin 1) (vecG N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row gather read at `(e, c)`: the operand at the clamped start row of `e`, column `c`. -/
theorem gather_row_apply {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowG N D E wf) x idx (ix2 e c) = x (ix2 (rowOf hN idx e) c) := by
  unfold Host.gather
  congr 1
  funext a
  refine Fin.ext ?_
  match a with
  | ⟨0, _⟩ =>
    show (rowG N D E wf).start (ix2 e c) idx 0 + (rowG N D E wf).batchCoord (ix2 e c) 0
      + (rowG N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowG N D E wf).startIndexMap from List.mem_singleton.mpr rfl)]
    have hsi : (rowG N D E wf).siIdx (ix2 e c) ⟨List.idxOf (0 : Fin 2) (rowG N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowG N D E wf).start (ix2 e c) idx 1 + (rowG N D E wf).batchCoord (ix2 e c) 1
      + (rowG N D E wf).offCoord (ix2 e c) 1 = c.val
    rw [GatherDims.batchCoord_eq_zero _ _ _ List.not_mem_nil]
    have hstart : (rowG N D E wf).start (ix2 e c) idx 1 = 0 := by
      unfold GatherDims.start
      rw [dif_neg]
      simp
    rw [hstart]
    simp only [Nat.add_zero, Nat.zero_add]
    unfold GatherDims.offCoord
    rw [dif_pos (by simp [GatherDims.sKept, Shape.kept])]
    first
    | rfl
    | simp [GatherDims.sKept, Shape.kept, List.finRange]

end Cert.Lib.GatherRows
-- ==== Proof.LibLayerLaw.lean ====
/-
  A non-negative real factor attached to the scatter key moves out of the scatter sum.

  On the extended reals `(a + b) * x = a * x + b * x` holds for a real `x ≥ 0` whatever `a` and `b` are, so a
  finite sum of products by such an `x` is the sum times `x` (`sum_mul_real`). A graph layer gathers the rows of
  `H` at the source keys, scales row `e` by `dv[src e] * dv[dst e]` and scatter-adds the rows at the destination
  keys. The update rows that land at row `t` all have destination `t`, so they share the factor `dv[t]`, which is a
  non-negative real: the scatter is the scatter of the rows of `H` scaled by their own `dv` entry, times `dv[t]`
  (`scatter_gather_scale`).
-/
import proofs.«147071_j46119358824917_2_alg».proof.Proof.LibScatterRows
import proofs.«147071_j46119358824917_2_alg».proof.Proof.LibGatherRows
import Mathlib.Data.EReal.Operations

open Idealize.ShloMosaic Idealize.ShloMosaic.ValueIdx

namespace Cert.Lib.LayerLaw

/-- A finite sum of products by a non-negative real is the sum times that real, whatever the other factors are. -/
theorem sum_mul_real {ι : Type} (S : Finset ι) (f : ι → EReal) (x : ℝ) (hx : 0 ≤ x) :
    ∑ j ∈ S, f j * (x : EReal) = (∑ j ∈ S, f j) * (x : EReal) := by
  classical
  induction S using Finset.induction_on with
  | empty => simp
  | insert a S ha ih =>
    rw [Finset.sum_insert ha, Finset.sum_insert ha, ih]
    exact (EReal.right_distrib_of_nonneg_of_ne_top (EReal.coe_nonneg.mpr hx) (EReal.coe_ne_top x) _ _).symm

/-- Scatter-add, at the destination keys, of the gathered rows of `H` scaled by `dv[src] * dv[dst]`: the
    scatter-add of the gathered rows of `H` each scaled by its own `dv` entry, times the `dv` entry of the row read.
    `hdst`: a destination key that is in range is read as itself by the clamping gather. -/
theorem scatter_gather_scale {N D E : ℕ} (hN : 0 < N)
    (wfS : ScatterDims.WF ⟨2, ![N, D]⟩ ⟨2, ![E, 1]⟩ ⟨2, ![E, D]⟩ [1] [0] [0] 1)
    (wfG2 : GatherDims.WF ⟨2, ![N, D]⟩ ⟨2, ![E, 1]⟩ ⟨2, ![E, D]⟩ [1] [0] [] [0] [] 1 ![1, D])
    (wfG1 : GatherDims.WF ⟨1, ![N]⟩ ⟨2, ![E, 1]⟩ ⟨1, ![E]⟩ [] [0] [] [0] [] 1 ![1])
    (H : (⟨2, ![N, D]⟩ : Shape).Idx → EReal) (dv : (⟨1, ![N]⟩ : Shape).Idx → EReal)
    (hdv : ∀ r, ∃ x : ℝ, 0 ≤ x ∧ dv r = (x : EReal))
    (srcW dstW dstI : IVec ⟨2, ![E, 1]⟩ 32)
    (hdst : ∀ (e : Fin E) (j : Fin N), (dstI (ix2 e (0 : Fin 1))).toInt = (j.val : ℤ) →
      GatherRows.rowOf hN dstW e = j)
    (i : (⟨2, ![N, D]⟩ : Shape).Idx) :
    Ideal.hostScatterAdd (ScatterRows.rowDims N D E wfS) (fun _ => (0 : EReal)) dstI
        (fun u => Host.gather (GatherRows.rowG N D E wfG2) H srcW u
          * (Host.gather (GatherRows.vecG N E wfG1) dv srcW (ix1 (u 0))
            * Host.gather (GatherRows.vecG N E wfG1) dv dstW (ix1 (u 0)))) i
      = Ideal.hostScatterAdd (ScatterRows.rowDims N D E wfS) (fun _ => (0 : EReal)) dstI
          (Host.gather (GatherRows.rowG N D E wfG2) (fun r => H r * dv (ix1 (r 0))) srcW) i
        * dv (ix1 (i 0)) := by
  rw [ScatterRows.scatterAdd_row_apply, ScatterRows.scatterAdd_row_apply]
  obtain ⟨x, hx, hxe⟩ := hdv (ix1 (i 0))
  rw [zero_add, zero_add, ← Finset.sum_filter, ← Finset.sum_filter, hxe, ← sum_mul_real _ _ x hx]
  refine Finset.sum_congr rfl fun u hu => ?_
  have hc := (Finset.mem_filter.mp hu).2
  obtain ⟨e, c, rfl⟩ : ∃ (e : Fin E) (c : Fin D), u = ix2 e c := ⟨u 0, u 1, eq_ix2 u⟩
  have hrow : GatherRows.rowOf hN dstW e = i 0 := hdst e (i 0) hc.1
  show Host.gather (GatherRows.rowG N D E wfG2) H srcW (ix2 e c)
        * (Host.gather (GatherRows.vecG N E wfG1) dv srcW (ix1 e)
          * Host.gather (GatherRows.vecG N E wfG1) dv dstW (ix1 e))
      = Host.gather (GatherRows.rowG N D E wfG2) (fun r => H r * dv (ix1 (r 0))) srcW (ix2 e c) * (x : EReal)
  rw [GatherRows.gather_row_apply hN, GatherRows.gather_vec_apply hN, GatherRows.gather_vec_apply hN,
    GatherRows.gather_row_apply hN, hrow, hxe]
  exact (mul_assoc _ _ _).symm

end Cert.Lib.LayerLaw
-- ==== Proof.LibDegree.lean ====
/-
  The inverse square root of a count is a non-negative real.

  A degree is the float zero plus a sum of float ones over a finite set: the extended real that is the set's
  cardinality, a non-negative real (`count_real`). For a non-negative real `deg`, the guarded inverse square root
  "`deg > 0` ? `1 / √deg` : `0`" is again a non-negative real: `(√deg)⁻¹` when `deg` is positive, `0` when it is
  zero (`dinv_real`); the guard is what keeps the value off `⊤ = 1 / √0`.
-/
import Idealize.ShloMosaic.PureOps.Ideal
import Idealize.ShloMosaic.PureOps.Ideal.Laws
import Idealize.ShloMosaic.Lib.ValueIdx

open Idealize.ShloMosaic Idealize.ShloMosaic.ValueIdx

namespace Cert.Lib.Degree

/-- The float word of `1.0`, at the extended reals. -/
noncomputable abbrev one : EReal := Ideal.ofBits .f32 0x3F800000#32
/-- The float word of `0.0`, at the extended reals. -/
noncomputable abbrev zero : EReal := Ideal.ofBits .f32 0x00000000#32

/-- The word `0x3F800000` denotes the real `1`. -/
theorem one_eq : one = 1 := by
  simp [Ideal.ofBits, Ideal.ieee, -EReal.coe_mul]
  norm_num

/-- The word `0x00000000` denotes the real `0`. -/
theorem zero_eq : zero = 0 := Ideal.ofBits_zero_f32

/-- Zero plus a one for every element of a finite set is the set's cardinality: a non-negative real. -/
theorem count_real {ι : Type} (S : Finset ι) :
    ∃ x : ℝ, 0 ≤ x ∧ zero + ∑ _j ∈ S, one = (x : EReal) := by
  refine ⟨(S.card : ℝ), Nat.cast_nonneg _, ?_⟩
  rw [zero_eq, one_eq, zero_add]
  simp

/-- The guarded inverse square root of a non-negative real is a non-negative real. -/
theorem dinv_real (deg : EReal) (h : ∃ x : ℝ, 0 ≤ x ∧ deg = (x : EReal)) :
    ∃ y : ℝ, 0 ≤ y ∧ Scalar.select (Ideal.cmp .ogt deg zero) (Ideal.rsqrt deg) zero = (y : EReal) := by
  obtain ⟨x, hx, rfl⟩ := h
  rcases hx.eq_or_lt with h0 | hpos
  · subst h0
    refine ⟨0, le_refl _, ?_⟩
    have hc : Ideal.cmp .ogt ((0 : ℝ) : EReal) zero = 0#1 := by
      simp [Ideal.cmp, zero_eq]
    rw [hc, select_zero, zero_eq]
    rfl
  · refine ⟨(Real.sqrt x)⁻¹, inv_nonneg.mpr (Real.sqrt_nonneg x), ?_⟩
    have hc : Ideal.cmp .ogt (x : EReal) zero = 1#1 := by
      simp [Ideal.cmp, zero_eq, hpos]
    rw [hc, select_one, Ideal.rsqrt_coe, if_neg (not_lt.mpr hpos.le), if_neg hpos.ne']

end Cert.Lib.Degree
-- ==== Proof.LibLayerGuarded.lean ====
/-
  The graph layer's normalisation law with the factor known to be real only where it is used.

  The rows scatter-added into row `t` all carry the factor `dv[t]`. When some update lands at `t`, `dv[t]` is
  assumed a non-negative real and moves out of the sum (a non-negative real distributes over any sum of extended
  reals); when none does, both sums are empty and both sides are zero, whatever `dv[t]` is. A degree that counts at
  least one landing update is a positive natural number, so its inverse square root is such a real
  (`rsqrt_count_real`).
-/
import proofs.«147071_j46119358824917_2_alg».proof.Proof.LibLayerLaw
import proofs.«147071_j46119358824917_2_alg».proof.Proof.LibDegree

open Idealize.ShloMosaic Idealize.ShloMosaic.ValueIdx

namespace Cert.LayerGuarded

open Cert.Lib

/-- Scatter-add, at the destination keys, of the gathered rows of `H` scaled by `dv[src] * dv[dst]`, is the
    scatter-add of the gathered rows of `H` each scaled by its own `dv` entry, times the `dv` entry of the row
    read — `dv[t]` being a non-negative real wherever some destination key is `t`. -/
theorem scatter_gather_scale {N D E : ℕ} (hN : 0 < N)
    (wfS : ScatterDims.WF ⟨2, ![N, D]⟩ ⟨2, ![E, 1]⟩ ⟨2, ![E, D]⟩ [1] [0] [0] 1)
    (wfG2 : GatherDims.WF ⟨2, ![N, D]⟩ ⟨2, ![E, 1]⟩ ⟨2, ![E, D]⟩ [1] [0] [] [0] [] 1 ![1, D])
    (wfG1 : GatherDims.WF ⟨1, ![N]⟩ ⟨2, ![E, 1]⟩ ⟨1, ![E]⟩ [] [0] [] [0] [] 1 ![1])
    (H : (⟨2, ![N, D]⟩ : Shape).Idx → EReal) (dv : (⟨1, ![N]⟩ : Shape).Idx → EReal)
    (srcW dstW dstI : IVec ⟨2, ![E, 1]⟩ 32)
    (hdv : ∀ r : Fin N, (∃ e : Fin E, (dstI (ix2 e (0 : Fin 1))).toInt = (r.val : ℤ)) →
      ∃ x : ℝ, 0 ≤ x ∧ dv (ix1 r) = (x : EReal))
    (hdst : ∀ (e : Fin E) (j : Fin N), (dstI (ix2 e (0 : Fin 1))).toInt = (j.val : ℤ) →
      GatherRows.rowOf hN dstW e = j)
    (i : (⟨2, ![N, D]⟩ : Shape).Idx) :
    Ideal.hostScatterAdd (ScatterRows.rowDims N D E wfS) (fun _ => (0 : EReal)) dstI
        (fun u => Host.gather (GatherRows.rowG N D E wfG2) H srcW u
          * (Host.gather (GatherRows.vecG N E wfG1) dv srcW (ix1 (u 0))
            * Host.gather (GatherRows.vecG N E wfG1) dv dstW (ix1 (u 0)))) i
      = Ideal.hostScatterAdd (ScatterRows.rowDims N D E wfS) (fun _ => (0 : EReal)) dstI
          (Host.gather (GatherRows.rowG N D E wfG2) (fun r => H r * dv (ix1 (r 0))) srcW) i
        * dv (ix1 (i 0)) := by
  rw [ScatterRows.scatterAdd_row_apply, ScatterRows.scatterAdd_row_apply]
  by_cases hne : ∃ e : Fin E, (dstI (ix2 e (0 : Fin 1))).toInt = ((i 0).val : ℤ)
  · obtain ⟨x, hx, hxe⟩ := hdv (i 0) hne
    rw [zero_add, zero_add, ← Finset.sum_filter, ← Finset.sum_filter, hxe, ← LayerLaw.sum_mul_real _ _ x hx]
    refine Finset.sum_congr rfl fun u hu => ?_
    have hc := (Finset.mem_filter.mp hu).2
    obtain ⟨e, c, rfl⟩ : ∃ (e : Fin E) (c : Fin D), u = ix2 e c := ⟨u 0, u 1, eq_ix2 u⟩
    have hrow : GatherRows.rowOf hN dstW e = i 0 := hdst e (i 0) hc.1
    show Host.gather (GatherRows.rowG N D E wfG2) H srcW (ix2 e c)
          * (Host.gather (GatherRows.vecG N E wfG1) dv srcW (ix1 e)
            * Host.gather (GatherRows.vecG N E wfG1) dv dstW (ix1 e))
        = Host.gather (GatherRows.rowG N D E wfG2) (fun r => H r * dv (ix1 (r 0))) srcW (ix2 e c) * (x : EReal)
    rw [GatherRows.gather_row_apply hN, GatherRows.gather_vec_apply hN, GatherRows.gather_vec_apply hN,
      GatherRows.gather_row_apply hN, hrow, hxe]
    exact (mul_assoc _ _ _).symm
  · have hnone : ∀ u : (⟨2, ![E, D]⟩ : Shape).Idx,
        ¬ ((dstI (ix2 (u 0) (0 : Fin 1))).toInt = ((i 0).val : ℤ) ∧ (u 1).val = (i 1).val) :=
      fun u h => hne ⟨u 0, h.1⟩
    rw [Finset.sum_eq_zero (fun u _ => if_neg (hnone u)), Finset.sum_eq_zero (fun u _ => if_neg (hnone u))]
    simp

/-- The inverse square root of "the float zero plus a float one for every element of a non-empty finite set" is a
    non-negative real: the count is a positive natural number. -/
theorem rsqrt_count_real {ι : Type} (S : Finset ι) (hS : S.Nonempty) :
    ∃ y : ℝ, 0 ≤ y ∧ Ideal.rsqrt (Degree.zero + ∑ _j ∈ S, Degree.one) = (y : EReal) := by
  refine ⟨(Real.sqrt (S.card : ℝ))⁻¹, inv_nonneg.mpr (Real.sqrt_nonneg _), ?_⟩
  have hc : Degree.zero + ∑ _j ∈ S, Degree.one = ((S.card : ℝ) : EReal) := by
    rw [Degree.zero_eq, Degree.one_eq, zero_add]
    simp
  have hpos : (0 : ℝ) < (S.card : ℝ) := by exact_mod_cast Finset.card_pos.mpr hS
  rw [hc, Ideal.rsqrt_coe, if_neg (not_lt.mpr hpos.le), if_neg hpos.ne']

end Cert.LayerGuarded
-- ==== Proof.LayerShared.lean ====
/-
  Facts about the edge keys and the node factors that the three graph layers share.

  The destination column holds the destination key of every edge. A node's factor is the inverse square root of
  its in-degree, the float zero plus a float one per edge whose destination key is the node: where at least one
  edge lands it is a non-negative real (`factor_real`). A destination key that names a node `j` is non-negative, so
  the normalisation "add the node count if negative" leaves it alone and the clamping gather reads row `j` for
  it (`dst_row`). The per-edge factor is the product of the factors gathered at the two endpoints (`norm_apply`).
-/
import proofs.«147071_j46119358824917_2_alg».proof.Proof.KChain
import proofs.«147071_j46119358824917_2_alg».proof.Proof.LibLayerGuarded
import Idealize.ShloMosaic.Lib.Pipeline.Value

noncomputable section

namespace Cert.LayerShared

open Cert.ReferenceIdeal Cert.ReferenceIdeal.Gen Cert.ReferenceIdeal.Read Cert.KChain Cert.Lib Idealize.ShloMosaic Idealize.ShloMosaic.ValueIdx

/-- A scatter-add of a vector of updates over any arrays, at an index: the operand's entry plus the updates whose key
    is the index. -/
theorem scatter_vec (z : FVec Ideal S50000 .f32) (idx : IVec S850000x1 32) (u : FVec Ideal S850000 .f32) (i : S50000.Idx) :
    Host.scatterAdd scatter_S50000_S850000x1_S850000_n_0_0_1 z idx u i
      = z i + ∑ j : S850000.Idx, if (idx (ix2 (j 0) (0 : Fin 1))).toInt = ((i 0).val : ℤ) then u j else 0 := by
  show Ideal.hostScatterAdd (ScatterRows.vecDims 50000 850000 scatter_S50000_S850000x1_S850000_n_0_0_1_wf) z idx u i = _
  exact ScatterRows.scatterAdd_vec_apply _ z idx u i

variable (x1 : (⟨S2x800000, .i32⟩ : BufTy).Contents (Elt Ideal))

/-- The factor column at row `r` is the factor of node `r`. -/
theorem dcol_apply (r : Fin 50000) : dcol (F := Ideal) x1 (ix2 r (0 : Fin 1)) = val_main_v11 (F := Ideal) x1 (ix1 r) := by
  unfold dcol
  generalize val_main_v11 (F := Ideal) x1 = y
  exact broadcastInDim_apply _ bcast_S50000_S50000x1_0 y (ix2 r (0 : Fin 1)) (ix1 r) (fun a => match a with
    | ⟨0, _⟩ => by show r.val = if (50000 : Nat) = 1 then 0 else r.val; rw [if_neg (by decide)])

/-- The destination column at edge `e` is the edge's destination key. -/
theorem dstI_apply (e : Fin 850000) :
    val_main_v9 (F := Ideal) x1 (ix2 e (0 : Fin 1)) = val_main_v6 (F := Ideal) x1 (ix1 e) := by
  rw [val_main_v9_apply]
  exact congrArg _ (funext fun a => Fin.ext (by match a with | ⟨0, _⟩ => rfl))

/-- A node's degree: the float zero plus a float one for every edge whose destination key is the node. -/
theorem deg_apply (i : S50000.Idx) :
    val_main_v10 (F := Ideal) x1 i = Degree.zero + ∑ _j ∈ Finset.univ.filter (fun j : S850000.Idx =>
      (val_main_v9 (F := Ideal) x1 (ix2 (j 0) (0 : Fin 1))).toInt = ((i 0).val : ℤ)), Degree.one := by
  unfold val_main_v10
  rw [scatter_vec, ← Finset.sum_filter, val_main_v8_apply, val_main_cst_0_apply, Ideal.ofBits_def]
  refine congrArg (Degree.zero + ·) (Finset.sum_congr rfl fun j _ => ?_)
  rw [val_main_v7_apply, val_main_cst_apply, Ideal.ofBits_def]

/-- A node some edge lands at has a non-negative real factor: its degree is a positive count. -/
theorem factor_real (r : Fin 50000)
    (h : ∃ e : Fin 850000, (val_main_v9 (F := Ideal) x1 (ix2 e (0 : Fin 1))).toInt = (r.val : ℤ)) :
    ∃ x : ℝ, 0 ≤ x ∧ val_main_v11 (F := Ideal) x1 (ix1 r) = (x : EReal) := by
  obtain ⟨e, he⟩ := h
  have hmem : (ix1 e : S850000.Idx) ∈ Finset.univ.filter (fun j : S850000.Idx =>
      (val_main_v9 (F := Ideal) x1 (ix2 (j 0) (0 : Fin 1))).toInt = (((ix1 r : S50000.Idx) 0).val : ℤ)) :=
    Finset.mem_filter.mpr ⟨Finset.mem_univ _, he⟩
  obtain ⟨y, hy, hye⟩ := LayerGuarded.rsqrt_count_real _ ⟨_, hmem⟩
  refine ⟨y, hy, ?_⟩
  rw [val_main_v11_apply, Ideal.hostUnary_rsqrt_def, deg_apply]
  exact hye

/-- The normalised destination column at an edge whose key names node `j` is that key, and the clamping gather
    reads row `j` for it. -/
theorem dst_row (e : Fin 850000) (j : Fin 50000)
    (h : (val_main_v9 (F := Ideal) x1 (ix2 e (0 : Fin 1))).toInt = (j.val : ℤ)) :
    GatherRows.rowOf (N := 50000) (by decide) (val_main_v24 (F := Ideal) x1) e = j := by
  rw [dstI_apply] at h
  have hw : val_main_v24 (F := Ideal) x1 (ix2 e (0 : Fin 1)) = val_main_v6 (F := Ideal) x1 (ix1 e) := by
    rw [val_main_v24_apply]
    have hi : idx_main_v24 (ix2 e (0 : Fin 1)) = ix1 e := funext fun a => Fin.ext (by match a with | ⟨0, _⟩ => rfl)
    rw [hi, val_main_v23_apply, val_main_v20_apply]
    have h0 : val_main_v19 (F := Ideal) (ix1 e) = 0#32 := rfl
    rw [h0]
    generalize val_main_v6 (F := Ideal) x1 (ix1 e) = w at h ⊢
    have hns : IntOp.cmpi .slt w 0#32 = 0#1 := by
      unfold IntOp.cmpi
      have : ¬ (w.toInt < 0) := by rw [h]; exact not_lt.mpr (Int.natCast_nonneg _)
      simp [BitVec.slt, this]
    rw [hns]
    exact select_zero _ _
  apply Fin.ext
  show min (val_main_v24 (F := Ideal) x1 (ix2 e (0 : Fin 1))).toInt.toNat (50000 - 1) = j.val
  rw [hw, h]
  have := j.isLt
  simp
  omega

/-- The per-edge factor: the product of the node factors gathered at the edge's two endpoints. -/
theorem norm_apply (i : S850000.Idx) :
    val_main_v26 (F := Ideal) x1 i
      = Host.gather gather_S50000_S850000x1_S850000_n_0_n_n_0_1_1 (val_main_v11 (F := Ideal) x1) (val_main_v17 (F := Ideal) x1) i
        * Host.gather gather_S50000_S850000x1_S850000_n_0_n_n_0_1_1 (val_main_v11 (F := Ideal) x1) (val_main_v24 (F := Ideal) x1) i := by
  rw [val_main_v26_apply, Ideal.mulf_def]
  unfold val_main_v18 val_main_v25
  rfl

end Cert.LayerShared

end
-- ==== Proof.LayerLaws.lean ====
/-
  The normalisation law of the graph layers, layer by layer.

  The kernel's launch writes the rows of `h · W` each scaled by its node's factor; after the gather at the source
  keys and the sum into the destination rows, each row is scaled by its node's factor once more. The reference
  scales every gathered row by the product of the two endpoint factors before the sum. All rows summed into row `t`
  share the factor of node `t`, a non-negative real wherever any row lands, so it moves out of the sum: the two
  layers are the same array, entry by entry.
-/
import proofs.«147071_j46119358824917_2_alg».proof.Proof.LayerShared
import proofs.«147071_j46119358824917_2_alg».proof.Proof.LibPlainDot

noncomputable section

namespace Cert.LayerLaws

open Cert.ReferenceIdeal Cert.ReferenceIdeal.Gen Cert.ReferenceIdeal.Read Cert.ReferenceIdeal.RefChain Cert.KChain Cert.LayerShared Cert.Lib
open Idealize.ShloMosaic Idealize.ShloMosaic.ValueIdx

/-! ## The first layer, 128 → 256 -/

/-- The kernel's layer over any arrays, at an index. -/
theorem ksideA (Z : FVec Ideal S50000x256 .f32) (dstI : IVec S850000x1 32) (G : FVec Ideal S850000x256 .bf16)
    (B bias : FVec Ideal S50000x256 .f32) (i : S50000x256.Idx) :
    addf (mulf (Host.scatterAdd scatter_S50000x256_S850000x1_S850000x256_1_0_0_1 Z dstI (extf (φ := .bf16) .f32 G Cert.KernelIdeal.Gen.bitsLt_bf16_f32)) B) bias i
      = Ideal.hostScatterAdd (ScatterRows.rowDims 50000 256 850000 scatter_S50000x256_S850000x1_S850000x256_1_0_0_1_wf) Z dstI G i * B i + bias i := rfl

/-- The reference's layer over any arrays, at an index. -/
theorem rsideA (Z : FVec Ideal S50000x256 .f32) (dstI : IVec S850000x1 32) (G NORM : FVec Ideal S850000x256 .f32)
    (bias : FVec Ideal S50000x256 .f32) (i : S50000x256.Idx) :
    addf (Host.scatterAdd scatter_S50000x256_S850000x1_S850000x256_1_0_0_1 Z dstI (mulf G NORM)) bias i
      = Ideal.hostScatterAdd (ScatterRows.rowDims 50000 256 850000 scatter_S50000x256_S850000x1_S850000x256_1_0_0_1_wf) Z dstI (fun u => G u * NORM u) i + bias i := rfl

/-- The law over any arrays: the destination factor moves out of the sum of the gathered, source-scaled rows. -/
theorem coreA (H : FVec Ideal S50000x256 .f32) (dv : FVec Ideal S50000 .f32) (Z : FVec Ideal S50000x256 .f32)
    (hZ : Z = fun _ => (0 : EReal)) (dstI srcW dstW : IVec S850000x1 32)
    (dc : FVec Ideal S50000x1 .f32) (hdc : ∀ r : Fin 50000, dc (ix2 r (0 : Fin 1)) = dv (ix1 r))
    (NORM : FVec Ideal S850000x256 .f32)
    (hnorm : ∀ u : S850000x256.Idx, NORM u = Host.gather gather_S50000_S850000x1_S850000_n_0_n_n_0_1_1 dv srcW (ix1 (u 0)) * Host.gather gather_S50000_S850000x1_S850000_n_0_n_n_0_1_1 dv dstW (ix1 (u 0)))
    (bias : FVec Ideal S50000x256 .f32)
    (hdv : ∀ r : Fin 50000, (∃ e : Fin 850000, (dstI (ix2 e (0 : Fin 1))).toInt = (r.val : ℤ)) →
      ∃ x : ℝ, 0 ≤ x ∧ dv (ix1 r) = (x : EReal))
    (hdst : ∀ (e : Fin 850000) (j : Fin 50000), (dstI (ix2 e (0 : Fin 1))).toInt = (j.val : ℤ) →
      GatherRows.rowOf (N := 50000) (by decide) dstW e = j) :
    addf (mulf (Host.scatterAdd scatter_S50000x256_S850000x1_S850000x256_1_0_0_1 Z dstI
        (extf (φ := .bf16) .f32 (Host.gather gather_S50000x256_S850000x1_S850000x256_1_0_n_n_0_1_1256 (fun r => H r * dv (ix1 (r 0))) srcW) Cert.KernelIdeal.Gen.bitsLt_bf16_f32))
        (broadcastInDim S50000x256 ![0, 1] Cert.KernelIdeal.Gen.bcast_S50000x1_S50000x256_0_1 dc)) bias
      = addf (Host.scatterAdd scatter_S50000x256_S850000x1_S850000x256_1_0_0_1 Z dstI (mulf (Host.gather gather_S50000x256_S850000x1_S850000x256_1_0_n_n_0_1_1256 H srcW) NORM)) bias := by
  funext i
  have hbc : broadcastInDim S50000x256 ![0, 1] Cert.KernelIdeal.Gen.bcast_S50000x1_S50000x256_0_1 dc i = dv (ix1 (i 0)) := by
    exact (broadcastInDim_apply _ Cert.KernelIdeal.Gen.bcast_S50000x1_S50000x256_0_1 dc i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans (hdc (i 0))
  have hg : gather_S50000x256_S850000x1_S850000x256_1_0_n_n_0_1_1256 = GatherRows.rowG 50000 256 850000 gather_S50000x256_S850000x1_S850000x256_1_0_n_n_0_1_1256_wf := rfl
  have hv : gather_S50000_S850000x1_S850000_n_0_n_n_0_1_1 = GatherRows.vecG 50000 850000 gather_S50000_S850000x1_S850000_n_0_n_n_0_1_1_wf := rfl
  rw [ksideA, rsideA, hbc, hZ]
  simp only [hnorm]
  rw [hg, hv]
  refine congrArg (· + bias i) ?_
  exact (LayerGuarded.scatter_gather_scale (N := 50000) (D := 256) (E := 850000) (by decide)
    scatter_S50000x256_S850000x1_S850000x256_1_0_0_1_wf gather_S50000x256_S850000x1_S850000x256_1_0_n_n_0_1_1256_wf gather_S50000_S850000x1_S850000_n_0_n_n_0_1_1_wf H dv srcW dstW dstI hdv hdst i).symm

/-- The host product of the activations with the weight, at `(r, c)`: row `r` against column `c`. -/
theorem dotA_apply (h : FVec Ideal S50000x128 .f32) (W : FVec Ideal S128x256 .f32) (r : S50000x256.Idx) :
    Host.dotGeneral dot_S50000x128_S128x256_S50000x256_1_0_0_1_n_n none h W r = ∑ k : Fin 128, h (ix2 (r 0) k) * W (ix2 k (r 1)) := by
  simp only [Host.dotGeneral]
  exact PlainDot.dotGeneral_apply dot_S50000x128_S128x256_S50000x256_1_0_0_1_n_n rfl rfl lhs_main_v27_0 lhs_main_v27_1 rhs_main_v27_0 rhs_main_v27_1 none _ h W r

/-- The kernel's layer on the table its launch wrote is the reference's layer on the activations. -/
theorem lawA (h : FVec Ideal S50000x128 .f32) (x1 : IVec S2x800000 32) (W : FVec Ideal S128x256 .f32) (b : FVec Ideal S256 .f32) :
    klayerA (F := Ideal) (Spec.lin h W (dcol (F := Ideal) x1)) x1 b = layerA (F := Ideal) h x1 W b := by
  have hlin : (Spec.lin h W (dcol (F := Ideal) x1) : S50000x256.Idx → EReal)
      = fun r => (Host.dotGeneral dot_S50000x128_S128x256_S50000x256_1_0_0_1_n_n none h W : FVec Ideal S50000x256 .f32) r * val_main_v11 (F := Ideal) x1 (ix1 (r 0)) := by
    funext r
    unfold Spec.lin
    exact congrArg₂ (fun a b : EReal => a * b) (dotA_apply h W r).symm (dcol_apply x1 (r 0))
  have hz : (val_main_v38 (F := Ideal)) = fun _ => (0 : EReal) := by
    funext j
    rw [val_main_v38_apply, val_main_cst_6_apply, Ideal.ofBits_def]
    exact Ideal.ofBits_zero_f32
  have e17 : val_main_v17 (F := Ideal) x1 = val_main_v33 (F := Ideal) x1 := rfl
  have hnorm : ∀ u : S850000x256.Idx, val_main_v36 (F := Ideal) x1 u
      = Host.gather gather_S50000_S850000x1_S850000_n_0_n_n_0_1_1 (val_main_v11 (F := Ideal) x1) (val_main_v33 (F := Ideal) x1) (ix1 (u 0))
        * Host.gather gather_S50000_S850000x1_S850000_n_0_n_n_0_1_1 (val_main_v11 (F := Ideal) x1) (val_main_v24 (F := Ideal) x1) (ix1 (u 0)) := by
    intro u
    have hi : idx_main_v35 (idx_main_v36 u) = ix1 (u 0) :=
      funext fun a => Fin.ext (by match a with | ⟨0, _⟩ => rfl)
    rw [val_main_v36_apply, val_main_v35_apply, norm_apply, hi, e17]
    rfl
  unfold klayerA layerA
  rw [hlin]
  exact coreA (Host.dotGeneral dot_S50000x128_S128x256_S50000x256_1_0_0_1_n_n none h W) (val_main_v11 (F := Ideal) x1) (val_main_v38 (F := Ideal)) hz
    (val_main_v39 (F := Ideal) x1) (val_main_v33 (F := Ideal) x1) (val_main_v24 (F := Ideal) x1)
    (dcol (F := Ideal) x1) (dcol_apply x1) (val_main_v36 (F := Ideal) x1) hnorm (val_main_v42 (F := Ideal) b)
    (factor_real x1) (dst_row x1)

/-! ## The second layer, 256 → 256 -/

/-- The kernel's layer over any arrays, at an index. -/
theorem ksideB (Z : FVec Ideal S50000x256 .f32) (dstI : IVec S850000x1 32) (G : FVec Ideal S850000x256 .bf16)
    (B bias : FVec Ideal S50000x256 .f32) (i : S50000x256.Idx) :
    addf (mulf (Host.scatterAdd scatter_S50000x256_S850000x1_S850000x256_1_0_0_1 Z dstI (extf (φ := .bf16) .f32 G Cert.KernelIdeal.Gen.bitsLt_bf16_f32)) B) bias i
      = Ideal.hostScatterAdd (ScatterRows.rowDims 50000 256 850000 scatter_S50000x256_S850000x1_S850000x256_1_0_0_1_wf) Z dstI G i * B i + bias i := rfl

/-- The reference's layer over any arrays, at an index. -/
theorem rsideB (Z : FVec Ideal S50000x256 .f32) (dstI : IVec S850000x1 32) (G NORM : FVec Ideal S850000x256 .f32)
    (bias : FVec Ideal S50000x256 .f32) (i : S50000x256.Idx) :
    addf (Host.scatterAdd scatter_S50000x256_S850000x1_S850000x256_1_0_0_1 Z dstI (mulf G NORM)) bias i
      = Ideal.hostScatterAdd (ScatterRows.rowDims 50000 256 850000 scatter_S50000x256_S850000x1_S850000x256_1_0_0_1_wf) Z dstI (fun u => G u * NORM u) i + bias i := rfl

/-- The law over any arrays: the destination factor moves out of the sum of the gathered, source-scaled rows. -/
theorem coreB (H : FVec Ideal S50000x256 .f32) (dv : FVec Ideal S50000 .f32) (Z : FVec Ideal S50000x256 .f32)
    (hZ : Z = fun _ => (0 : EReal)) (dstI srcW dstW : IVec S850000x1 32)
    (dc : FVec Ideal S50000x1 .f32) (hdc : ∀ r : Fin 50000, dc (ix2 r (0 : Fin 1)) = dv (ix1 r))
    (NORM : FVec Ideal S850000x256 .f32)
    (hnorm : ∀ u : S850000x256.Idx, NORM u = Host.gather gather_S50000_S850000x1_S850000_n_0_n_n_0_1_1 dv srcW (ix1 (u 0)) * Host.gather gather_S50000_S850000x1_S850000_n_0_n_n_0_1_1 dv dstW (ix1 (u 0)))
    (bias : FVec Ideal S50000x256 .f32)
    (hdv : ∀ r : Fin 50000, (∃ e : Fin 850000, (dstI (ix2 e (0 : Fin 1))).toInt = (r.val : ℤ)) →
      ∃ x : ℝ, 0 ≤ x ∧ dv (ix1 r) = (x : EReal))
    (hdst : ∀ (e : Fin 850000) (j : Fin 50000), (dstI (ix2 e (0 : Fin 1))).toInt = (j.val : ℤ) →
      GatherRows.rowOf (N := 50000) (by decide) dstW e = j) :
    addf (mulf (Host.scatterAdd scatter_S50000x256_S850000x1_S850000x256_1_0_0_1 Z dstI
        (extf (φ := .bf16) .f32 (Host.gather gather_S50000x256_S850000x1_S850000x256_1_0_n_n_0_1_1256 (fun r => H r * dv (ix1 (r 0))) srcW) Cert.KernelIdeal.Gen.bitsLt_bf16_f32))
        (broadcastInDim S50000x256 ![0, 1] Cert.KernelIdeal.Gen.bcast_S50000x1_S50000x256_0_1 dc)) bias
      = addf (Host.scatterAdd scatter_S50000x256_S850000x1_S850000x256_1_0_0_1 Z dstI (mulf (Host.gather gather_S50000x256_S850000x1_S850000x256_1_0_n_n_0_1_1256 H srcW) NORM)) bias := by
  funext i
  have hbc : broadcastInDim S50000x256 ![0, 1] Cert.KernelIdeal.Gen.bcast_S50000x1_S50000x256_0_1 dc i = dv (ix1 (i 0)) := by
    exact (broadcastInDim_apply _ Cert.KernelIdeal.Gen.bcast_S50000x1_S50000x256_0_1 dc i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans (hdc (i 0))
  have hg : gather_S50000x256_S850000x1_S850000x256_1_0_n_n_0_1_1256 = GatherRows.rowG 50000 256 850000 gather_S50000x256_S850000x1_S850000x256_1_0_n_n_0_1_1256_wf := rfl
  have hv : gather_S50000_S850000x1_S850000_n_0_n_n_0_1_1 = GatherRows.vecG 50000 850000 gather_S50000_S850000x1_S850000_n_0_n_n_0_1_1_wf := rfl
  rw [ksideB, rsideB, hbc, hZ]
  simp only [hnorm]
  rw [hg, hv]
  refine congrArg (· + bias i) ?_
  exact (LayerGuarded.scatter_gather_scale (N := 50000) (D := 256) (E := 850000) (by decide)
    scatter_S50000x256_S850000x1_S850000x256_1_0_0_1_wf gather_S50000x256_S850000x1_S850000x256_1_0_n_n_0_1_1256_wf gather_S50000_S850000x1_S850000_n_0_n_n_0_1_1_wf H dv srcW dstW dstI hdv hdst i).symm

/-- The host product of the activations with the weight, at `(r, c)`: row `r` against column `c`. -/
theorem dotB_apply (h : FVec Ideal S50000x256 .f32) (W : FVec Ideal S256x256 .f32) (r : S50000x256.Idx) :
    Host.dotGeneral dot_S50000x256_S256x256_S50000x256_1_0_0_1_n_n none h W r = ∑ k : Fin 256, h (ix2 (r 0) k) * W (ix2 k (r 1)) := by
  simp only [Host.dotGeneral]
  exact PlainDot.dotGeneral_apply dot_S50000x256_S256x256_S50000x256_1_0_0_1_n_n rfl rfl lhs_main_v45_0 lhs_main_v45_1 rhs_main_v45_0 rhs_main_v45_1 none _ h W r

/-- The kernel's layer on the table its launch wrote is the reference's layer on the activations. -/
theorem lawB (h : FVec Ideal S50000x256 .f32) (x1 : IVec S2x800000 32) (W : FVec Ideal S256x256 .f32) (b : FVec Ideal S256 .f32) :
    klayerB (F := Ideal) (Spec.lin h W (dcol (F := Ideal) x1)) x1 b = layerB (F := Ideal) h x1 W b := by
  have hlin : (Spec.lin h W (dcol (F := Ideal) x1) : S50000x256.Idx → EReal)
      = fun r => (Host.dotGeneral dot_S50000x256_S256x256_S50000x256_1_0_0_1_n_n none h W : FVec Ideal S50000x256 .f32) r * val_main_v11 (F := Ideal) x1 (ix1 (r 0)) := by
    funext r
    unfold Spec.lin
    exact congrArg₂ (fun a b : EReal => a * b) (dotB_apply h W r).symm (dcol_apply x1 (r 0))
  have hz : (val_main_v56 (F := Ideal)) = fun _ => (0 : EReal) := by
    funext j
    rw [val_main_v56_apply, val_main_cst_9_apply, Ideal.ofBits_def]
    exact Ideal.ofBits_zero_f32
  have e17 : val_main_v17 (F := Ideal) x1 = val_main_v51 (F := Ideal) x1 := rfl
  have hnorm : ∀ u : S850000x256.Idx, val_main_v54 (F := Ideal) x1 u
      = Host.gather gather_S50000_S850000x1_S850000_n_0_n_n_0_1_1 (val_main_v11 (F := Ideal) x1) (val_main_v51 (F := Ideal) x1) (ix1 (u 0))
        * Host.gather gather_S50000_S850000x1_S850000_n_0_n_n_0_1_1 (val_main_v11 (F := Ideal) x1) (val_main_v24 (F := Ideal) x1) (ix1 (u 0)) := by
    intro u
    have hi : idx_main_v53 (idx_main_v54 u) = ix1 (u 0) :=
      funext fun a => Fin.ext (by match a with | ⟨0, _⟩ => rfl)
    rw [val_main_v54_apply, val_main_v53_apply, norm_apply, hi, e17]
    rfl
  unfold klayerB layerB
  rw [hlin]
  exact coreB (Host.dotGeneral dot_S50000x256_S256x256_S50000x256_1_0_0_1_n_n none h W) (val_main_v11 (F := Ideal) x1) (val_main_v56 (F := Ideal)) hz
    (val_main_v57 (F := Ideal) x1) (val_main_v51 (F := Ideal) x1) (val_main_v24 (F := Ideal) x1)
    (dcol (F := Ideal) x1) (dcol_apply x1) (val_main_v54 (F := Ideal) x1) hnorm (val_main_v60 (F := Ideal) b)
    (factor_real x1) (dst_row x1)

/-! ## The third layer, 256 → 128 -/

/-- The kernel's layer over any arrays, at an index. -/
theorem ksideC (Z : FVec Ideal S50000x128 .f32) (dstI : IVec S850000x1 32) (G : FVec Ideal S850000x128 .bf16)
    (B bias : FVec Ideal S50000x128 .f32) (i : S50000x128.Idx) :
    addf (mulf (Host.scatterAdd scatter_S50000x128_S850000x1_S850000x128_1_0_0_1 Z dstI (extf (φ := .bf16) .f32 G Cert.KernelIdeal.Gen.bitsLt_bf16_f32)) B) bias i
      = Ideal.hostScatterAdd (ScatterRows.rowDims 50000 128 850000 scatter_S50000x128_S850000x1_S850000x128_1_0_0_1_wf) Z dstI G i * B i + bias i := rfl

/-- The reference's layer over any arrays, at an index. -/
theorem rsideC (Z : FVec Ideal S50000x128 .f32) (dstI : IVec S850000x1 32) (G NORM : FVec Ideal S850000x128 .f32)
    (bias : FVec Ideal S50000x128 .f32) (i : S50000x128.Idx) :
    addf (Host.scatterAdd scatter_S50000x128_S850000x1_S850000x128_1_0_0_1 Z dstI (mulf G NORM)) bias i
      = Ideal.hostScatterAdd (ScatterRows.rowDims 50000 128 850000 scatter_S50000x128_S850000x1_S850000x128_1_0_0_1_wf) Z dstI (fun u => G u * NORM u) i + bias i := rfl

/-- The law over any arrays: the destination factor moves out of the sum of the gathered, source-scaled rows. -/
theorem coreC (H : FVec Ideal S50000x128 .f32) (dv : FVec Ideal S50000 .f32) (Z : FVec Ideal S50000x128 .f32)
    (hZ : Z = fun _ => (0 : EReal)) (dstI srcW dstW : IVec S850000x1 32)
    (dc : FVec Ideal S50000x1 .f32) (hdc : ∀ r : Fin 50000, dc (ix2 r (0 : Fin 1)) = dv (ix1 r))
    (NORM : FVec Ideal S850000x128 .f32)
    (hnorm : ∀ u : S850000x128.Idx, NORM u = Host.gather gather_S50000_S850000x1_S850000_n_0_n_n_0_1_1 dv srcW (ix1 (u 0)) * Host.gather gather_S50000_S850000x1_S850000_n_0_n_n_0_1_1 dv dstW (ix1 (u 0)))
    (bias : FVec Ideal S50000x128 .f32)
    (hdv : ∀ r : Fin 50000, (∃ e : Fin 850000, (dstI (ix2 e (0 : Fin 1))).toInt = (r.val : ℤ)) →
      ∃ x : ℝ, 0 ≤ x ∧ dv (ix1 r) = (x : EReal))
    (hdst : ∀ (e : Fin 850000) (j : Fin 50000), (dstI (ix2 e (0 : Fin 1))).toInt = (j.val : ℤ) →
      GatherRows.rowOf (N := 50000) (by decide) dstW e = j) :
    addf (mulf (Host.scatterAdd scatter_S50000x128_S850000x1_S850000x128_1_0_0_1 Z dstI
        (extf (φ := .bf16) .f32 (Host.gather gather_S50000x128_S850000x1_S850000x128_1_0_n_n_0_1_1128 (fun r => H r * dv (ix1 (r 0))) srcW) Cert.KernelIdeal.Gen.bitsLt_bf16_f32))
        (broadcastInDim S50000x128 ![0, 1] Cert.KernelIdeal.Gen.bcast_S50000x1_S50000x128_0_1 dc)) bias
      = addf (Host.scatterAdd scatter_S50000x128_S850000x1_S850000x128_1_0_0_1 Z dstI (mulf (Host.gather gather_S50000x128_S850000x1_S850000x128_1_0_n_n_0_1_1128 H srcW) NORM)) bias := by
  funext i
  have hbc : broadcastInDim S50000x128 ![0, 1] Cert.KernelIdeal.Gen.bcast_S50000x1_S50000x128_0_1 dc i = dv (ix1 (i 0)) := by
    exact (broadcastInDim_apply _ Cert.KernelIdeal.Gen.bcast_S50000x1_S50000x128_0_1 dc i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans (hdc (i 0))
  have hg : gather_S50000x128_S850000x1_S850000x128_1_0_n_n_0_1_1128 = GatherRows.rowG 50000 128 850000 gather_S50000x128_S850000x1_S850000x128_1_0_n_n_0_1_1128_wf := rfl
  have hv : gather_S50000_S850000x1_S850000_n_0_n_n_0_1_1 = GatherRows.vecG 50000 850000 gather_S50000_S850000x1_S850000_n_0_n_n_0_1_1_wf := rfl
  rw [ksideC, rsideC, hbc, hZ]
  simp only [hnorm]
  rw [hg, hv]
  refine congrArg (· + bias i) ?_
  exact (LayerGuarded.scatter_gather_scale (N := 50000) (D := 128) (E := 850000) (by decide)
    scatter_S50000x128_S850000x1_S850000x128_1_0_0_1_wf gather_S50000x128_S850000x1_S850000x128_1_0_n_n_0_1_1128_wf gather_S50000_S850000x1_S850000_n_0_n_n_0_1_1_wf H dv srcW dstW dstI hdv hdst i).symm

/-- The host product of the activations with the weight, at `(r, c)`: row `r` against column `c`. -/
theorem dotC_apply (h : FVec Ideal S50000x256 .f32) (W : FVec Ideal S256x128 .f32) (r : S50000x128.Idx) :
    Host.dotGeneral dot_S50000x256_S256x128_S50000x128_1_0_0_1_n_n none h W r = ∑ k : Fin 256, h (ix2 (r 0) k) * W (ix2 k (r 1)) := by
  simp only [Host.dotGeneral]
  exact PlainDot.dotGeneral_apply dot_S50000x256_S256x128_S50000x128_1_0_0_1_n_n rfl rfl lhs_main_v63_0 lhs_main_v63_1 rhs_main_v63_0 rhs_main_v63_1 none _ h W r

/-- The kernel's layer on the table its launch wrote is the reference's layer on the activations. -/
theorem lawC (h : FVec Ideal S50000x256 .f32) (x1 : IVec S2x800000 32) (W : FVec Ideal S256x128 .f32) (b : FVec Ideal S128 .f32) :
    klayerC (F := Ideal) (Spec.lin h W (dcol (F := Ideal) x1)) x1 b = layerC (F := Ideal) h x1 W b := by
  have hlin : (Spec.lin h W (dcol (F := Ideal) x1) : S50000x128.Idx → EReal)
      = fun r => (Host.dotGeneral dot_S50000x256_S256x128_S50000x128_1_0_0_1_n_n none h W : FVec Ideal S50000x128 .f32) r * val_main_v11 (F := Ideal) x1 (ix1 (r 0)) := by
    funext r
    unfold Spec.lin
    exact congrArg₂ (fun a b : EReal => a * b) (dotC_apply h W r).symm (dcol_apply x1 (r 0))
  have hz : (val_main_v74 (F := Ideal)) = fun _ => (0 : EReal) := by
    funext j
    rw [val_main_v74_apply, val_main_cst_12_apply, Ideal.ofBits_def]
    exact Ideal.ofBits_zero_f32
  have e17 : val_main_v17 (F := Ideal) x1 = val_main_v69 (F := Ideal) x1 := rfl
  have hnorm : ∀ u : S850000x128.Idx, val_main_v72 (F := Ideal) x1 u
      = Host.gather gather_S50000_S850000x1_S850000_n_0_n_n_0_1_1 (val_main_v11 (F := Ideal) x1) (val_main_v69 (F := Ideal) x1) (ix1 (u 0))
        * Host.gather gather_S50000_S850000x1_S850000_n_0_n_n_0_1_1 (val_main_v11 (F := Ideal) x1) (val_main_v24 (F := Ideal) x1) (ix1 (u 0)) := by
    intro u
    have hi : idx_main_v71 (idx_main_v72 u) = ix1 (u 0) :=
      funext fun a => Fin.ext (by match a with | ⟨0, _⟩ => rfl)
    rw [val_main_v72_apply, val_main_v71_apply, norm_apply, hi, e17]
    rfl
  unfold klayerC layerC
  rw [hlin]
  exact coreC (Host.dotGeneral dot_S50000x256_S256x128_S50000x128_1_0_0_1_n_n none h W) (val_main_v11 (F := Ideal) x1) (val_main_v74 (F := Ideal)) hz
    (val_main_v75 (F := Ideal) x1) (val_main_v69 (F := Ideal) x1) (val_main_v24 (F := Ideal) x1)
    (dcol (F := Ideal) x1) (dcol_apply x1) (val_main_v72 (F := Ideal) x1) hnorm (val_main_v78 (F := Ideal) b)
    (factor_real x1) (dst_row x1)

end Cert.LayerLaws

end
-- ==== Proof.LibPoolSums.lean ====
/-
  Sums and small facts for the mean pooling over the graphs.

  A scatter-add of rows, read at row t and column c, is the operand's entry plus the sum over the update ROWS
  whose key is t of their entry in column c: the sum over the two-dimensional update indices with
  "row key = t and column = c" keeps one column of every row (scatter_rows_apply; scatter_vec_apply for a vector of updates).
  A key that is a non-negative signed word is left alone by the wrap "key < 0 ? key + n : key" (select_slt_zero).
  The mean of n copies of one extended real x, with the count guarded against zero, is x when n is positive and zero when
  n is zero, for every x, the infinities included (mean_const).
-/
import proofs.«147071_j46119358824917_2_alg».proof.Proof.LibScatterRows
import proofs.«147071_j46119358824917_2_alg».proof.Proof.LibGatherRows
import Idealize.ShloMosaic.PureOps.Ideal
import Idealize.ShloMosaic.PureOps.Ideal.Laws
import Idealize.ShloMosaic.Lib.ValueIdx
import Mathlib.Data.EReal.Operations

open Idealize.ShloMosaic Idealize.ShloMosaic.ValueIdx

namespace Cert.PoolSums

/-- A rank-1 index set is its coordinate's range … -/
def idxEquiv1 {n : ℕ} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ e : Fin n, f (ix1 e) :=
  (Equiv.sum_comp (idxEquiv1 (n := n)).symm f).symm

/-- A double sum over rows and columns that keeps, of the rows with a property, the one column c. -/
theorem sum_keep_col {N D : ℕ} (P : Fin N → Prop) [DecidablePred P] (f : (⟨2, ![N, D]⟩ : Shape).Idx → EReal) (c : Fin D) :
    (∑ a : Fin N, ∑ b : Fin D, if P a ∧ b.val = c.val then f (ix2 a b) else 0)
      = ∑ a : Fin N, if P a then f (ix2 a c) else 0 := by
  refine Finset.sum_congr rfl fun a _ => ?_
  by_cases h : P a
  · rw [if_pos h, Finset.sum_eq_single c]
    · rw [if_pos ⟨h, rfl⟩]
    · intro b _ hb
      exact if_neg (fun h' => hb (Fin.ext h'.2))
    · intro h'
      exact absurd (Finset.mem_univ c) h'
  · rw [if_neg h]
    exact Finset.sum_eq_zero fun b _ => if_neg (fun h' => h h'.1)

/-- The sum over the two-dimensional update indices with "row key = t and column = c" is the sum over the rows with key t
    of their entry in column c. -/
theorem sum_rows {N D w : ℕ} (idx : IVec ⟨2, ![N, 1]⟩ w) (t : ℤ) (f : (⟨2, ![N, D]⟩ : Shape).Idx → EReal) (c : Fin D) :
    (∑ u : (⟨2, ![N, D]⟩ : Shape).Idx, if (idx (ix2 (u 0) 0)).toInt = t ∧ (u 1).val = c.val then f u else 0)
      = ∑ e : Fin N, if (idx (ix2 e 0)).toInt = t then f (ix2 e c) else 0 := by
  rw [sum_idx2]
  exact sum_keep_col (fun e => (idx (ix2 e 0)).toInt = t) f c

/-- A scatter-add of rows read at row g, column c. -/
theorem scatter_rows_apply {K D N w : ℕ} (wf) (x : (⟨2, ![K, D]⟩ : Shape).Idx → EReal) (idx : IVec ⟨2, ![N, 1]⟩ w)
    (upd : (⟨2, ![N, D]⟩ : Shape).Idx → EReal) (g : Fin K) (c : Fin D) :
    Ideal.hostScatterAdd (Cert.Lib.ScatterRows.rowDims K D N wf) x idx upd (ix2 g c)
      = x (ix2 g c) + ∑ e : Fin N, if (idx (ix2 e 0)).toInt = (g.val : ℤ) then upd (ix2 e c) else 0 := by
  rw [Cert.Lib.ScatterRows.scatterAdd_row_apply]
  refine congrArg (fun s => x (ix2 g c) + s) ?_
  exact sum_rows idx (g.val : ℤ) upd c

/-- A scatter-add of a vector of updates read at position g. -/
theorem scatter_vec_apply {K N w : ℕ} (wf) (x : (⟨1, ![K]⟩ : Shape).Idx → EReal) (idx : IVec ⟨2, ![N, 1]⟩ w)
    (upd : (⟨1, ![N]⟩ : Shape).Idx → EReal) (g : Fin K) :
    Ideal.hostScatterAdd (Cert.Lib.ScatterRows.vecDims K N wf) x idx upd (ix1 g)
      = x (ix1 g) + ∑ e : Fin N, if (idx (ix2 e 0)).toInt = (g.val : ℤ) then upd (ix1 e) else 0 := by
  rw [Cert.Lib.ScatterRows.scatterAdd_vec_apply, sum_idx1]
  rfl

/-- A word that is a non-negative signed integer is not signed-less-than zero: the wrap leaves it alone. -/
theorem select_slt_zero (w n : BitVec 32) (h : 0 ≤ w.toInt) :
    Scalar.select (IntOp.cmpi .slt w 0#32) (IntOp.addi w n) w = w := by
  have hc : IntOp.cmpi .slt w 0#32 = 0#1 := by
    unfold IntOp.cmpi
    have : w.slt 0#32 = false := by
      rw [BitVec.slt]
      simp only [BitVec.toInt_zero, decide_eq_false_iff_not, not_lt]
      exact h
    rw [this]
    rfl
  rw [hc, select_zero]

/-- The clamp of a start index word whose signed value is g < n is g. -/
theorem rowOf_eq {N E w : ℕ} (hN : 0 < N) (idx : IVec ⟨2, ![E, 1]⟩ w) (e : Fin E) (g : Fin N)
    (h : (idx (ix2 e (0 : Fin 1))).toInt = (g.val : ℤ)) :
    Cert.Lib.GatherRows.rowOf hN idx e = g := by
  refine Fin.ext ?_
  unfold Cert.Lib.GatherRows.rowOf
  show min (idx (ix2 e (0 : Fin 1))).toInt.toNat (N - 1) = g.val
  rw [h]
  have := g.isLt
  simp only [Int.toNat_natCast]
  omega

/-- n copies of x, times the reciprocal of n, is x: at the infinities too. -/
theorem nsmul_div (n : ℕ) (hn : 0 < n) (x : EReal) : (n • x) * (((1 : ℝ) / (n : ℝ) : ℝ) : EReal) = x := by
  have hpos : (0 : ℝ) < (n : ℝ) := by exact_mod_cast hn
  have hinv : (0 : ℝ) < (1 : ℝ) / (n : ℝ) := by positivity
  rw [EReal.nsmul_eq_mul]
  have hn' : ((n : ℕ) : EReal) = ((n : ℝ) : EReal) := by norm_cast
  rw [hn']
  induction x using EReal.rec with
  | bot => rw [EReal.coe_mul_bot_of_pos hpos, EReal.bot_mul_coe_of_pos hinv]
  | top => rw [EReal.coe_mul_top_of_pos hpos, EReal.top_mul_coe_of_pos hinv]
  | coe r =>
    rw [← EReal.coe_mul, ← EReal.coe_mul]
    congr 1
    field_simp

/-- The mean of n copies of x over the guarded count is "count > 0 ? x : 0". -/
theorem mean_const (n : ℕ) (x : EReal) :
    Ideal.div (0 + n • x) (max ((n : ℝ) : EReal) 1) = Scalar.select (Ideal.cmp .ogt ((n : ℝ) : EReal) 0) x 0 := by
  rcases Nat.eq_zero_or_pos n with h0 | hpos
  · subst h0
    have hc : Ideal.cmp .ogt (((0 : ℕ) : ℝ) : EReal) 0 = 0#1 := by
      simp [Ideal.cmp]
    rw [hc, select_zero, zero_nsmul, add_zero]
    have hm : max ((((0 : ℕ) : ℝ)) : EReal) 1 = ((1 : ℝ) : EReal) := by
      simp
    rw [hm, Ideal.div_coe one_ne_zero, zero_mul]
  · have hr : (0 : ℝ) < (n : ℝ) := by exact_mod_cast hpos
    have hc : Ideal.cmp .ogt ((n : ℝ) : EReal) 0 = 1#1 := by
      simp [Ideal.cmp, hpos]
    rw [hc, select_one, zero_add]
    have h1 : (1 : EReal) ≤ ((n : ℝ) : EReal) := by
      have : (1 : ℝ) ≤ (n : ℝ) := by exact_mod_cast hpos
      exact_mod_cast this
    rw [max_eq_left h1, Ideal.div_coe hr.ne']
    exact nsmul_div n hpos x

/-- A sum that adds the same x for every element with a property is the number of such elements times x. -/
theorem sum_ite_const {ι : Type} [Fintype ι] (P : ι → Prop) [DecidablePred P] (x : EReal) :
    (∑ e : ι, if P e then x else 0) = (Finset.univ.filter P).card • x := by
  rw [← Finset.sum_filter, Finset.sum_const]

end Cert.PoolSums
-- ==== Proof.PoolLaw.lean ====
/-
  The kernel's pooled table is the reference's.

  Write S for the set of nodes whose graph key, read as a signed integer, is g. In the first 128 columns both sides
  are the sum over S of the node features in that column, divided by the same guarded count (the kernel scatters the
  rows of the features, the reference the rows of the features with a 129th column appended, which at a column below 128
  reads the features). In column 128 the reference sums over S the global feature gathered at each node's graph: for a
  node of S that is the global feature of g, so the sum is card S copies of it, and its mean over the guarded count
  is the global feature itself when S has a node and zero when it has none, which is what the kernel writes there.
-/
import proofs.«147071_j46119358824917_2_alg».proof.Proof.KChain
import proofs.«147071_j46119358824917_2_alg».proof.Proof.LibScatterRows
import proofs.«147071_j46119358824917_2_alg».proof.Proof.LibGatherRows
import proofs.«147071_j46119358824917_2_alg».proof.Proof.LibDegree
import proofs.«147071_j46119358824917_2_alg».proof.Proof.LibPoolSums
import Idealize.ShloMosaic.Lib.Pipeline.Value
import Idealize.ShloMosaic.Lib.ValueIdx
import Idealize.ShloMosaic.PureOps.Ideal.Laws

noncomputable section

namespace Cert.PoolLaw

open Cert.ReferenceIdeal Cert.ReferenceIdeal.Gen Cert.ReferenceIdeal.Read Idealize.ShloMosaic Idealize.ShloMosaic.ValueIdx
open Cert.PoolSums
/-! ## The two programs' terms over variables, read at a column -/

/-- The kernel's table at a column below 128: its scatter-add of the feature rows over its broadcast divisor. -/
theorem kcol (z : FVec Ideal S1024x128 .f32) (idx : IVec S50000x1 32) (h : FVec Ideal S50000x128 .f32)
    (y B : FVec Ideal S1024x1 .f32) (g : Fin 1024) (j : Fin 129) (hj : j.val < 128) :
    concatenate S1024x129 1
        [⟨S1024x128, Host.divf (Host.scatterAdd Cert.KernelIdeal.scatter_S1024x128_S50000x1_S50000x128_1_0_0_1 z idx h)
            (broadcastInDim S1024x128 ![0, 1] Cert.KernelIdeal.Facts₀.bcast_S1024x1_S1024x128_0_1 y)⟩, ⟨S1024x1, B⟩]
        Cert.KernelIdeal.Facts₀.concatenates_S1024x128_S1024x1_S1024x129_d1 (ix2 g j)
      = Ideal.div (z (ix2 g (⟨j.val, hj⟩ : Fin 128))
            + ∑ e : Fin 50000, if (idx (ix2 e (0 : Fin 1))).toInt = (g.val : ℤ) then h (ix2 e (⟨j.val, hj⟩ : Fin 128)) else 0)
          (y (ix2 g (0 : Fin 1))) := by
  refine (concatenate_pair_apply_left (t := S1024x129) (s₁ := S1024x128) (s₂ := S1024x1) (1 : Fin 2) _ _
    Cert.KernelIdeal.Facts₀.concatenates_S1024x128_S1024x1_S1024x129_d1
    (ix2 g j) rfl (ix2 g (⟨j.val, hj⟩ : Fin 128)) (fun b => match b with | ⟨0, _⟩ => rfl | ⟨1, _⟩ => rfl)).trans ?_
  show Ideal.div (Ideal.hostScatterAdd (Cert.Lib.ScatterRows.rowDims 1024 128 50000 _) z idx h (ix2 g (⟨j.val, hj⟩ : Fin 128)))
    (broadcastInDim S1024x128 ![0, 1] Cert.KernelIdeal.Facts₀.bcast_S1024x1_S1024x128_0_1 y (ix2 g (⟨j.val, hj⟩ : Fin 128))) = _
  rw [scatter_rows_apply]
  refine congrArg (Ideal.div _) ?_
  exact broadcastInDim_apply _ Cert.KernelIdeal.Facts₀.bcast_S1024x1_S1024x128_0_1 y (ix2 g (⟨j.val, hj⟩ : Fin 128)) (ix2 g (0 : Fin 1)) (fun a => match a with
    | ⟨0, _⟩ => by show g.val = if (1024 : Nat) = 1 then 0 else g.val; rw [if_neg (by decide)]
    | ⟨1, _⟩ => by show 0 = if (1 : Nat) = 1 then 0 else j.val; rw [if_pos rfl])

/-- The kernel's table at column 128: the guarded global feature. -/
theorem klast (A : FVec Ideal S1024x128 .f32) (cnt xg : FVec Ideal S1024 .f32) (g : Fin 1024) (j : Fin 129) (hj : j.val = 128) :
    concatenate S1024x129 1
        [⟨S1024x128, A⟩,
         ⟨S1024x1, broadcastInDim S1024x1 ![0] bcast_S1024_S1024x1_0
            (select (cmpf .ogt cnt (broadcastInDim S1024 ![] bcast_S_S1024 (constant (F := Ideal) S_ .f32 0x00000000#32)))
              xg (broadcastInDim S1024 ![] bcast_S_S1024 (constant (F := Ideal) S_ .f32 0x00000000#32)))⟩]
        Cert.KernelIdeal.Facts₀.concatenates_S1024x128_S1024x1_S1024x129_d1 (ix2 g j)
      = Scalar.select (Ideal.cmp .ogt (cnt (ix1 g)) (Ideal.ofBits .f32 0x00000000#32)) (xg (ix1 g))
          (Ideal.ofBits .f32 0x00000000#32) := by
  refine (concatenate_pair_apply_right (t := S1024x129) (s₁ := S1024x128) (s₂ := S1024x1) (1 : Fin 2) _ _
    Cert.KernelIdeal.Facts₀.concatenates_S1024x128_S1024x1_S1024x129_d1
    (ix2 g j) rfl rfl (ix2 g (0 : Fin 1))
    (fun b => match b with | ⟨0, _⟩ => fun _ => rfl | ⟨1, _⟩ => fun hb => absurd rfl hb)
    (by show 0 + 128 = j.val; omega)).trans ?_
  refine (broadcastInDim_apply _ bcast_S1024_S1024x1_0 _ (ix2 g (0 : Fin 1)) (ix1 g) (fun a => match a with
    | ⟨0, _⟩ => by show g.val = if (1024 : Nat) = 1 then 0 else g.val; rw [if_neg (by decide)])).trans ?_
  rfl

/-- The reference's table at a column below 128. -/
theorem rcol (z : FVec Ideal S1024x129 .f32) (idx : IVec S50000x1 32) (h : FVec Ideal S50000x128 .f32)
    (col : FVec Ideal S50000x1 .f32) (den : FVec Ideal S1024x129 .f32) (g : Fin 1024) (j : Fin 129) (hj : j.val < 128) :
    Host.divf (Host.scatterAdd scatter_S1024x129_S50000x1_S50000x129_1_0_0_1 z idx
        (concatenate S50000x129 1 [⟨S50000x128, h⟩, ⟨S50000x1, col⟩] concatenates_S50000x128_S50000x1_S50000x129_d1)) den
        (ix2 g j)
      = Ideal.div (z (ix2 g j)
            + ∑ e : Fin 50000, if (idx (ix2 e (0 : Fin 1))).toInt = (g.val : ℤ) then h (ix2 e (⟨j.val, hj⟩ : Fin 128)) else 0)
          (den (ix2 g j)) := by
  show Ideal.div (Ideal.hostScatterAdd (Cert.Lib.ScatterRows.rowDims 1024 129 50000 _) z idx _ (ix2 g j)) (den (ix2 g j)) = _
  rw [scatter_rows_apply]
  refine congrArg (fun s => Ideal.div (z (ix2 g j) + s) (den (ix2 g j))) ?_
  refine Finset.sum_congr rfl fun e _ => ?_
  refine congrArg (fun v => if (idx (ix2 e (0 : Fin 1))).toInt = (g.val : ℤ) then v else 0) ?_
  exact concatenate_pair_apply_left (t := S50000x129) (s₁ := S50000x128) (s₂ := S50000x1) (1 : Fin 2) h col
    concatenates_S50000x128_S50000x1_S50000x129_d1
    (ix2 e j) rfl (ix2 e (⟨j.val, hj⟩ : Fin 128)) (fun b => match b with | ⟨0, _⟩ => rfl | ⟨1, _⟩ => rfl)

/-- The reference's table at column 128. -/
theorem rlast (z : FVec Ideal S1024x129 .f32) (idx : IVec S50000x1 32) (h : FVec Ideal S50000x128 .f32)
    (col : FVec Ideal S50000x1 .f32) (den : FVec Ideal S1024x129 .f32) (g : Fin 1024) (j : Fin 129) (hj : j.val = 128) :
    Host.divf (Host.scatterAdd scatter_S1024x129_S50000x1_S50000x129_1_0_0_1 z idx
        (concatenate S50000x129 1 [⟨S50000x128, h⟩, ⟨S50000x1, col⟩] concatenates_S50000x128_S50000x1_S50000x129_d1)) den
        (ix2 g j)
      = Ideal.div (z (ix2 g j)
            + ∑ e : Fin 50000, if (idx (ix2 e (0 : Fin 1))).toInt = (g.val : ℤ) then col (ix2 e (0 : Fin 1)) else 0)
          (den (ix2 g j)) := by
  show Ideal.div (Ideal.hostScatterAdd (Cert.Lib.ScatterRows.rowDims 1024 129 50000 _) z idx _ (ix2 g j)) (den (ix2 g j)) = _
  rw [scatter_rows_apply]
  refine congrArg (fun s => Ideal.div (z (ix2 g j) + s) (den (ix2 g j))) ?_
  refine Finset.sum_congr rfl fun e _ => ?_
  refine congrArg (fun v => if (idx (ix2 e (0 : Fin 1))).toInt = (g.val : ℤ) then v else 0) ?_
  exact concatenate_pair_apply_right (t := S50000x129) (s₁ := S50000x128) (s₂ := S50000x1) (1 : Fin 2) h col
    concatenates_S50000x128_S50000x1_S50000x129_d1
    (ix2 e j) rfl rfl (ix2 e (0 : Fin 1))
    (fun b => match b with | ⟨0, _⟩ => fun _ => rfl | ⟨1, _⟩ => fun hb => absurd rfl hb)
    (by show 0 + 128 = j.val; omega)

/-! ## The pieces of the two programs read at an index -/

section pieces

variable (x2 : (⟨S50000, .i32⟩ : BufTy).Contents (Elt Ideal)) (x3 x4 x5 : (⟨S1024, .f32⟩ : BufTy).Contents (Elt Ideal))

/-- The keys as the feature scatter reads them. -/
theorem key98 (e : Fin 50000) : val_main_v98 (F := Ideal) x2 (ix2 e (0 : Fin 1)) = x2 (ix1 e) := by
  rw [val_main_v98_apply]
  exact congrArg x2 (funext fun a => match a with | ⟨0, _⟩ => rfl)

/-- The keys as the counting scatter reads them. -/
theorem key95 (e : Fin 50000) : val_main_v95 (F := Ideal) x2 (ix2 e (0 : Fin 1)) = x2 (ix1 e) := by
  rw [val_main_v95_apply]
  exact congrArg x2 (funext fun a => match a with | ⟨0, _⟩ => rfl)

/-- The wrapped key of a node whose key is non-negative is the key. -/
theorem key89 (e : Fin 50000) (h : 0 ≤ (x2 (ix1 e)).toInt) :
    val_main_v89 (F := Ideal) x2 (ix2 e (0 : Fin 1)) = x2 (ix1 e) := by
  have hi : idx_main_v89 (ix2 e (0 : Fin 1)) = ix1 e := funext fun a => match a with | ⟨0, _⟩ => rfl
  rw [val_main_v89_apply, hi, val_main_v88_apply, val_main_v85_apply, val_main_v87_apply, val_main_v84_apply,
    val_main_c_14_apply, val_main_v86_apply, val_main_c_15_apply]
  exact select_slt_zero _ _ h

/-- The gathered global feature of a node of graph g is the global feature of g. -/
theorem col_eq (e : Fin 50000) (g : Fin 1024) (h : (x2 (ix1 e)).toInt = (g.val : ℤ)) :
    val_main_v91 (F := Ideal) x2 x3 x4 x5 (ix2 e (0 : Fin 1)) = val_main_v83 (F := Ideal) x3 x4 x5 (ix1 g) := by
  have hi : idx_main_v91 (ix2 e (0 : Fin 1)) = ix1 e := funext fun a => match a with | ⟨0, _⟩ => rfl
  rw [val_main_v91_apply, hi]
  unfold val_main_v90
  generalize val_main_v83 (F := Ideal) x3 x4 x5 = xg
  refine (Cert.Lib.GatherRows.gather_vec_apply (by decide : 0 < 1024) _ xg (val_main_v89 (F := Ideal) x2) e).trans ?_
  refine congrArg (fun r => xg (ix1 r)) ?_
  refine rowOf_eq _ _ e g ?_
  rw [key89 x2 e (by rw [h]; exact Int.natCast_nonneg _), h]

/-- The node count of graph g: zero plus a one for every node whose key is g. -/
theorem count_eq (g : Fin 1024) :
    val_main_v96 (F := Ideal) x2 (ix1 g)
      = Ideal.ofBits .f32 0x00000000#32
        + ∑ e : Fin 50000, if (x2 (ix1 e)).toInt = (g.val : ℤ) then Ideal.ofBits .f32 0x3F800000#32 else 0 := by
  unfold val_main_v96
  show Ideal.hostScatterAdd (Cert.Lib.ScatterRows.vecDims 1024 50000 _) (val_main_v94 (F := Ideal))
    (val_main_v95 (F := Ideal) x2) (val_main_v93 (F := Ideal)) (ix1 g) = _
  rw [scatter_vec_apply]
  simp only [key95, val_main_v94_apply, val_main_cst_17_apply, val_main_v93_apply, val_main_cst_16_apply]
  rfl

/-- The divisor at any column is the guarded count of the row's graph. -/
theorem v103_eq (g : Fin 1024) (j : Fin 129) :
    val_main_v103 (F := Ideal) x2 (ix2 g j) = val_main_v102 (F := Ideal) x2 (ix2 g (0 : Fin 1)) := by
  rw [val_main_v103_apply]
  exact congrArg (val_main_v102 (F := Ideal) x2) (funext fun a => match a with | ⟨0, _⟩ => rfl | ⟨1, _⟩ => rfl)

theorem v102_eq (g : Fin 1024) :
    val_main_v102 (F := Ideal) x2 (ix2 g (0 : Fin 1))
      = max (val_main_v96 (F := Ideal) x2 (ix1 g)) (Ideal.ofBits .f32 0x3F800000#32) := by
  have hi : idx_main_v102 (ix2 g (0 : Fin 1)) = ix1 g := funext fun a => match a with | ⟨0, _⟩ => rfl
  rw [val_main_v102_apply, hi, val_main_v101_apply, val_main_v100_apply, val_main_cst_19_apply]
  rfl

/-- The reference's scatter starts from the float zero. -/
theorem z97 (i : S1024x129.Idx) : val_main_v97 (F := Ideal) i = Ideal.ofBits .f32 0x00000000#32 := by
  rw [val_main_v97_apply, val_main_cst_18_apply]
  rfl

end pieces

/-- The last column's arithmetic: with n the number of elements with the property, the guarded global feature is the mean
    of n copies of it over the guarded count. -/
theorem last_math {ι : Type} [Fintype ι] (P : ι → Prop) [DecidablePred P] (xg : EReal) :
    Scalar.select (Ideal.cmp .ogt (Ideal.ofBits .f32 0x00000000#32 + ∑ e : ι, if P e then Ideal.ofBits .f32 0x3F800000#32 else 0)
        (Ideal.ofBits .f32 0x00000000#32)) xg (Ideal.ofBits .f32 0x00000000#32)
      = Ideal.div (Ideal.ofBits .f32 0x00000000#32 + ∑ e : ι, if P e then xg else 0)
          (max (Ideal.ofBits .f32 0x00000000#32 + ∑ e : ι, if P e then Ideal.ofBits .f32 0x3F800000#32 else 0)
            (Ideal.ofBits .f32 0x3F800000#32)) := by
  have h1 : Ideal.ofBits .f32 0x3F800000#32 = 1 := Cert.Lib.Degree.one_eq
  rw [sum_ite_const, sum_ite_const, Ideal.ofBits_zero_f32, h1]
  have hc : (0 : EReal) + (Finset.univ.filter P).card • (1 : EReal) = (((Finset.univ.filter P).card : ℝ) : EReal) := by
    rw [zero_add, EReal.nsmul_eq_mul, mul_one]
    norm_cast
  rw [hc]
  exact (mean_const _ xg).symm

/-- The kernel's pooled table is the reference's. -/
theorem pool_eq (h : (⟨S50000x128, .f32⟩ : BufTy).Contents (Elt Ideal)) (x2 : (⟨S50000, .i32⟩ : BufTy).Contents (Elt Ideal))
    (x3 x4 x5 : (⟨S1024, .f32⟩ : BufTy).Contents (Elt Ideal)) :
    Cert.KChain.kpool (F := Ideal) h x2 x3 x4 x5 = Cert.ReferenceIdeal.RefChain.pool (F := Ideal) h x2 x3 x4 x5 := by
  funext i
  obtain ⟨g, j, rfl⟩ : ∃ (g : Fin 1024) (j : Fin 129), i = ix2 g j := ⟨i 0, i 1, eq_ix2 i⟩
  unfold Cert.KChain.kpool Cert.ReferenceIdeal.RefChain.pool
  by_cases hj : j.val < 128
  · rw [kcol _ _ _ _ _ g j hj, rcol _ _ _ _ _ g j hj, v103_eq, z97]
    rfl
  · have hj' : j.val = 128 := by have := j.isLt; omega
    rw [klast _ _ _ g j hj', rlast _ _ _ _ _ g j hj', v103_eq, v102_eq, z97, count_eq]
    simp only [key98]
    have hs : (∑ e : Fin 50000, if (x2 (ix1 e)).toInt = (g.val : ℤ) then val_main_v91 (F := Ideal) x2 x3 x4 x5 (ix2 e (0 : Fin 1)) else 0)
        = ∑ e : Fin 50000, if (x2 (ix1 e)).toInt = (g.val : ℤ) then val_main_v83 (F := Ideal) x3 x4 x5 (ix1 g) else 0 := by
      refine Finset.sum_congr rfl fun e _ => ?_
      by_cases hk : (x2 (ix1 e)).toInt = (g.val : ℤ)
      · rw [if_pos hk, if_pos hk, col_eq x2 x3 x4 x5 e g hk]
      · rw [if_neg hk, if_neg hk]
    rw [hs]
    exact last_math (fun e : Fin 50000 => (x2 (ix1 e)).toInt = (g.val : ℤ)) _

end Cert.PoolLaw

end
-- ==== Proof.HeadLaw.lean ====
/-
  The four dense layers of the head, read index by index.

  A dense layer of the reference is a plain matrix product plus a bias that is broadcast twice
  ([d] → [1, d] → [rows, d]); read at an index that is the row of the input against the column of the weights
  plus the bias at that column: the function "dense" of the index-by-index definitions. A rectifier is the larger of an
  entry and the broadcast float zero. The head is their composition.
-/
import proofs.«147071_j46119358824917_2_alg».proof.Proof.RefChain
import proofs.«147071_j46119358824917_2_alg».proof.Proof.Spec
import proofs.«147071_j46119358824917_2_alg».proof.Proof.LibPlainDot
import Idealize.ShloMosaic.Lib.Pipeline.Value
import Idealize.ShloMosaic.Lib.ValueIdx
import Idealize.ShloMosaic.PureOps.Ideal.Laws

noncomputable section

namespace Cert.HeadLaw

open Cert.ReferenceIdeal Cert.ReferenceIdeal.Gen Cert.ReferenceIdeal.Read Cert.ReferenceIdeal.Facts₀ Idealize.ShloMosaic Idealize.ShloMosaic.ValueIdx

/-- A plain matrix product plus an array that reads the bias at the column: the dense layer. -/
theorem dense_eq {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (x : FVec Ideal (⟨2, ![M, K]⟩ : Shape) .f32) (W : FVec Ideal (⟨2, ![K, N]⟩ : Shape) .f32)
    (b : FVec Ideal (⟨1, ![N]⟩ : Shape) .f32) (B : FVec Ideal (⟨2, ![M, N]⟩ : Shape) .f32)
    (hB : ∀ i, B i = b (ix1 (i 1))) :
    addf (Host.dotGeneral D none x W) B = Cert.Spec.dense x W b := by
  funext i
  show FloatOps.addf (Host.dotGeneral D none x W i) (B i) = _
  simp only [Host.dotGeneral]
  rw [Ideal.addf_def, Cert.Lib.PlainDot.dotGeneral_apply D hr hs l0 l1 r0 r1, hB]
  rfl

/-- The larger of an array and an array that is the float zero everywhere: the rectifier. -/
theorem relu_eq {s : Shape} (y Z : FVec Ideal s .f32) (hZ : ∀ i, Z i = Ideal.ofBits .f32 0x00000000#32) :
    maximumf y Z = Cert.Spec.relu y := by
  funext i
  show FloatOps.maximumf (y i) (Z i) = _
  rw [Ideal.maximumf_def, hZ]
  rfl

/-! The four broadcast biases read the bias at the column. -/

theorem bias1 (x13 : (⟨S128, .f32⟩ : BufTy).Contents (Elt Ideal)) (i : S1024x128.Idx) :
    val_main_v107 (F := Ideal) x13 i = x13 (ix1 (i 1)) := by
  rw [val_main_v107_apply, val_main_v106_apply]
  exact congrArg x13 (funext fun a => match a with | ⟨0, _⟩ => rfl)

theorem bias2 (x15 : (⟨S64, .f32⟩ : BufTy).Contents (Elt Ideal)) (i : S1024x64.Idx) :
    val_main_v112 (F := Ideal) x15 i = x15 (ix1 (i 1)) := by
  rw [val_main_v112_apply, val_main_v111_apply]
  exact congrArg x15 (funext fun a => match a with | ⟨0, _⟩ => rfl)

theorem bias3 (x17 : (⟨S32, .f32⟩ : BufTy).Contents (Elt Ideal)) (i : S1024x32.Idx) :
    val_main_v117 (F := Ideal) x17 i = x17 (ix1 (i 1)) := by
  rw [val_main_v117_apply, val_main_v116_apply]
  exact congrArg x17 (funext fun a => match a with | ⟨0, _⟩ => rfl)

theorem bias4 (x19 : (⟨S1, .f32⟩ : BufTy).Contents (Elt Ideal)) (i : S1024x1.Idx) :
    val_main_v122 (F := Ideal) x19 i = x19 (ix1 (i 1)) := by
  rw [val_main_v122_apply, val_main_v121_apply]
  exact congrArg x19 (funext fun a => match a with
    | ⟨0, _⟩ => Fin.ext (by have h : (i 1).val < 1 := (i 1).isLt; show 0 = (i 1).val; omega))

/-! The three broadcast zero constants are the float zero everywhere. -/

theorem zero1 (i : S1024x128.Idx) : val_main_call0_v0 (F := Ideal) i = Ideal.ofBits .f32 0x00000000#32 := by
  rw [val_main_call0_v0_apply, val_main_call0_cst_apply]
  rfl

theorem zero2 (i : S1024x64.Idx) : val_main_call1_v0 (F := Ideal) i = Ideal.ofBits .f32 0x00000000#32 := by
  rw [val_main_call1_v0_apply, val_main_call1_cst_apply]
  rfl

theorem zero3 (i : S1024x32.Idx) : val_main_call2_v0 (F := Ideal) i = Ideal.ofBits .f32 0x00000000#32 := by
  rw [val_main_call2_v0_apply, val_main_call2_cst_apply]
  rfl

/-! The four dense layers. -/

theorem dense1 (p : (⟨S1024x129, .f32⟩ : BufTy).Contents (Elt Ideal)) (x12 : (⟨S129x128, .f32⟩ : BufTy).Contents (Elt Ideal))
    (x13 : (⟨S128, .f32⟩ : BufTy).Contents (Elt Ideal)) :
    addf (F := Ideal) (Host.dotGeneral (φ₁ := .f32) (φ₂ := .f32) dot_S1024x129_S129x128_S1024x128_1_0_0_1_n_n none p x12) (val_main_v107 (F := Ideal) x13)
      = Cert.Spec.dense p x12 x13 :=
  dense_eq dot_S1024x129_S129x128_S1024x128_1_0_0_1_n_n rfl rfl lhs_main_v105_0 lhs_main_v105_1 rhs_main_v105_0
    rhs_main_v105_1 p x12 x13 _ (bias1 x13)

theorem dense2 (p : (⟨S1024x128, .f32⟩ : BufTy).Contents (Elt Ideal)) (x14 : (⟨S128x64, .f32⟩ : BufTy).Contents (Elt Ideal))
    (x15 : (⟨S64, .f32⟩ : BufTy).Contents (Elt Ideal)) :
    addf (F := Ideal) (Host.dotGeneral (φ₁ := .f32) (φ₂ := .f32) dot_S1024x128_S128x64_S1024x64_1_0_0_1_n_n none p x14) (val_main_v112 (F := Ideal) x15)
      = Cert.Spec.dense p x14 x15 :=
  dense_eq dot_S1024x128_S128x64_S1024x64_1_0_0_1_n_n rfl rfl lhs_main_v110_0 lhs_main_v110_1 rhs_main_v110_0
    rhs_main_v110_1 p x14 x15 _ (bias2 x15)

theorem dense3 (p : (⟨S1024x64, .f32⟩ : BufTy).Contents (Elt Ideal)) (x16 : (⟨S64x32, .f32⟩ : BufTy).Contents (Elt Ideal))
    (x17 : (⟨S32, .f32⟩ : BufTy).Contents (Elt Ideal)) :
    addf (F := Ideal) (Host.dotGeneral (φ₁ := .f32) (φ₂ := .f32) dot_S1024x64_S64x32_S1024x32_1_0_0_1_n_n none p x16) (val_main_v117 (F := Ideal) x17)
      = Cert.Spec.dense p x16 x17 :=
  dense_eq dot_S1024x64_S64x32_S1024x32_1_0_0_1_n_n rfl rfl lhs_main_v115_0 lhs_main_v115_1 rhs_main_v115_0
    rhs_main_v115_1 p x16 x17 _ (bias3 x17)

theorem dense4 (p : (⟨S1024x32, .f32⟩ : BufTy).Contents (Elt Ideal)) (x18 : (⟨S32x1, .f32⟩ : BufTy).Contents (Elt Ideal))
    (x19 : (⟨S1, .f32⟩ : BufTy).Contents (Elt Ideal)) :
    addf (F := Ideal) (Host.dotGeneral (φ₁ := .f32) (φ₂ := .f32) dot_S1024x32_S32x1_S1024x1_1_0_0_1_n_n none p x18) (val_main_v122 (F := Ideal) x19)
      = Cert.Spec.dense p x18 x19 :=
  dense_eq dot_S1024x32_S32x1_S1024x1_1_0_0_1_n_n rfl rfl lhs_main_v120_0 lhs_main_v120_1 rhs_main_v120_0
    rhs_main_v120_1 p x18 x19 _ (bias4 x19)

/-- The head of the index-by-index definitions is the reference's four dense layers. -/
theorem head_eq (p : (⟨S1024x129, .f32⟩ : BufTy).Contents (Elt Ideal)) (x12 : (⟨S129x128, .f32⟩ : BufTy).Contents (Elt Ideal)) (x13 : (⟨S128, .f32⟩ : BufTy).Contents (Elt Ideal)) (x14 : (⟨S128x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal)) :
    Cert.Spec.head p x12 x13 x14 x15 x16 x17 x18 x19 = Cert.ReferenceIdeal.RefChain.headR (F := Ideal) p x12 x13 x14 x15 x16 x17 x18 x19 := by
  unfold Cert.ReferenceIdeal.RefChain.headR Cert.Spec.head
  rw [dense1, relu_eq _ _ zero1, dense2, relu_eq _ _ zero2, dense3, relu_eq _ _ zero3, dense4]

end Cert.HeadLaw

end
-- ==== Proof.Bridge.lean ====
/-
  The kernel program's result function is the reference program's.

  Layer by layer the kernel's graph layer on the table its launch wrote is the reference's layer on the same
  activations (the normalisation law), so the node features agree; the two poolings agree on equal features; and the
  four dense layers of the head are the same sums.
-/
import proofs.«147071_j46119358824917_2_alg».proof.Proof.LayerLaws
import proofs.«147071_j46119358824917_2_alg».proof.Proof.PoolLaw
import proofs.«147071_j46119358824917_2_alg».proof.Proof.HeadLaw

noncomputable section

namespace Cert.Bridge

open Cert.ReferenceIdeal Cert.ReferenceIdeal.Gen Cert.ReferenceIdeal.Read Cert.ReferenceIdeal.RefChain Cert.KChain Idealize.ShloMosaic

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 x5 : (⟨S1024, .f32⟩ : BufTy).Contents (Elt Ideal))
  (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
  (x12 : (⟨S129x128, .f32⟩ : BufTy).Contents (Elt Ideal)) (x13 : (⟨S128, .f32⟩ : BufTy).Contents (Elt Ideal)) (x14 : (⟨S128x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal))

/-- The node features after the three layers are the same array in both programs. -/
theorem nodes_eq : knodes x0 x1 x6 x7 x8 x9 x10 x11 = nodes (F := Ideal) x0 x1 x6 x7 x8 x9 x10 x11 := by
  unfold knodes nodes
  rw [Cert.LayerLaws.lawA, Cert.LayerLaws.lawB, Cert.LayerLaws.lawC]

/-- The kernel's result function is the reference's result term. -/
theorem result_eq :
    kout x0 x1 x2 x3 x4 x5 x6 x7 x8 x9 x10 x11 x12 x13 x14 x15 x16 x17 x18 x19 = val_main_v123 (F := Ideal) x0 x1 x2 x3 x4 x5 x6 x7 x8 x9 x10 x11 x12 x13 x14 x15 x16 x17 x18 x19 := by
  rw [RefChain.result_eq (F := Ideal)]
  unfold kout
  rw [nodes_eq, Cert.PoolLaw.pool_eq, Cert.HeadLaw.head_eq]

end Cert.Bridge

end
-- ==== Proof.lean ====
/-
  The certificate of a three-layer graph convolution network with mean pooling and a dense head.

  The kernel program scales the rows of each layer's product `h · W` by the node factors inside its launch and once
  more after the scatter-add; the reference scales every gathered row by the product of the two endpoint factors.
  At the extended reals both are the same array (the factor of the destination node is a non-negative real wherever a
  row lands, so it moves out of the sum), the pooled tables agree column by column, and the head's four dense layers
  are the same sums: `Cert.Bridge.result_eq`. The frames of the two kernel programs are the generated ones; the
  reference's frame is its generated run with the result dropped; the idealization rewrote nothing.
-/
import proofs.«147071_j46119358824917_2_alg».proof.Defs
import proofs.«147071_j46119358824917_2_alg».proof.Proof.Gen.Kernel
import proofs.«147071_j46119358824917_2_alg».proof.Proof.Gen.Kernel.Skeleton
import proofs.«147071_j46119358824917_2_alg».proof.Proof.Gen.Kernel.Launch
import proofs.«147071_j46119358824917_2_alg».proof.Proof.Gen.Kernel.Points
import proofs.«147071_j46119358824917_2_alg».proof.Proof.Gen.Kernel.Frame
import proofs.«147071_j46119358824917_2_alg».proof.Proof.Gen.KernelIdeal
import proofs.«147071_j46119358824917_2_alg».proof.Proof.Gen.KernelIdeal.Skeleton
import proofs.«147071_j46119358824917_2_alg».proof.Proof.Gen.KernelIdeal.Launch
import proofs.«147071_j46119358824917_2_alg».proof.Proof.Gen.KernelIdeal.Points
import proofs.«147071_j46119358824917_2_alg».proof.Proof.Gen.KernelIdeal.Frame
import proofs.«147071_j46119358824917_2_alg».proof.Proof.Gen.ReferenceIdeal
import proofs.«147071_j46119358824917_2_alg».proof.Proof.Gen.Pre_finite_inputs
import proofs.«147071_j46119358824917_2_alg».proof.Proof.Gen.ReferenceIdeal.Run
import proofs.«147071_j46119358824917_2_alg».proof.Proof.Gen.ReferenceIdeal.Read
import Idealize.ShloMosaic.Adequacy
import Idealize.ShloMosaic.Init
import proofs.«147071_j46119358824917_2_alg».proof.Proof.KernelRun
import proofs.«147071_j46119358824917_2_alg».proof.Proof.HostChain
import proofs.«147071_j46119358824917_2_alg».proof.Proof.Bridge

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

set_option maxHeartbeats 4000000 in
/-- Both programs end with the result array at one function of the arguments: the reference's result term, which the
    kernel's chain of launches and host operations computes as well (`Cert.Bridge.result_eq`). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans ((Cert.KernelIdeal.HostChain.result m ρ c).trans
        (Cert.Bridge.result_eq _ _ _ _ _ _ _ _ _ _ _ _ _ _ _ _ _ _ _ _)), (h c).2⟩)
      (Cert.KernelIdeal.KRun.run_main m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v123_eq m' c).trans ?_
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
